-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x80 : Shape := ⟨2, ![262144, 80]⟩
abbrev S160x80 : Shape := ⟨2, ![160, 80]⟩
abbrev S160 : Shape := ⟨1, ![160]⟩
abbrev S_ : Shape := ⟨0, ![]⟩

class Facts : Prop where
  bcast_S_S262144x80 : S_.BroadcastsInDim S262144x80 (![] : Fin 0 → Fin S262144x80.rank)
  reducesTo_S262144x80_S_d0_1 : S262144x80.ReducesTo [0, 1] S_
  h_S_ : 0 < S_.numel
  bcast_S_S160x80 : S_.BroadcastsInDim S160x80 (![] : Fin 0 → Fin S160x80.rank)
  reducesTo_S160x80_S_d0_1 : S160x80.ReducesTo [0, 1] S_
  bcast_S_S160 : S_.BroadcastsInDim S160 (![] : Fin 0 → Fin S160.rank)
  reducesTo_S160_S_d0 : S160.ReducesTo [0] S_

variable [Facts]

def fn_part4 {F : FTy → Type} [FloatOps F] (main_arg14 : FVec F S160 .f32) (main_v63 : IVec S_ 1) (main_v67 : IVec S_ 1) : IVec S_ 1 :=
  let main_v68 : IVec S_ 1 := andi main_v63 main_v67
  let main_v69 : FVec F S160 .f32 := Host.absf main_arg14
  let main_cst_26 : FVec F S_ .f32 := constant S_ .f32 0x7F800000#32
  let main_v70 : FVec F S160 .f32 := broadcastInDim S160 ![] bcast_S_S160 main_cst_26
  let main_v71 : IVec S160 1 := cmpf .olt main_v69 main_v70
  let main_c_27 : IVec S_ 1 := constantI S_ 1 1#1
  let main_v72 : IVec S_ 1 := (fun x v => Host.reduce IntOp.andi x v reducesTo_S160_S_d0 h_S_) main_v71 main_c_27
  let main_v73 : IVec S_ 1 := andi main_v68 main_v72
  main_v73

def fn_part3 {F : FTy → Type} [FloatOps F] (main_arg11 : FVec F S160x80 .f32) (main_arg12 : FVec F S160 .f32) (main_arg13 : FVec F S160 .f32) (main_arg14 : FVec F S160 .f32) (main_v48 : IVec S_ 1) (main_v49 : FVec F S160 .f32) (main_v50 : FVec F S160 .f32) : IVec S_ 1 :=
  let main_v51 : IVec S160 1 := cmpf .olt main_v49 main_v50
  let main_c_19 : IVec S_ 1 := constantI S_ 1 1#1
  let main_v52 : IVec S_ 1 := (fun x v => Host.reduce IntOp.andi x v reducesTo_S160_S_d0 h_S_) main_v51 main_c_19
  let main_v53 : IVec S_ 1 := andi main_v48 main_v52
  let main_v54 : FVec F S160x80 .f32 := Host.absf main_arg11
  let main_cst_20 : FVec F S_ .f32 := constant S_ .f32 0x7F800000#32
  let main_v55 : FVec F S160x80 .f32 := broadcastInDim S160x80 ![] bcast_S_S160x80 main_cst_20
  let main_v56 : IVec S160x80 1 := cmpf .olt main_v54 main_v55
  let main_c_21 : IVec S_ 1 := constantI S_ 1 1#1
  let main_v57 : IVec S_ 1 := (fun x v => Host.reduce IntOp.andi x v reducesTo_S160x80_S_d0_1 h_S_) main_v56 main_c_21
  let main_v58 : IVec S_ 1 := andi main_v53 main_v57
  let main_v59 : FVec F S160 .f32 := Host.absf main_arg12
  let main_cst_22 : FVec F S_ .f32 := constant S_ .f32 0x7F800000#32
  let main_v60 : FVec F S160 .f32 := broadcastInDim S160 ![] bcast_S_S160 main_cst_22
  let main_v61 : IVec S160 1 := cmpf .olt main_v59 main_v60
  let main_c_23 : IVec S_ 1 := constantI S_ 1 1#1
  let main_v62 : IVec S_ 1 := (fun x v => Host.reduce IntOp.andi x v reducesTo_S160_S_d0 h_S_) main_v61 main_c_23
  let main_v63 : IVec S_ 1 := andi main_v58 main_v62
  let main_v64 : FVec F S160 .f32 := Host.absf main_arg13
  let main_cst_24 : FVec F S_ .f32 := constant S_ .f32 0x7F800000#32
  let main_v65 : FVec F S160 .f32 := broadcastInDim S160 ![] bcast_S_S160 main_cst_24
  let main_v66 : IVec S160 1 := cmpf .olt main_v64 main_v65
  let main_c_25 : IVec S_ 1 := constantI S_ 1 1#1
  let main_v67 : IVec S_ 1 := (fun x v => Host.reduce IntOp.andi x v reducesTo_S160_S_d0 h_S_) main_v66 main_c_25
  fn_part4 (F := F) main_arg14 main_v63 main_v67

def fn_part2 {F : FTy → Type} [FloatOps F] (main_arg7 : FVec F S160x80 .f32) (main_arg8 : FVec F S160 .f32) (main_arg9 : FVec F S160 .f32) (main_arg10 : FVec F S160 .f32) (main_arg11 : FVec F S160x80 .f32) (main_arg12 : FVec F S160 .f32) (main_arg13 : FVec F S160 .f32) (main_arg14 : FVec F S160 .f32) (main_v33 : IVec S_ 1) : IVec S_ 1 :=
  let main_v34 : FVec F S160x80 .f32 := Host.absf main_arg7
  let main_cst_12 : FVec F S_ .f32 := constant S_ .f32 0x7F800000#32
  let main_v35 : FVec F S160x80 .f32 := broadcastInDim S160x80 ![] bcast_S_S160x80 main_cst_12
  let main_v36 : IVec S160x80 1 := cmpf .olt main_v34 main_v35
  let main_c_13 : IVec S_ 1 := constantI S_ 1 1#1
  let main_v37 : IVec S_ 1 := (fun x v => Host.reduce IntOp.andi x v reducesTo_S160x80_S_d0_1 h_S_) main_v36 main_c_13
  let main_v38 : IVec S_ 1 := andi main_v33 main_v37
  let main_v39 : FVec F S160 .f32 := Host.absf main_arg8
  let main_cst_14 : FVec F S_ .f32 := constant S_ .f32 0x7F800000#32
  let main_v40 : FVec F S160 .f32 := broadcastInDim S160 ![] bcast_S_S160 main_cst_14
  let main_v41 : IVec S160 1 := cmpf .olt main_v39 main_v40
  let main_c_15 : IVec S_ 1 := constantI S_ 1 1#1
  let main_v42 : IVec S_ 1 := (fun x v => Host.reduce IntOp.andi x v reducesTo_S160_S_d0 h_S_) main_v41 main_c_15
  let main_v43 : IVec S_ 1 := andi main_v38 main_v42
  let main_v44 : FVec F S160 .f32 := Host.absf main_arg9
  let main_cst_16 : FVec F S_ .f32 := constant S_ .f32 0x7F800000#32
  let main_v45 : FVec F S160 .f32 := broadcastInDim S160 ![] bcast_S_S160 main_cst_16
  let main_v46 : IVec S160 1 := cmpf .olt main_v44 main_v45
  let main_c_17 : IVec S_ 1 := constantI S_ 1 1#1
  let main_v47 : IVec S_ 1 := (fun x v => Host.reduce IntOp.andi x v reducesTo_S160_S_d0 h_S_) main_v46 main_c_17
  let main_v48 : IVec S_ 1 := andi main_v43 main_v47
  let main_v49 : FVec F S160 .f32 := Host.absf main_arg10
  let main_cst_18 : FVec F S_ .f32 := constant S_ .f32 0x7F800000#32
  let main_v50 : FVec F S160 .f32 := broadcastInDim S160 ![] bcast_S_S160 main_cst_18
  fn_part3 (F := F) main_arg11 main_arg12 main_arg13 main_arg14 main_v48 main_v49 main_v50

def fn_part1 {F : FTy → Type} [FloatOps F] (main_arg4 : FVec F S160 .f32) (main_arg5 : FVec F S160 .f32) (main_arg6 : FVec F S160 .f32) (main_arg7 : FVec F S160x80 .f32) (main_arg8 : FVec F S160 .f32) (main_arg9 : FVec F S160 .f32) (main_arg10 : FVec F S160 .f32) (main_arg11 : FVec F S160x80 .f32) (main_arg12 : FVec F S160 .f32) (main_arg13 : FVec F S160 .f32) (main_arg14 : FVec F S160 .f32) (main_v13 : IVec S_ 1) (main_v16 : IVec S160x80 1) : IVec S_ 1 :=
  let main_c_5 : IVec S_ 1 := constantI S_ 1 1#1
  let main_v17 : IVec S_ 1 := (fun x v => Host.reduce IntOp.andi x v reducesTo_S160x80_S_d0_1 h_S_) main_v16 main_c_5
  let main_v18 : IVec S_ 1 := andi main_v13 main_v17
  let main_v19 : FVec F S160 .f32 := Host.absf main_arg4
  let main_cst_6 : FVec F S_ .f32 := constant S_ .f32 0x7F800000#32
  let main_v20 : FVec F S160 .f32 := broadcastInDim S160 ![] bcast_S_S160 main_cst_6
  let main_v21 : IVec S160 1 := cmpf .olt main_v19 main_v20
  let main_c_7 : IVec S_ 1 := constantI S_ 1 1#1
  let main_v22 : IVec S_ 1 := (fun x v => Host.reduce IntOp.andi x v reducesTo_S160_S_d0 h_S_) main_v21 main_c_7
  let main_v23 : IVec S_ 1 := andi main_v18 main_v22
  let main_v24 : FVec F S160 .f32 := Host.absf main_arg5
  let main_cst_8 : FVec F S_ .f32 := constant S_ .f32 0x7F800000#32
  let main_v25 : FVec F S160 .f32 := broadcastInDim S160 ![] bcast_S_S160 main_cst_8
  let main_v26 : IVec S160 1 := cmpf .olt main_v24 main_v25
  let main_c_9 : IVec S_ 1 := constantI S_ 1 1#1
  let main_v27 : IVec S_ 1 := (fun x v => Host.reduce IntOp.andi x v reducesTo_S160_S_d0 h_S_) main_v26 main_c_9
  let main_v28 : IVec S_ 1 := andi main_v23 main_v27
  let main_v29 : FVec F S160 .f32 := Host.absf main_arg6
  let main_cst_10 : FVec F S_ .f32 := constant S_ .f32 0x7F800000#32
  let main_v30 : FVec F S160 .f32 := broadcastInDim S160 ![] bcast_S_S160 main_cst_10
  let main_v31 : IVec S160 1 := cmpf .olt main_v29 main_v30
  let main_c_11 : IVec S_ 1 := constantI S_ 1 1#1
  let main_v32 : IVec S_ 1 := (fun x v => Host.reduce IntOp.andi x v reducesTo_S160_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S262144x80 .f32) (main_arg1 : FVec F S262144x80 .f32) (main_arg2 : FVec F S262144x80 .f32) (main_arg3 : FVec F S160x80 .f32) (main_arg4 : FVec F S160 .f32) (main_arg5 : FVec F S160 .f32) (main_arg6 : FVec F S160 .f32) (main_arg7 : FVec F S160x80 .f32) (main_arg8 : FVec F S160 .f32) (main_arg9 : FVec F S160 .f32) (main_arg10 : FVec F S160 .f32) (main_arg11 : FVec F S160x80 .f32) (main_arg12 : FVec F S160 .f32) (main_arg13 : FVec F S160 .f32) (main_arg14 : FVec F S160 .f32) : IVec S_ 1 :=
  let main_v0 : FVec F S262144x80 .f32 := Host.absf main_arg0
  let main_cst : FVec F S_ .f32 := constant S_ .f32 0x7F800000#32
  let main_v1 : FVec F S262144x80 .f32 := broadcastInDim S262144x80 ![] bcast_S_S262144x80 main_cst
  let main_v2 : IVec S262144x80 1 := cmpf .olt main_v0 main_v1
  let main_c : IVec S_ 1 := constantI S_ 1 1#1
  let main_v3 : IVec S_ 1 := (fun x v => Host.reduce IntOp.andi x v reducesTo_S262144x80_S_d0_1 h_S_) main_v2 main_c
  let main_v4 : FVec F S262144x80 .f32 := Host.absf main_arg1
  let main_cst_0 : FVec F S_ .f32 := constant S_ .f32 0x7F800000#32
  let main_v5 : FVec F S262144x80 .f32 := broadcastInDim S262144x80 ![] bcast_S_S262144x80 main_cst_0
  let main_v6 : IVec S262144x80 1 := cmpf .olt main_v4 main_v5
  let main_c_1 : IVec S_ 1 := constantI S_ 1 1#1
  let main_v7 : IVec S_ 1 := (fun x v => Host.reduce IntOp.andi x v reducesTo_S262144x80_S_d0_1 h_S_) main_v6 main_c_1
  let main_v8 : IVec S_ 1 := andi main_v3 main_v7
  let main_v9 : FVec F S262144x80 .f32 := Host.absf main_arg2
  let main_cst_2 : FVec F S_ .f32 := constant S_ .f32 0x7F800000#32
  let main_v10 : FVec F S262144x80 .f32 := broadcastInDim S262144x80 ![] bcast_S_S262144x80 main_cst_2
  let main_v11 : IVec S262144x80 1 := cmpf .olt main_v9 main_v10
  let main_c_3 : IVec S_ 1 := constantI S_ 1 1#1
  let main_v12 : IVec S_ 1 := (fun x v => Host.reduce IntOp.andi x v reducesTo_S262144x80_S_d0_1 h_S_) main_v11 main_c_3
  let main_v13 : IVec S_ 1 := andi main_v8 main_v12
  let main_v14 : FVec F S160x80 .f32 := Host.absf main_arg3
  let main_cst_4 : FVec F S_ .f32 := constant S_ .f32 0x7F800000#32
  let main_v15 : FVec F S160x80 .f32 := broadcastInDim S160x80 ![] bcast_S_S160x80 main_cst_4
  let main_v16 : IVec S160x80 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S262144x80 : Shape := ⟨2, ![262144, 80]⟩
abbrev S160x80 : Shape := ⟨2, ![160, 80]⟩
abbrev S160 : Shape := ⟨1, ![160]⟩
abbrev S80x160 : Shape := ⟨2, ![80, 160]⟩
abbrev S2x3x160 : Shape := ⟨3, ![2, 3, 160]⟩
abbrev S4096x80 : Shape := ⟨2, ![4096, 80]⟩
abbrev S1x3x160 : Shape := ⟨3, ![1, 3, 160]⟩
abbrev S3x160 : Shape := ⟨2, ![3, 160]⟩
abbrev S4096x160 : Shape := ⟨2, ![4096, 160]⟩
abbrev S1x160 : Shape := ⟨2, ![1, 160]⟩
abbrev S1x1x160 : Shape := ⟨3, ![1, 1, 160]⟩
abbrev S_ : Shape := ⟨0, ![]⟩
abbrev S2048x80 : Shape := ⟨2, ![2048, 80]⟩
abbrev S2048x160 : Shape := ⟨2, ![2048, 160]⟩
abbrev S2048 : Shape := ⟨1, ![2048]⟩
abbrev S2048x1 : Shape := ⟨2, ![2048, 1]⟩

abbrev nBuf : Space → Nat
  | .hbm => 36
  | .vmem => 38
  | .smem => 0
  | _ => 0

abbrev bufTy : (tb : Table) → Fin (tcTables nBuf tb) → BufTy
  | .hbm, ⟨0, _⟩ => ⟨S262144x80, .f32⟩
  | .hbm, ⟨1, _⟩ => ⟨S262144x80, .f32⟩
  | .hbm, ⟨2, _⟩ => ⟨S262144x80, .f32⟩
  | .hbm, ⟨3, _⟩ => ⟨S160x80, .f32⟩
  | .hbm, ⟨4, _⟩ => ⟨S160, .f32⟩
  | .hbm, ⟨5, _⟩ => ⟨S160, .f32⟩
  | .hbm, ⟨6, _⟩ => ⟨S160, .f32⟩
  | .hbm, ⟨7, _⟩ => ⟨S160x80, .f32⟩
  | .hbm, ⟨8, _⟩ => ⟨S160, .f32⟩
  | .hbm, ⟨9, _⟩ => ⟨S160, .f32⟩
  | .hbm, ⟨10, _⟩ => ⟨S160, .f32⟩
  | .hbm, ⟨11, _⟩ => ⟨S160x80, .f32⟩
  | .hbm, ⟨12, _⟩ => ⟨S160, .f32⟩
  | .hbm, ⟨13, _⟩ => ⟨S160, .f32⟩
  | .hbm, ⟨14, _⟩ => ⟨S160, .f32⟩
  | .hbm, ⟨15, _⟩ => ⟨S80x160, .f32⟩
  | .hbm, ⟨16, _⟩ => ⟨S80x160, .bf16⟩
  | .hbm, ⟨17, _⟩ => ⟨S80x160, .f32⟩
  | .hbm, ⟨18, _⟩ => ⟨S80x160, .bf16⟩
  | .hbm, ⟨19, _⟩ => ⟨S80x160, .f32⟩
  | .hbm, ⟨20, _⟩ => ⟨S80x160, .bf16⟩
  | .hbm, ⟨21, _⟩ => ⟨S2x3x160, .f32⟩
  | .hbm, ⟨22, _⟩ => ⟨S2x3x160, .f32⟩
  | .hbm, ⟨23, _⟩ => ⟨S_, .f32⟩
  | .hbm, ⟨24, _⟩ => ⟨S3x160, .f32⟩
  | .hbm, ⟨25, _⟩ => ⟨S_, .f32⟩
  | .hbm, ⟨26, _⟩ => ⟨S3x160, .f32⟩
  | .hbm, ⟨27, _⟩ => ⟨S_, .f32⟩
  | .hbm, ⟨28, _⟩ => ⟨S3x160, .f32⟩
  | .hbm, ⟨29, _⟩ => ⟨S3x160, .f32⟩
  | .hbm, ⟨30, _⟩ => ⟨S_, .f32⟩
  | .hbm, ⟨31, _⟩ => ⟨S3x160, .f32⟩
  | .hbm, ⟨32, _⟩ => ⟨S3x160, .f32⟩
  | .hbm, ⟨33, _⟩ => ⟨S3x160, .f32⟩
  | .hbm, ⟨34, _⟩ => ⟨S3x160, .f32⟩
  | .hbm, ⟨35, _⟩ => ⟨S262144x80, .f32⟩
  | .local _ .vmem, ⟨0, _⟩ => ⟨S4096x80, .f32⟩
  | .local _ .vmem, ⟨1, _⟩ => ⟨S4096x80, .f32⟩
  | .local _ .vmem, ⟨2, _⟩ => ⟨S4096x80, .f32⟩
  | .local _ .vmem, ⟨3, _⟩ => ⟨S4096x80, .f32⟩
  | .local _ .vmem, ⟨4, _⟩ => ⟨S4096x80, .f32⟩
  | .local _ .vmem, ⟨5, _⟩ => ⟨S4096x80, .f32⟩
  | .local _ .vmem, ⟨6, _⟩ => ⟨S80x160, .bf16⟩
  | .local _ .vmem, ⟨7, _⟩ => ⟨S160, .f32⟩
  | .local _ .vmem, ⟨8, _⟩ => ⟨S80x160, .bf16⟩
  | .local _ .vmem, ⟨9, _⟩ => ⟨S160, .f32⟩
  | .local _ .vmem, ⟨10, _⟩ => ⟨S80x160, .bf16⟩
  | .local _ .vmem, ⟨11, _⟩ => ⟨S160, .f32⟩
  | .local _ .vmem, ⟨12, _⟩ => ⟨S1x3x160, .f32⟩
  | .local _ .vmem, ⟨13, _⟩ => ⟨S1x3x160, .f32⟩
  | .local _ .vmem, ⟨14, _⟩ => ⟨S1x3x160, .f32⟩
  | .local _ .vmem, ⟨15, _⟩ => ⟨S1x3x160, .f32⟩
  | .local _ .vmem, ⟨16, _⟩ => ⟨S2048x80, .f32⟩
  | .local _ .vmem, ⟨17, _⟩ => ⟨S2048x80, .f32⟩
  | .local _ .vmem, ⟨18, _⟩ => ⟨S2048x80, .f32⟩
  | .local _ .vmem, ⟨19, _⟩ => ⟨S2048x80, .f32⟩
  | .local _ .vmem, ⟨20, _⟩ => ⟨S2048x80, .f32⟩
  | .local _ .vmem, ⟨21, _⟩ => ⟨S2048x80, .f32⟩
  | .local _ .vmem, ⟨22, _⟩ => ⟨S80x160, .bf16⟩
  | .local _ .vmem, ⟨23, _⟩ => ⟨S160, .f32⟩
  | .local _ .vmem, ⟨24, _⟩ => ⟨S160, .f32⟩
  | .local _ .vmem, ⟨25, _⟩ => ⟨S160, .f32⟩
  | .local _ .vmem, ⟨26, _⟩ => ⟨S80x160, .bf16⟩
  | .local _ .vmem, ⟨27, _⟩ => ⟨S160, .f32⟩
  | .local _ .vmem, ⟨28, _⟩ => ⟨S160, .f32⟩
  | .local _ .vmem, ⟨29, _⟩ => ⟨S160, .f32⟩
  | .local _ .vmem, ⟨30, _⟩ => ⟨S80x160, .bf16⟩
  | .local _ .vmem, ⟨31, _⟩ => ⟨S160, .f32⟩
  | .local _ .vmem, ⟨32, _⟩ => ⟨S160, .f32⟩
  | .local _ .vmem, ⟨33, _⟩ => ⟨S160, .f32⟩
  | .local _ .vmem, ⟨34, _⟩ => ⟨S3x160, .f32⟩
  | .local _ .vmem, ⟨35, _⟩ => ⟨S3x160, .f32⟩
  | .local _ .vmem, ⟨36, _⟩ => ⟨S2048x80, .f32⟩
  | .local _ .vmem, ⟨37, _⟩ => ⟨S2048x80, .f32⟩
  | _, _ => ⟨S262144x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg12_0 : Ref sig .tc := ⟨.vmem, 31, rfl⟩
abbrev cc1_stg13_0 : Ref sig .tc := ⟨.vmem, 32, rfl⟩
abbrev cc1_stg14_0 : Ref sig .tc := ⟨.vmem, 33, rfl⟩
abbrev cc1_stg15_0 : Ref sig .tc := ⟨.vmem, 34, rfl⟩
abbrev cc1_stg16_0 : Ref sig .tc := ⟨.vmem, 35, rfl⟩
abbrev cc1_stg17_0 : Ref sig .tc := ⟨.vmem, 36, rfl⟩
abbrev cc1_stg17_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem12_0 : DmaSem sig := 31
abbrev cc1_sem13_0 : DmaSem sig := 32
abbrev cc1_sem14_0 : DmaSem sig := 33
abbrev cc1_sem15_0 : DmaSem sig := 34
abbrev cc1_sem16_0 : DmaSem sig := 35
abbrev cc1_sem17_0 : DmaSem sig := 36
abbrev cc1_sem17_1 : DmaSem sig := 37

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S80x160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S80x160 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S80x160 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S160 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x3x160 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x3x160 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x80 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S80x160 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S160 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S160 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S160 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S80x160 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S160 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S160 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S160 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S80x160 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S160 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S160 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S160 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S3x160 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S3x160 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S2048x80 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

class Facts₀ : Prop where
  transposes_S160x80_S80x160_1_0 : S160x80.Transposes [1, 0] S80x160
  bitsLt_bf16_f32 : FTy.bits .bf16 < FTy.bits .f32
  inb_S1x3x160_S1x3x160_0_0_0 : ∀ a, (![0, 0, 0] : Fin 3 → Nat) a + S1x3x160.size a ≤ S1x3x160.size a
  h_S1x3x160 : 0 < S1x3x160.numel
  shapeCasts_S1x3x160_S3x160 : S1x3x160.ShapeCasts S3x160
  shapeCasts_S3x160_S1x3x160 : S3x160.ShapeCasts S1x3x160
  inb_S4096x80_S4096x80_0_0 : ∀ a, (![0, 0] : Fin 2 → Nat) a + S4096x80.size a ≤ S4096x80.size a
  h_S4096x80 : 0 < S4096x80.numel
  inb_S80x160_S80x160_0_0 : ∀ a, (![0, 0] : Fin 2 → Nat) a + S80x160.size a ≤ S80x160.size a
  h_S80x160 : 0 < S80x160.numel
  shapeCasts_S80x160_S80x160 : S80x160.ShapeCasts S80x160
  inb_S160_S160_0 : ∀ a, (![0] : Fin 1 → Nat) a + S160.size a ≤ S160.size a
  h_S160 : 0 < S160.numel
  shapeCasts_S160_S1x160 : S160.ShapeCasts S1x160
  broadcasts_S1x160_S4096x160 : S1x160.Broadcasts S4096x160
  inb_S1x3x160_S1x1x160_0_0_0 : ∀ a, (![0, 0, 0] : Fin 3 → Nat) a + S1x1x160.size a ≤ S1x3x160.size a
  h_S1x1x160 : 0 < S1x1x160.numel
  shapeCasts_S1x1x160_S160 : S1x1x160.ShapeCasts S160
  reduces_S4096x160_S160 : S4096x160.Reduces [0] S160
  shapeCasts_S160_S1x1x160 : S160.ShapeCasts S1x1x160
  inb_S1x3x160_S1x1x160_0_1_0 : ∀ a, (![0, 1, 0] : Fin 3 → Nat) a + S1x1x160.size a ≤ S1x3x160.size a
  inb_S1x3x160_S1x1x160_0_2_0 : ∀ a, (![0, 2, 0] : Fin 3 → Nat) a + S1x1x160.size a ≤ S1x3x160.size a
  reducesTo_S2x3x160_S3x160_d0 : S2x3x160.ReducesTo [0] S3x160
  h_S_ : 0 < S_.numel
  bcast_S_S3x160 : S_.BroadcastsInDim S3x160 (![] : Fin 0 → Fin S3x160.rank)
  inb_S2048x80_S2048x80_0_0 : ∀ a, (![0, 0] : Fin 2 → Nat) a + S2048x80.size a ≤ S2048x80.size a
  h_S2048x80 : 0 < S2048x80.numel
  broadcasts_S1x160_S2048x160 : S1x160.Broadcasts S2048x160
  inb_S3x160_S1x160_0_0 : ∀ a, (![0, 0] : Fin 2 → Nat) a + S1x160.size a ≤ S3x160.size a
  h_S1x160 : 0 < S1x160.numel
  shapeCasts_S1x160_S160 : S1x160.ShapeCasts S160
  inb_S3x160_S1x160_1_0 : ∀ a, (![1, 0] : Fin 2 → Nat) a + S1x160.size a ≤ S3x160.size a
  inb_S3x160_S1x160_2_0 : ∀ a, (![2, 0] : Fin 2 → Nat) a + S1x160.size a ≤ S3x160.size a
  reduces_S2048x160_S2048 : S2048x160.Reduces [1] S2048
  shapeCasts_S2048_S2048x1 : S2048.ShapeCasts S2048x1
  broadcasts_S2048x1_S2048x80 : S2048x1.Broadcasts S2048x80
  dot_S4096x80_S80x160_S4096x160_1_0_0_1_n_n_wf : DotDims.WF S4096x80 S80x160 S4096x160 [1] [0] [0] [1] [] []
  dot_S2048x80_S80x160_S2048x160_1_0_0_1_n_n_wf : DotDims.WF S2048x80 S80x160 S2048x160 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x80.size a ≤ S262144x80.size a
  hwx0_0 : ∀ i : grid0.Coords, EltTy.bits .f32 = 32 ∨ (Rect.block (s := S262144x80) S4096x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x80.size a ≤ S262144x80.size a
  hwx0_1 : ∀ i : grid0.Coords, EltTy.bits .f32 = 32 ∨ (Rect.block (s := S262144x80) S4096x80.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x80.size a ≤ S262144x80.size a
  hwx0_2 : ∀ i : grid0.Coords, EltTy.bits .f32 = 32 ∨ (Rect.block (s := S262144x80) S4096x80.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S80x160.size a ≤ S80x160.size a
  hwx0_3 : ∀ i : grid0.Coords, EltTy.bits .bf16 = 32 ∨ (Rect.block (s := S80x160) S80x160.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S160.size a ≤ S160.size a
  hwx0_4 : ∀ i : grid0.Coords, EltTy.bits .f32 = 32 ∨ (Rect.block (s := S160) S160.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S80x160.size a ≤ S80x160.size a
  hwx0_5 : ∀ i : grid0.Coords, EltTy.bits .bf16 = 32 ∨ (Rect.block (s := S80x160) S80x160.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S160.size a ≤ S160.size a
  hwx0_6 : ∀ i : grid0.Coords, EltTy.bits .f32 = 32 ∨ (Rect.block (s := S160) S160.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S80x160.size a ≤ S80x160.size a
  hwx0_7 : ∀ i : grid0.Coords, EltTy.bits .bf16 = 32 ∨ (Rect.block (s := S80x160) S80x160.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S160.size a ≤ S160.size a
  hwx0_8 : ∀ i : grid0.Coords, EltTy.bits .f32 = 32 ∨ (Rect.block (s := S160) S160.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x3x160.size a ≤ S2x3x160.size a
  hwx0_9 : ∀ i : grid0.Coords, EltTy.bits .f32 = 32 ∨ (Rect.block (s := S2x3x160) S1x3x160.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x3x160.size a ≤ S2x3x160.size a
  hwx0_10 : ∀ i : grid0.Coords, EltTy.bits .f32 = 32 ∨ (Rect.block (s := S2x3x160) S1x3x160.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x80.size a ≤ S262144x80.size a
  hwx1_0 : ∀ i : grid1.Coords, EltTy.bits .f32 = 32 ∨ (Rect.block (s := S262144x80) S2048x80.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x80.size a ≤ S262144x80.size a
  hwx1_1 : ∀ i : grid1.Coords, EltTy.bits .f32 = 32 ∨ (Rect.block (s := S262144x80) S2048x80.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x80.size a ≤ S262144x80.size a
  hwx1_2 : ∀ i : grid1.Coords, EltTy.bits .f32 = 32 ∨ (Rect.block (s := S262144x80) S2048x80.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S80x160.size a ≤ S80x160.size a
  hwx1_3 : ∀ i : grid1.Coords, EltTy.bits .bf16 = 32 ∨ (Rect.block (s := S80x160) S80x160.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S160.size a ≤ S160.size a
  hwx1_4 : ∀ i : grid1.Coords, EltTy.bits .f32 = 32 ∨ (Rect.block (s := S160) S160.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S160.size a ≤ S160.size a
  hwx1_5 : ∀ i : grid1.Coords, EltTy.bits .f32 = 32 ∨ (Rect.block (s := S160) S160.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S160.size a ≤ S160.size a
  hwx1_6 : ∀ i : grid1.Coords, EltTy.bits .f32 = 32 ∨ (Rect.block (s := S160) S160.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S80x160.size a ≤ S80x160.size a
  hwx1_7 : ∀ i : grid1.Coords, EltTy.bits .bf16 = 32 ∨ (Rect.block (s := S80x160) S80x160.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S160.size a ≤ S160.size a
  hwx1_8 : ∀ i : grid1.Coords, EltTy.bits .f32 = 32 ∨ (Rect.block (s := S160) S160.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S160.size a ≤ S160.size a
  hwx1_9 : ∀ i : grid1.Coords, EltTy.bits .f32 = 32 ∨ (Rect.block (s := S160) S160.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S160.size a ≤ S160.size a
  hwx1_10 : ∀ i : grid1.Coords, EltTy.bits .f32 = 32 ∨ (Rect.block (s := S160) S160.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S80x160.size a ≤ S80x160.size a
  hwx1_11 : ∀ i : grid1.Coords, EltTy.bits .bf16 = 32 ∨ (Rect.block (s := S80x160) S80x160.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S160.size a ≤ S160.size a
  hwx1_12 : ∀ i : grid1.Coords, EltTy.bits .f32 = 32 ∨ (Rect.block (s := S160) S160.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S160.size a ≤ S160.size a
  hwx1_13 : ∀ i : grid1.Coords, EltTy.bits .f32 = 32 ∨ (Rect.block (s := S160) S160.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S160.size a ≤ S160.size a
  hwx1_14 : ∀ i : grid1.Coords, EltTy.bits .f32 = 32 ∨ (Rect.block (s := S160) S160.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S3x160.size a ≤ S3x160.size a
  hwx1_15 : ∀ i : grid1.Coords, EltTy.bits .f32 = 32 ∨ (Rect.block (s := S3x160) S3x160.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S3x160.size a ≤ S3x160.size a
  hwx1_16 : ∀ i : grid1.Coords, EltTy.bits .f32 = 32 ∨ (Rect.block (s := S3x160) S3x160.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S2048x80.size a ≤ S262144x80.size a
  hwx1_17 : ∀ i : grid1.Coords, EltTy.bits .f32 = 32 ∨ (Rect.block (s := S262144x80) S2048x80.size (cc1_transform_17 i) (hinb1_17 i)).WholeWords (EltTy.packing .f32)

variable [Facts₀]

def dot_S4096x80_S80x160_S4096x160_1_0_0_1_n_n : DotDims S4096x80 S80x160 S4096x160 where
  lhsContracting := [1]
  rhsContracting := [0]
  lhsNonContracting := [0]
  rhsNonContracting := [1]
  lhsBatch := []
  rhsBatch := []
  wf := dot_S4096x80_S80x160_S4096x160_1_0_0_1_n_n_wf
def dot_S2048x80_S80x160_S2048x160_1_0_0_1_n_n : DotDims S2048x80 S80x160 S2048x160 where
  lhsContracting := [1]
  rhsContracting := [0]
  lhsNonContracting := [0]
  rhsNonContracting := [1]
  lhsBatch := []
  rhsBatch := []
  wf := dot_S2048x80_S80x160_S2048x160_1_0_0_1_n_n_wf

abbrev win0_0 : Pipeline.Window sig grid0 :=
  Pipeline.Window.ofSpec (Memref.whole main_arg0) S4096x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x80.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S80x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S80x160.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S160.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S80x160.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S160.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_0) S1x3x160.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_1) S1x3x160.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S2048x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x80.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2048x80.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S80x160.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S160.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S160.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S160.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S80x160.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg8) S160.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg9) S160.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg10) S160.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v5) S80x160.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg12) S160.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg13) S160.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg14) S160.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v10) S3x160.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v14) S3x160.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v15) S2048x80.size cc1_transform_17 reads1_17 true false 2 stage1_17 sem1_17
    hrank1 hreads1_17 hinb1_17 nbuf1_17 (Memref.isWhole_whole _) hwx1_17 hstage1_17

abbrev win1 : Fin 18 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | ⟨_ + 18, h⟩ => absurd h (Nat.not_lt.2 (Nat.le_add_left _ _))
abbrev spec1 : Fin 18 → Pipeline.WinSpec sig grid1.rank := fun w => (win1 w).toWinSpec

class Facts : Prop extends Facts₀ where

variable [Facts]
-- ==== ReferenceIdeal.lean ====
abbrev S262144x80 : Shape := ⟨2, ![262144, 80]⟩
abbrev S160x80 : Shape := ⟨2, ![160, 80]⟩
abbrev S160 : Shape := ⟨1, ![160]⟩
abbrev S80x160 : Shape := ⟨2, ![80, 160]⟩
abbrev S262144x160 : Shape := ⟨2, ![262144, 160]⟩
abbrev S1x160 : Shape := ⟨2, ![1, 160]⟩
abbrev S_ : Shape := ⟨0, ![]⟩
abbrev S262144 : Shape := ⟨1, ![262144]⟩
abbrev S1x262144 : Shape := ⟨2, ![1, 262144]⟩
abbrev S3x262144 : Shape := ⟨2, ![3, 262144]⟩
abbrev S262144x1 : Shape := ⟨2, ![262144, 1]⟩

abbrev nBuf : Space → Nat
  | .hbm => 164
  | .vmem => 0
  | .smem => 0
  | _ => 0

abbrev hbmTy0_0 (i : Nat) : BufTy := match i % 128 with
  | 0 => ⟨S262144x80, .f32⟩
  | 1 => ⟨S262144x80, .f32⟩
  | 2 => ⟨S262144x80, .f32⟩
  | 3 => ⟨S160x80, .f32⟩
  | 4 => ⟨S160, .f32⟩
  | 5 => ⟨S160, .f32⟩
  | 6 => ⟨S160, .f32⟩
  | 7 => ⟨S160x80, .f32⟩
  | 8 => ⟨S160, .f32⟩
  | 9 => ⟨S160, .f32⟩
  | 10 => ⟨S160, .f32⟩
  | 11 => ⟨S160x80, .f32⟩
  | 12 => ⟨S160, .f32⟩
  | 13 => ⟨S160, .f32⟩
  | 14 => ⟨S160, .f32⟩
  | 15 => ⟨S80x160, .f32⟩
  | 16 => ⟨S262144x160, .f32⟩
  | 17 => ⟨S1x160, .f32⟩
  | 18 => ⟨S262144x160, .f32⟩
  | 19 => ⟨S262144x160, .f32⟩
  | 20 => ⟨S_, .f32⟩
  | 21 => ⟨S160, .f32⟩
  | 22 => ⟨S_, .f32⟩
  | 23 => ⟨S160, .f32⟩
  | 24 => ⟨S160, .f32⟩
  | 25 => ⟨S1x160, .f32⟩
  | 26 => ⟨S262144x160, .f32⟩
  | 27 => ⟨S262144x160, .f32⟩
  | 28 => ⟨S262144x160, .f32⟩
  | 29 => ⟨S_, .f32⟩
  | 30 => ⟨S160, .f32⟩
  | 31 => ⟨S_, .f32⟩
  | 32 => ⟨S160, .f32⟩
  | 33 => ⟨S160, .f32⟩
  | 34 => ⟨S1x160, .f32⟩
  | 35 => ⟨S262144x160, .f32⟩
  | 36 => ⟨S262144x160, .f32⟩
  | 37 => ⟨S_, .f32⟩
  | 38 => ⟨S160, .f32⟩
  | 39 => ⟨S160, .f32⟩
  | 40 => ⟨S160, .f32⟩
  | 41 => ⟨S1x160, .f32⟩
  | 42 => ⟨S262144x160, .f32⟩
  | 43 => ⟨S262144x160, .f32⟩
  | 44 => ⟨S1x160, .f32⟩
  | 45 => ⟨S262144x160, .f32⟩
  | 46 => ⟨S262144x160, .f32⟩
  | 47 => ⟨S1x160, .f32⟩
  | 48 => ⟨S262144x160, .f32⟩
  | 49 => ⟨S262144x160, .f32⟩
  | 50 => ⟨S80x160, .f32⟩
  | 51 => ⟨S262144x160, .f32⟩
  | 52 => ⟨S1x160, .f32⟩
  | 53 => ⟨S262144x160, .f32⟩
  | 54 => ⟨S262144x160, .f32⟩
  | 55 => ⟨S_, .f32⟩
  | 56 => ⟨S160, .f32⟩
  | 57 => ⟨S_, .f32⟩
  | 58 => ⟨S160, .f32⟩
  | 59 => ⟨S160, .f32⟩
  | 60 => ⟨S1x160, .f32⟩
  | 61 => ⟨S262144x160, .f32⟩
  | 62 => ⟨S262144x160, .f32⟩
  | 63 => ⟨S262144x160, .f32⟩
  | 64 => ⟨S_, .f32⟩
  | 65 => ⟨S160, .f32⟩
  | 66 => ⟨S_, .f32⟩
  | 67 => ⟨S160, .f32⟩
  | 68 => ⟨S160, .f32⟩
  | 69 => ⟨S1x160, .f32⟩
  | 70 => ⟨S262144x160, .f32⟩
  | 71 => ⟨S262144x160, .f32⟩
  | 72 => ⟨S_, .f32⟩
  | 73 => ⟨S160, .f32⟩
  | 74 => ⟨S160, .f32⟩
  | 75 => ⟨S160, .f32⟩
  | 76 => ⟨S1x160, .f32⟩
  | 77 => ⟨S262144x160, .f32⟩
  | 78 => ⟨S262144x160, .f32⟩
  | 79 => ⟨S1x160, .f32⟩
  | 80 => ⟨S262144x160, .f32⟩
  | 81 => ⟨S262144x160, .f32⟩
  | 82 => ⟨S1x160, .f32⟩
  | 83 => ⟨S262144x160, .f32⟩
  | 84 => ⟨S262144x160, .f32⟩
  | 85 => ⟨S80x160, .f32⟩
  | 86 => ⟨S262144x160, .f32⟩
  | 87 => ⟨S1x160, .f32⟩
  | 88 => ⟨S262144x160, .f32⟩
  | 89 => ⟨S262144x160, .f32⟩
  | 90 => ⟨S_, .f32⟩
  | 91 => ⟨S160, .f32⟩
  | 92 => ⟨S_, .f32⟩
  | 93 => ⟨S160, .f32⟩
  | 94 => ⟨S160, .f32⟩
  | 95 => ⟨S1x160, .f32⟩
  | 96 => ⟨S262144x160, .f32⟩
  | 97 => ⟨S262144x160, .f32⟩
  | 98 => ⟨S262144x160, .f32⟩
  | 99 => ⟨S_, .f32⟩
  | 100 => ⟨S160, .f32⟩
  | 101 => ⟨S_, .f32⟩
  | 102 => ⟨S160, .f32⟩
  | 103 => ⟨S160, .f32⟩
  | 104 => ⟨S1x160, .f32⟩
  | 105 => ⟨S262144x160, .f32⟩
  | 106 => ⟨S262144x160, .f32⟩
  | 107 => ⟨S_, .f32⟩
  | 108 => ⟨S160, .f32⟩
  | 109 => ⟨S160, .f32⟩
  | 110 => ⟨S160, .f32⟩
  | 111 => ⟨S1x160, .f32⟩
  | 112 => ⟨S262144x160, .f32⟩
  | 113 => ⟨S262144x160, .f32⟩
  | 114 => ⟨S1x160, .f32⟩
  | 115 => ⟨S262144x160, .f32⟩
  | 116 => ⟨S262144x160, .f32⟩
  | 117 => ⟨S1x160, .f32⟩
  | 118 => ⟨S262144x160, .f32⟩
  | 119 => ⟨S262144x160, .f32⟩
  | 120 => ⟨S262144x160, .f32⟩
  | 121 => ⟨S_, .f32⟩
  | 122 => ⟨S262144, .f32⟩
  | 123 => ⟨S262144x160, .f32⟩
  | 124 => ⟨S_, .f32⟩
  | 125 => ⟨S262144, .f32⟩
  | 126 => ⟨S262144x160, .f32⟩
  | 127 => ⟨S_, .f32⟩
  | _ => ⟨S262144x80, .f32⟩

abbrev hbmTy0_1 (i : Nat) : BufTy := match i % 128 with
  | 0 => ⟨S262144, .f32⟩
  | 1 => ⟨S1x262144, .f32⟩
  | 2 => ⟨S1x262144, .f32⟩
  | 3 => ⟨S1x262144, .f32⟩
  | 4 => ⟨S3x262144, .f32⟩
  | 5 => ⟨S_, .f32⟩
  | 6 => ⟨S262144, .f32⟩
  | 7 => ⟨S_, .f32⟩
  | 8 => ⟨S262144, .f32⟩
  | 9 => ⟨S262144, .f32⟩
  | 10 => ⟨S1x262144, .f32⟩
  | 11 => ⟨S3x262144, .f32⟩
  | 12 => ⟨S3x262144, .f32⟩
  | 13 => ⟨S3x262144, .f32⟩
  | 14 => ⟨S_, .f32⟩
  | 15 => ⟨S262144, .f32⟩
  | 16 => ⟨S1x262144, .f32⟩
  | 17 => ⟨S3x262144, .f32⟩
  | 18 => ⟨S3x262144, .f32⟩
  | 19 => ⟨S1x262144, .f32⟩
  | 20 => ⟨S262144, .f32⟩
  | 21 => ⟨S262144x1, .f32⟩
  | 22 => ⟨S262144x80, .f32⟩
  | 23 => ⟨S262144x80, .f32⟩
  | 24 => ⟨S1x262144, .f32⟩
  | 25 => ⟨S262144, .f32⟩
  | 26 => ⟨S262144x1, .f32⟩
  | 27 => ⟨S262144x80, .f32⟩
  | 28 => ⟨S262144x80, .f32⟩
  | 29 => ⟨S262144x80, .f32⟩
  | 30 => ⟨S1x262144, .f32⟩
  | 31 => ⟨S262144, .f32⟩
  | 32 => ⟨S262144x1, .f32⟩
  | 33 => ⟨S262144x80, .f32⟩
  | 34 => ⟨S262144x80, .f32⟩
  | 35 => ⟨S262144x80, .f32⟩
  | _ => ⟨S262144x80, .f32⟩

abbrev hbmTy (i : Nat) : BufTy := match i / 128 with
  | 0 => hbmTy0_0 i
  | 1 => hbmTy0_1 i
  | _ => ⟨S262144x80, .f32⟩

abbrev bufTy : (tb : Table) → Fin (tcTables nBuf tb) → BufTy
  | .hbm, ⟨i, _⟩ => hbmTy i
  | _, _ => ⟨S262144x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_9 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_11 : Ref sig .tc := ⟨.hbm, 99, rfl⟩
abbrev main_v72 : Ref sig .tc := ⟨.hbm, 100, rfl⟩
abbrev main_cst_12 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_13 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_14 : Ref sig .tc := ⟨.hbm, 121, rfl⟩
abbrev main_v91 : Ref sig .tc := ⟨.hbm, 122, rfl⟩
abbrev main_v92 : Ref sig .tc := ⟨.hbm, 123, rfl⟩
abbrev main_cst_15 : Ref sig .tc := ⟨.hbm, 124, rfl⟩
abbrev main_v93 : Ref sig .tc := ⟨.hbm, 125, rfl⟩
abbrev main_v94 : Ref sig .tc := ⟨.hbm, 126, rfl⟩
abbrev main_cst_16 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_17 : Ref sig .tc := ⟨.hbm, 133, rfl⟩
abbrev main_v100 : Ref sig .tc := ⟨.hbm, 134, rfl⟩
abbrev main_cst_18 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_19 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩

abbrev nD : Nat := 1
abbrev τ : Topo := Topo.v7x

variable {F : FTy → Type} [FloatOps F]

class Facts₀ : Prop where
  transposes_S160x80_S80x160_1_0 : S160x80.Transposes [1, 0] S80x160
  bcast_S160_S1x160_1 : S160.BroadcastsInDim S1x160 (![1] : Fin 1 → Fin S1x160.rank)
  bcast_S1x160_S262144x160_0_1 : S1x160.BroadcastsInDim S262144x160 (![0, 1] : Fin 2 → Fin S262144x160.rank)
  reducesTo_S262144x160_S160_d0 : S262144x160.ReducesTo [0] S160
  h_S_ : 0 < S_.numel
  bcast_S_S160 : S_.BroadcastsInDim S160 (![] : Fin 0 → Fin S160.rank)
  reducesTo_S262144x160_S262144_d1 : S262144x160.ReducesTo [1] S262144
  bcast_S262144_S1x262144_1 : S262144.BroadcastsInDim S1x262144 (![1] : Fin 1 → Fin S1x262144.rank)
  concatenates_S1x262144_S1x262144_S1x262144_S3x262144_d0 : Shape.Concatenates [S1x262144, S1x262144, S1x262144] S3x262144 0
  reducesTo_S3x262144_S262144_d0 : S3x262144.ReducesTo [0] S262144
  bcast_S_S262144 : S_.BroadcastsInDim S262144 (![] : Fin 0 → Fin S262144.rank)
  bcast_S1x262144_S3x262144_0_1 : S1x262144.BroadcastsInDim S3x262144 (![0, 1] : Fin 2 → Fin S3x262144.rank)
  slices_S3x262144_S1x262144_0_0 : S3x262144.Slices ![0, 0] S1x262144
  shapeCasts_S1x262144_S262144 : S1x262144.ShapeCasts S262144
  bcast_S262144_S262144x1_0 : S262144.BroadcastsInDim S262144x1 (![0] : Fin 1 → Fin S262144x1.rank)
  bcast_S262144x1_S262144x80_0_1 : S262144x1.BroadcastsInDim S262144x80 (![0, 1] : Fin 2 → Fin S262144x80.rank)
  slices_S3x262144_S1x262144_1_0 : S3x262144.Slices ![1, 0] S1x262144
  slices_S3x262144_S1x262144_2_0 : S3x262144.Slices ![2, 0] S1x262144
  dot_S262144x80_S80x160_S262144x160_1_0_0_1_n_n_wf : DotDims.WF S262144x80 S80x160 S262144x160 [1] [0] [0] [1] [] []

variable [Facts₀]

def dot_S262144x80_S80x160_S262144x160_1_0_0_1_n_n : DotDims S262144x80 S80x160 S262144x160 where
  lhsContracting := [1]
  rhsContracting := [0]
  lhsNonContracting := [0]
  rhsNonContracting := [1]
  lhsBatch := []
  rhsBatch := []
  wf := dot_S262144x80_S80x160_S262144x160_1_0_0_1_n_n_wf

class Facts : Prop extends Facts₀ where

variable [Facts]
-- ==== Proof.KRun.lean ====
/-
  The run of the idealized kernel program with its result named.

  The program is four segments in order: the host operations that transpose the three weight matrices, the
  statistics region, the host operations that turn the two halves' totals into means and variances, and the
  combining region. After the last segment every buffer that outlives a region holds the contents the fold of the
  segments gives it. Reading the final state against that fold at the result buffer names the result; reading
  it at the fifteen arguments says they are as launched.
-/
import proofs.«144679_j65463891525764_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents
    the fold of the four segments gives it and the fifteen arguments as launched. -/
theorem run_value : θ_run defs (onTc (τ := τ) (main (F := F))) ⟨m, fun _ => 0, ρ⟩ (fun r => ∀ c : Dev nD,
      r.2.mem ((c.tc : Thread nD τ).loc main_v15) = W4 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v15 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

/-- The result buffer is the combining region's output array, so at the end it holds what that region's write-backs
    leave of it. -/
theorem W4_result (c : Dev nD) :
    W4 m ρ c (Proc.devRef .tc main_v15) = (dat1 (V3 m ρ) c).arrAt 17 cfg1.N :=
  W4_arr m ρ c 17

end Cert.KernelIdeal.KRun

end
-- ==== Proof.Spec.lean ====
/-
  The function both programs compute, written once over the argument arrays, on the extended reals.

  For each branch X in {sub, left, right}: h_X = X · W_Xᵀ + b_X, an N × 160 array with N = 262144 (`lin`).
  Each column of h_X is normalised by its mean μ and variance v over the N rows:
  R_X = (h_X − μ) · (v + ε)^(-1/2) · g_X + β_X (`nrm`). The three row-wise inner products of the R's
  (`dotRow`) go through a softmax over the three of them, and the result row is the combination of the
  rows of left, right and sub with those three weights (`mix`, `out`).

  The two programs differ only in how the column statistics are taken. One takes the mean as the column
  sum over N and the variance as the mean of the squared deviations from it (`muR`, `varR`). The other
  walks the rows in 2 halves of 32 blocks of 4096 rows, accumulating per half the column sums of h and of
  h² (`acc`), adds the two halves, and takes the variance as the mean square minus the squared mean
  (`muK`, `varK`). On finite data these are the same numbers: E[(h − μ)²] = E[h²] − μ².
-/
import Idealize.ShloMosaic.PureOps.Ideal
import Idealize.ShloMosaic.Lib.ValueIdx

noncomputable section

open scoped BigOperators

namespace Cert.Spec

open Idealize.ShloMosaic Idealize.ShloMosaic.ValueIdx

/-- The data arrays' shape [N, 80], the weights' [160, 80], and the per-feature vectors' [160]. -/
abbrev SX : Shape := ⟨2, ![262144, 80]⟩
abbrev SW : Shape := ⟨2, ![160, 80]⟩
abbrev SV : Shape := ⟨1, ![160]⟩

/-- The row count N as the float both programs divide by, and the ε both add to the variance. -/
abbrev cN : EReal := Ideal.ofBits .f32 0x48800000#32
abbrev cEps : EReal := Ideal.ofBits .f32 0x3727C5AC#32

/-- The linear layer: h(n, o) = Σ_k x(n, k) · W(o, k) + b(o). -/
def lin (x : SX.Idx → EReal) (W : SW.Idx → EReal) (b : SV.Idx → EReal) (n : Fin 262144) (o : Fin 160) : EReal :=
  (∑ k : Fin 80, x (ix2 n k) * W (ix2 o k)) + b (ix1 o)

/-- The transposed weights' shape [80, 160]. -/
abbrev SWT : Shape := ⟨2, ![80, 160]⟩

/-- The same layer over the transposed weights WT(k, o) = W(o, k): h(n, o) = Σ_k x(n, k) · WT(k, o) + b(o). -/
def linT (x : SX.Idx → EReal) (WT : SWT.Idx → EReal) (b : SV.Idx → EReal) (n : Fin 262144) (o : Fin 160) : EReal :=
  (∑ k : Fin 80, x (ix2 n k) * WT (ix2 k o)) + b (ix1 o)

/-- Over the transpose of W the two forms of the layer agree. -/
theorem linT_transpose (x : SX.Idx → EReal) (W : SW.Idx → EReal) (b : SV.Idx → EReal) :
    linT x (fun i => W (ix2 (i 1) (i 0))) b = lin x W b := rfl

/-! ## The column statistics, taken two ways -/

/-- The column mean: the column's sum over the N rows, divided by N. -/
def muR (h : Fin 262144 → Fin 160 → EReal) (o : Fin 160) : EReal :=
  Ideal.div (0 + ∑ n : Fin 262144, h n o) cN

/-- The column variance as the mean of the squared deviations from the mean. -/
def varR (h : Fin 262144 → Fin 160 → EReal) (o : Fin 160) : EReal :=
  Ideal.div (0 + ∑ n : Fin 262144, (h n o - muR h o) * (h n o - muR h o)) cN

/-- Row r of block i of half c: the rows are walked as 2 halves of 32 blocks of 4096. -/
def rowOf (c : Fin 2) (i : Fin 32) (r : Fin 4096) : Fin 262144 :=
  ⟨c.val * 131072 + i.val * 4096 + r.val, by have := c.isLt; have := i.isLt; have := r.isLt; omega⟩

/-- The sum of f over the 4096 rows of block i of half c. -/
def blockSum (f : Fin 262144 → EReal) (c : Fin 2) (i : Fin 32) : EReal := ∑ r : Fin 4096, f (rowOf c i r)

/-- The running total of half c after its first k blocks: it starts at zero and each block adds its sum. -/
def acc (f : Fin 262144 → EReal) (c : Fin 2) : ℕ → EReal
  | 0 => 0
  | k + 1 => acc f c k + (if hk : k < 32 then blockSum f c ⟨k, hk⟩ else 0)

/-- The column mean from the two halves' totals. -/
def muK (h : Fin 262144 → Fin 160 → EReal) (o : Fin 160) : EReal :=
  Ideal.div (0 + ∑ c : Fin 2, acc (fun n => h n o) c 32) cN

/-- The column's mean square from the two halves' totals of h². -/
def m2K (h : Fin 262144 → Fin 160 → EReal) (o : Fin 160) : EReal :=
  Ideal.div (0 + ∑ c : Fin 2, acc (fun n => h n o * h n o) c 32) cN

/-- The column variance as the mean square minus the squared mean. -/
def varK (h : Fin 262144 → Fin 160 → EReal) (o : Fin 160) : EReal :=
  m2K h o - muK h o * muK h o

/-! ## From the statistics to the result -/

/-- The normalised, scaled and shifted feature: (h − μ) · (v + ε)^(-1/2) · g + β. -/
def nrm (h : Fin 262144 → Fin 160 → EReal) (mu v : Fin 160 → EReal) (g be : SV.Idx → EReal)
    (n : Fin 262144) (o : Fin 160) : EReal :=
  (h n o - mu o) * Ideal.rsqrt (v o + cEps) * g (ix1 o) + be (ix1 o)

/-- The inner product of row n of a with row n of b over the 160 features. -/
def dotRow (a b : Fin 262144 → Fin 160 → EReal) (n : Fin 262144) : EReal := ∑ o : Fin 160, a n o * b n o

/-- The softmax of three scores (shifted by their maximum) applied as weights to three values. -/
def mix (s0 s1 s2 l r s : EReal) : EReal :=
  Ideal.div (Ideal.exp (s0 - max (max s0 s1) s2))
      (Ideal.exp (s0 - max (max s0 s1) s2) + Ideal.exp (s1 - max (max s0 s1) s2) + Ideal.exp (s2 - max (max s0 s1) s2)) * l
    + Ideal.div (Ideal.exp (s1 - max (max s0 s1) s2))
      (Ideal.exp (s0 - max (max s0 s1) s2) + Ideal.exp (s1 - max (max s0 s1) s2) + Ideal.exp (s2 - max (max s0 s1) s2)) * r
    + Ideal.div (Ideal.exp (s2 - max (max s0 s1) s2))
      (Ideal.exp (s0 - max (max s0 s1) s2) + Ideal.exp (s1 - max (max s0 s1) s2) + Ideal.exp (s2 - max (max s0 s1) s2)) * s

/-- The result array from the three normalised feature arrays: entry (n, k) mixes left, right and sub at (n, k) with
    the softmax of row n's three inner products. -/
def out (sub left right : SX.Idx → EReal) (Rs Rl Rr : Fin 262144 → Fin 160 → EReal) : SX.Idx → EReal := fun j =>
  mix (dotRow Rs Rl (j 0)) (dotRow Rs Rr (j 0)) (dotRow Rl Rr (j 0)) (left j) (right j) (sub j)

/-- The whole function, with the way the column statistics are taken left as a parameter. -/
def full (mu v : (Fin 262144 → Fin 160 → EReal) → Fin 160 → EReal)
    (sub left right : SX.Idx → EReal)
    (Ws : SW.Idx → EReal) (bs gs bes : SV.Idx → EReal)
    (Wl : SW.Idx → EReal) (bl gl bel : SV.Idx → EReal)
    (Wr : SW.Idx → EReal) (br gr ber : SV.Idx → EReal) : SX.Idx → EReal :=
  out sub left right
    (nrm (lin sub Ws bs) (mu (lin sub Ws bs)) (v (lin sub Ws bs)) gs bes)
    (nrm (lin left Wl bl) (mu (lin left Wl bl)) (v (lin left Wl bl)) gl bel)
    (nrm (lin right Wr br) (mu (lin right Wr br)) (v (lin right Wr br)) gr ber)

end Cert.Spec

end
-- ==== Proof.KHost.lean ====
/-
  The contents of the buffers each region is entered with, in terms of the launch memory.

  Before the statistics region the host transposes each weight matrix (and narrows it, which on the extended reals
  changes nothing); nothing else is written, so the region finds the arguments as launched. Between the regions
  the host adds the two halves' totals, divides by N to get each column's mean and mean square, and subtracts the
  squared mean from the mean square; the arguments and the transposed weights are untouched by the first region
  (it only reads them) and by these operations.
-/
import proofs.«144679_j65463891525764_2_alg».proof.Proof.Gen.KernelIdeal.Frame
import proofs.«144679_j65463891525764_2_alg».proof.Proof.Spec
import Idealize.ShloMosaic.Lib.IdealHost
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.KHost

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## Entering the statistics region -/

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg4 (c : Dev nD) : V1 m ρ c main_arg4 = m ((c : Thread nD τ).loc main_arg4) := by
  show StableHlo.after hostOps0 (W0 m ρ c) (Proc.devRef .tc main_arg4) = _
  after_results
theorem V1_arg7 (c : Dev nD) : V1 m ρ c main_arg7 = m ((c : Thread nD τ).loc main_arg7) := by
  show StableHlo.after hostOps0 (W0 m ρ c) (Proc.devRef .tc main_arg7) = _
  after_results
theorem V1_arg8 (c : Dev nD) : V1 m ρ c main_arg8 = m ((c : Thread nD τ).loc main_arg8) := by
  show StableHlo.after hostOps0 (W0 m ρ c) (Proc.devRef .tc main_arg8) = _
  after_results
theorem V1_arg11 (c : Dev nD) : V1 m ρ c main_arg11 = m ((c : Thread nD τ).loc main_arg11) := by
  show StableHlo.after hostOps0 (W0 m ρ c) (Proc.devRef .tc main_arg11) = _
  after_results
theorem V1_arg12 (c : Dev nD) : V1 m ρ c main_arg12 = m ((c : Thread nD τ).loc main_arg12) := by
  show StableHlo.after hostOps0 (W0 m ρ c) (Proc.devRef .tc main_arg12) = _
  after_results
theorem V1_arg5 (c : Dev nD) : V1 m ρ c main_arg5 = m ((c : Thread nD τ).loc main_arg5) := by
  show StableHlo.after hostOps0 (W0 m ρ c) (Proc.devRef .tc main_arg5) = _
  after_results
theorem V1_arg6 (c : Dev nD) : V1 m ρ c main_arg6 = m ((c : Thread nD τ).loc main_arg6) := by
  show StableHlo.after hostOps0 (W0 m ρ c) (Proc.devRef .tc main_arg6) = _
  after_results
theorem V1_arg9 (c : Dev nD) : V1 m ρ c main_arg9 = m ((c : Thread nD τ).loc main_arg9) := by
  show StableHlo.after hostOps0 (W0 m ρ c) (Proc.devRef .tc main_arg9) = _
  after_results
theorem V1_arg10 (c : Dev nD) : V1 m ρ c main_arg10 = m ((c : Thread nD τ).loc main_arg10) := by
  show StableHlo.after hostOps0 (W0 m ρ c) (Proc.devRef .tc main_arg10) = _
  after_results
theorem V1_arg13 (c : Dev nD) : V1 m ρ c main_arg13 = m ((c : Thread nD τ).loc main_arg13) := by
  show StableHlo.after hostOps0 (W0 m ρ c) (Proc.devRef .tc main_arg13) = _
  after_results
theorem V1_arg14 (c : Dev nD) : V1 m ρ c main_arg14 = m ((c : Thread nD τ).loc main_arg14) := by
  show StableHlo.after hostOps0 (W0 m ρ c) (Proc.devRef .tc main_arg14) = _
  after_results

/-- The transposed weights the regions read: entry (k, o) is the weight matrix's entry (o, k). -/
theorem V1_v1_apply (c : Dev nD) (k : Fin 80) (o : Fin 160) :
    (V1 m ρ c main_v1 : FVec Ideal S80x160 .bf16) (ix2 k o) = (m ((c : Thread nD τ).loc main_arg3) : FVec Ideal S160x80 .f32) (ix2 o k) := by
  have e : (V1 m ρ c main_v1 : FVec Ideal S80x160 .bf16) = truncf (F := Ideal) .bf16 (transpose S80x160 [1, 0] (m ((c : Thread nD τ).loc main_arg3) : FVec Ideal S160x80 .f32) transposes_S160x80_S80x160_1_0) bitsLt_bf16_f32 := by
    show StableHlo.after hostOps0 (W0 m ρ c) (Proc.devRef .tc main_v1) = _
    after_results
  rw [e, truncf_apply]
  exact transpose_ix2_apply _ _ k o
theorem V1_v3_apply (c : Dev nD) (k : Fin 80) (o : Fin 160) :
    (V1 m ρ c main_v3 : FVec Ideal S80x160 .bf16) (ix2 k o) = (m ((c : Thread nD τ).loc main_arg7) : FVec Ideal S160x80 .f32) (ix2 o k) := by
  have e : (V1 m ρ c main_v3 : FVec Ideal S80x160 .bf16) = truncf (F := Ideal) .bf16 (transpose S80x160 [1, 0] (m ((c : Thread nD τ).loc main_arg7) : FVec Ideal S160x80 .f32) transposes_S160x80_S80x160_1_0) bitsLt_bf16_f32 := by
    show StableHlo.after hostOps0 (W0 m ρ c) (Proc.devRef .tc main_v3) = _
    after_results
  rw [e, truncf_apply]
  exact transpose_ix2_apply _ _ k o
theorem V1_v5_apply (c : Dev nD) (k : Fin 80) (o : Fin 160) :
    (V1 m ρ c main_v5 : FVec Ideal S80x160 .bf16) (ix2 k o) = (m ((c : Thread nD τ).loc main_arg11) : FVec Ideal S160x80 .f32) (ix2 o k) := by
  have e : (V1 m ρ c main_v5 : FVec Ideal S80x160 .bf16) = truncf (F := Ideal) .bf16 (transpose S80x160 [1, 0] (m ((c : Thread nD τ).loc main_arg11) : FVec Ideal S160x80 .f32) transposes_S160x80_S80x160_1_0) bitsLt_bf16_f32 := by
    show StableHlo.after hostOps0 (W0 m ρ c) (Proc.devRef .tc main_v5) = _
    after_results
  rw [e, truncf_apply]
  exact transpose_ix2_apply _ _ k o

/-! ## Entering the combining region -/

theorem V3_arg0 (c : Dev nD) : V3 m ρ c main_arg0 = V1 m ρ c main_arg0 := by
  show StableHlo.after hostOps1 (W2 m ρ c) (Proc.devRef .tc main_arg0) = _
  after_results
  exact (W2_arr m ρ c 0).trans (((dat0 (V1 m ρ) c).arrAt_in 0 rfl _).trans (A_eq0 (V1 m ρ) c 0))
theorem V3_arg1 (c : Dev nD) : V3 m ρ c main_arg1 = V1 m ρ c main_arg1 := by
  show StableHlo.after hostOps1 (W2 m ρ c) (Proc.devRef .tc main_arg1) = _
  after_results
  exact (W2_arr m ρ c 1).trans (((dat0 (V1 m ρ) c).arrAt_in 1 rfl _).trans (A_eq0 (V1 m ρ) c 1))
theorem V3_arg2 (c : Dev nD) : V3 m ρ c main_arg2 = V1 m ρ c main_arg2 := by
  show StableHlo.after hostOps1 (W2 m ρ c) (Proc.devRef .tc main_arg2) = _
  after_results
  exact (W2_arr m ρ c 2).trans (((dat0 (V1 m ρ) c).arrAt_in 2 rfl _).trans (A_eq0 (V1 m ρ) c 2))
theorem V3_v1 (c : Dev nD) : V3 m ρ c main_v1 = V1 m ρ c main_v1 := by
  show StableHlo.after hostOps1 (W2 m ρ c) (Proc.devRef .tc main_v1) = _
  after_results
  exact (W2_arr m ρ c 3).trans (((dat0 (V1 m ρ) c).arrAt_in 3 rfl _).trans (A_eq0 (V1 m ρ) c 3))
theorem V3_arg4 (c : Dev nD) : V3 m ρ c main_arg4 = V1 m ρ c main_arg4 := by
  show StableHlo.after hostOps1 (W2 m ρ c) (Proc.devRef .tc main_arg4) = _
  after_results
  exact (W2_arr m ρ c 4).trans (((dat0 (V1 m ρ) c).arrAt_in 4 rfl _).trans (A_eq0 (V1 m ρ) c 4))
theorem V3_arg5 (c : Dev nD) : V3 m ρ c main_arg5 = V1 m ρ c main_arg5 := by
  show StableHlo.after hostOps1 (W2 m ρ c) (Proc.devRef .tc main_arg5) = _
  after_results
  exact W2_of_ne m ρ c main_arg5 (by decide)
theorem V3_arg6 (c : Dev nD) : V3 m ρ c main_arg6 = V1 m ρ c main_arg6 := by
  show StableHlo.after hostOps1 (W2 m ρ c) (Proc.devRef .tc main_arg6) = _
  after_results
  exact W2_of_ne m ρ c main_arg6 (by decide)
theorem V3_v3 (c : Dev nD) : V3 m ρ c main_v3 = V1 m ρ c main_v3 := by
  show StableHlo.after hostOps1 (W2 m ρ c) (Proc.devRef .tc main_v3) = _
  after_results
  exact (W2_arr m ρ c 5).trans (((dat0 (V1 m ρ) c).arrAt_in 5 rfl _).trans (A_eq0 (V1 m ρ) c 5))
theorem V3_arg8 (c : Dev nD) : V3 m ρ c main_arg8 = V1 m ρ c main_arg8 := by
  show StableHlo.after hostOps1 (W2 m ρ c) (Proc.devRef .tc main_arg8) = _
  after_results
  exact (W2_arr m ρ c 6).trans (((dat0 (V1 m ρ) c).arrAt_in 6 rfl _).trans (A_eq0 (V1 m ρ) c 6))
theorem V3_arg9 (c : Dev nD) : V3 m ρ c main_arg9 = V1 m ρ c main_arg9 := by
  show StableHlo.after hostOps1 (W2 m ρ c) (Proc.devRef .tc main_arg9) = _
  after_results
  exact W2_of_ne m ρ c main_arg9 (by decide)
theorem V3_arg10 (c : Dev nD) : V3 m ρ c main_arg10 = V1 m ρ c main_arg10 := by
  show StableHlo.after hostOps1 (W2 m ρ c) (Proc.devRef .tc main_arg10) = _
  after_results
  exact W2_of_ne m ρ c main_arg10 (by decide)
theorem V3_v5 (c : Dev nD) : V3 m ρ c main_v5 = V1 m ρ c main_v5 := by
  show StableHlo.after hostOps1 (W2 m ρ c) (Proc.devRef .tc main_v5) = _
  after_results
  exact (W2_arr m ρ c 7).trans (((dat0 (V1 m ρ) c).arrAt_in 7 rfl _).trans (A_eq0 (V1 m ρ) c 7))
theorem V3_arg12 (c : Dev nD) : V3 m ρ c main_arg12 = V1 m ρ c main_arg12 := by
  show StableHlo.after hostOps1 (W2 m ρ c) (Proc.devRef .tc main_arg12) = _
  after_results
  exact (W2_arr m ρ c 8).trans (((dat0 (V1 m ρ) c).arrAt_in 8 rfl _).trans (A_eq0 (V1 m ρ) c 8))
theorem V3_arg13 (c : Dev nD) : V3 m ρ c main_arg13 = V1 m ρ c main_arg13 := by
  show StableHlo.after hostOps1 (W2 m ρ c) (Proc.devRef .tc main_arg13) = _
  after_results
  exact W2_of_ne m ρ c main_arg13 (by decide)
theorem V3_arg14 (c : Dev nD) : V3 m ρ c main_arg14 = V1 m ρ c main_arg14 := by
  show StableHlo.after hostOps1 (W2 m ρ c) (Proc.devRef .tc main_arg14) = _
  after_results
  exact W2_of_ne m ρ c main_arg14 (by decide)

/-- The two arrays of totals the statistics region leaves: the column sums and the column sums of squares, per half
    and per branch. -/
def sums (V : (c : Dev nD) → (b : Ref sig .tc) → Buf (Elt Ideal) ((c : Thread nD τ).loc b)) (c : Dev nD) :
    FVec Ideal S2x3x160 .f32 := (dat0 (F := Ideal) V c).arrAt 9 cfg0.N
def sumsqs (V : (c : Dev nD) → (b : Ref sig .tc) → Buf (Elt Ideal) ((c : Thread nD τ).loc b)) (c : Dev nD) :
    FVec Ideal S2x3x160 .f32 := (dat0 (F := Ideal) V c).arrAt 10 cfg0.N

/-- The index of the [2, 3, 160] array of totals that the sum over the halves reads for half c' at (j, o). -/
theorem lift_halves (h : S2x3x160.Reduces [0] S3x160) (j : Fin 3) (o : Fin 160) (c' : Fin 2) :
    h.lift (ix2 j o) c' = ix3 c' j o :=
  funext fun a => Fin.ext (by match a with | ⟨0, _⟩ => rfl | ⟨1, _⟩ => rfl | ⟨2, _⟩ => rfl)

/-- Adding the two halves of an array of totals and dividing by N, read at (j, o). -/
theorem mean_apply (S : FVec Ideal S2x3x160 .f32) (j : Fin 3) (o : Fin 160) :
    Host.divf (Host.reduceAdd (F := Ideal) S (constant (F := Ideal) S_ .f32 0x00000000#32) reducesTo_S2x3x160_S3x160_d0 h_S_)
        (broadcastInDim S3x160 ![] bcast_S_S3x160 (constant (F := Ideal) S_ .f32 0x48800000#32)) (ix2 j o)
      = Ideal.div (0 + ∑ c' : Fin 2, S (ix3 c' j o)) Cert.Spec.cN := by
  rw [hostDivf_apply, hostReduceAdd_apply, broadcastInDim_scalar_apply,
    Ideal.hostReduceAdd_single _ (by decide : S2x3x160.Reduces [0] S3x160), constant_apply, constant_apply, Ideal.ofBits_zero_f32]
  exact congrArg (fun s => Ideal.div (0 + s) Cert.Spec.cN)
    (Finset.sum_congr rfl fun k _ => congrArg S (lift_halves _ j o k))

/-- The means the combining region reads, as a term of the statistics region's totals. -/
theorem V3_v10_term (c : Dev nD) :
    (V3 m ρ c main_v10 : FVec Ideal S3x160 .f32)
      = Host.divf (Host.reduceAdd (F := Ideal) (sums (V1 m ρ) c) (constant (F := Ideal) S_ .f32 0x00000000#32) reducesTo_S2x3x160_S3x160_d0 h_S_)
          (broadcastInDim S3x160 ![] bcast_S_S3x160 (constant (F := Ideal) S_ .f32 0x48800000#32)) := by
  show StableHlo.after hostOps1 (W2 m ρ c) (Proc.devRef .tc main_v10) = _
  after_results
  rw [show (W2 m ρ c (Proc.devRef .tc main_v6_0) : FVec Ideal S2x3x160 .f32) = sums (V1 m ρ) c from W2_arr m ρ c 9]

/-- The variances the combining region reads, likewise: the mean square minus the squared mean. -/
theorem V3_v14_term (c : Dev nD) :
    (V3 m ρ c main_v14 : FVec Ideal S3x160 .f32)
      = subf (Host.divf (Host.reduceAdd (F := Ideal) (sumsqs (V1 m ρ) c) (constant (F := Ideal) S_ .f32 0x00000000#32) reducesTo_S2x3x160_S3x160_d0 h_S_)
          (broadcastInDim S3x160 ![] bcast_S_S3x160 (constant (F := Ideal) S_ .f32 0x48800000#32)))
        (mulf
          (Host.divf (Host.reduceAdd (F := Ideal) (sums (V1 m ρ) c) (constant (F := Ideal) S_ .f32 0x00000000#32) reducesTo_S2x3x160_S3x160_d0 h_S_)
            (broadcastInDim S3x160 ![] bcast_S_S3x160 (constant (F := Ideal) S_ .f32 0x48800000#32)))
          (Host.divf (Host.reduceAdd (F := Ideal) (sums (V1 m ρ) c) (constant (F := Ideal) S_ .f32 0x00000000#32) reducesTo_S2x3x160_S3x160_d0 h_S_)
            (broadcastInDim S3x160 ![] bcast_S_S3x160 (constant (F := Ideal) S_ .f32 0x48800000#32)))) := by
  show StableHlo.after hostOps1 (W2 m ρ c) (Proc.devRef .tc main_v14) = _
  after_results
  rw [show (W2 m ρ c (Proc.devRef .tc main_v6_0) : FVec Ideal S2x3x160 .f32) = sums (V1 m ρ) c from W2_arr m ρ c 9,
    show (W2 m ρ c (Proc.devRef .tc main_v6_1) : FVec Ideal S2x3x160 .f32) = sumsqs (V1 m ρ) c from W2_arr m ρ c 10]

/-- The means at (j, o): the two halves' totals of column o of branch j, added and divided by N. -/
theorem V3_v10_apply (c : Dev nD) (j : Fin 3) (o : Fin 160) :
    (V3 m ρ c main_v10 : FVec Ideal S3x160 .f32) (ix2 j o)
      = Ideal.div (0 + ∑ c' : Fin 2, sums (V1 m ρ) c (ix3 c' j o)) Cert.Spec.cN :=
  (congrFun (V3_v10_term m ρ c) (ix2 j o)).trans (mean_apply _ j o)

/-- The variances at (j, o): the mean square minus the squared mean. -/
theorem V3_v14_apply (c : Dev nD) (j : Fin 3) (o : Fin 160) :
    (V3 m ρ c main_v14 : FVec Ideal S3x160 .f32) (ix2 j o)
      = Ideal.div (0 + ∑ c' : Fin 2, sumsqs (V1 m ρ) c (ix3 c' j o)) Cert.Spec.cN
        - Ideal.div (0 + ∑ c' : Fin 2, sums (V1 m ρ) c (ix3 c' j o)) Cert.Spec.cN
          * Ideal.div (0 + ∑ c' : Fin 2, sums (V1 m ρ) c (ix3 c' j o)) Cert.Spec.cN := by
  refine (congrFun (V3_v14_term m ρ c) (ix2 j o)).trans ?_
  rw [subf_apply, mulf_apply, mean_apply, mean_apply]

end Cert.KernelIdeal.KHost

end
-- ==== Proof.StatsLaw.lean ====
/-
  The two ways of taking the column statistics agree on finite data.

  The blockwise totals are a regrouping of the column's sum: the 262144 rows are 2 halves of 32 blocks of 4096,
  and addition on the extended reals is commutative and associative, so this half needs no finiteness.
  The variance does: with every entry a real number, the mean of the squared deviations from the mean μ is
  the mean square minus μ² (expand the square and use that the entries sum to N · μ). On the extended reals
  that step distributes a product over a sum, which fails at the infinities; so the entries are first
  shown to be real and the identity is proved there.
-/
import proofs.«144679_j65463891525764_2_alg».proof.Proof.Spec

noncomputable section

open scoped BigOperators

namespace Cert.Spec

open Idealize.ShloMosaic Idealize.ShloMosaic.ValueIdx

/-! ## Regrouping the rows -/

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running total after k blocks is the sum of the first k blocks' sums. -/
theorem acc_eq_sum_range (f : Fin 262144 → EReal) (c : Fin 2) (k : ℕ) :
    acc f c k = ∑ i ∈ Finset.range k, (if hk : i < 32 then blockSum f c ⟨i, hk⟩ else 0) := by
  induction k with
  | zero => simp [acc]
  | succ k ih => rw [acc, ih, Finset.sum_range_succ]

/-- After all 32 blocks it is the sum of the blocks' sums. -/
theorem acc_full (f : Fin 262144 → EReal) (c : Fin 2) : acc f c 32 = ∑ i : Fin 32, blockSum f c i := by
  rw [acc_eq_sum_range, Finset.sum_range]
  exact Finset.sum_congr rfl fun i _ => by rw [dif_pos i.isLt]

/-- The rows, as (half, block, row in the block). -/
def rowEquiv : Fin 2 × Fin 32 × Fin 4096 ≃ Fin 262144 where
  toFun p := rowOf p.1 p.2.1 p.2.2
  invFun n := (⟨n.val / 131072, by have := n.isLt; omega⟩, ⟨n.val % 131072 / 4096, by have := n.isLt; omega⟩,
    ⟨n.val % 4096, by omega⟩)
  left_inv p := by
    obtain ⟨c, i, r⟩ := p
    have := c.isLt; have := i.isLt; have := r.isLt
    refine Prod.ext (Fin.ext ?_) (Prod.ext (Fin.ext ?_) (Fin.ext ?_)) <;> simp only [rowOf] <;> omega
  right_inv n := by
    have := n.isLt
    refine Fin.ext ?_
    simp only [rowOf]
    omega

/-- The two halves' totals add up to the sum over all rows. -/
theorem sum_acc (f : Fin 262144 → EReal) : ∑ c : Fin 2, acc f c 32 = ∑ n : Fin 262144, f n := by
  rw [← Equiv.sum_comp rowEquiv f, Fintype.sum_prod_type]
  refine Finset.sum_congr rfl fun c _ => ?_
  rw [acc_full, Fintype.sum_prod_type]
  rfl

/-- So the mean from the halves' totals is the column mean. -/
theorem muK_eq (h : Fin 262144 → Fin 160 → EReal) : muK h = muR h := by
  funext o
  unfold muK muR
  rw [sum_acc]

/-- And the mean square from the halves' totals of the squares is the sum of the squares over N. -/
theorem m2K_eq (h : Fin 262144 → Fin 160 → EReal) (o : Fin 160) :
    m2K h o = Ideal.div (0 + ∑ n : Fin 262144, h n o * h n o) cN := by
  unfold m2K
  rw [sum_acc]

/-! ## The variance on real data -/

/-- The float both programs divide by denotes the real 262144. -/
theorem cN_eq : cN = ((262144 : ℝ) : EReal) := by
  simp [cN, Ideal.ofBits, Ideal.ieee, -EReal.coe_mul]; norm_num

/-- Over the reals: the mean of the squared deviations from the mean is the mean square minus the squared mean. -/
theorem var_real (a : Fin 262144 → ℝ) :
    (∑ n, (a n - (∑ n, a n) * (1 / 262144)) * (a n - (∑ n, a n) * (1 / 262144))) * (1 / 262144)
      = (∑ n, a n * a n) * (1 / 262144) - ((∑ n, a n) * (1 / 262144)) * ((∑ n, a n) * (1 / 262144)) := by
  have e : ∑ n, (a n - (∑ n, a n) * (1 / 262144)) * (a n - (∑ n, a n) * (1 / 262144))
      = (∑ n, a n * a n) - 2 * ((∑ n, a n) * (1 / 262144)) * (∑ n, a n)
        + 262144 * (((∑ n, a n) * (1 / 262144)) * ((∑ n, a n) * (1 / 262144))) := by
    calc ∑ n, (a n - (∑ n, a n) * (1 / 262144)) * (a n - (∑ n, a n) * (1 / 262144))
        = ∑ n, (a n * a n - 2 * ((∑ n, a n) * (1 / 262144)) * a n
            + ((∑ n, a n) * (1 / 262144)) * ((∑ n, a n) * (1 / 262144))) :=
          Finset.sum_congr rfl fun n _ => by ring
      _ = _ := by
          rw [Finset.sum_add_distrib, Finset.sum_sub_distrib, ← Finset.mul_sum, Finset.sum_const, Finset.card_univ,
            Fintype.card_fin, nsmul_eq_mul]
          norm_num
  rw [e]
  ring

/-- On real data the two variances are equal. -/
theorem varK_eq (h : Fin 262144 → Fin 160 → EReal) (hfin : ∀ n o, ∃ x : ℝ, h n o = (x : EReal)) : varK h = varR h := by
  choose a ha using hfin
  funext o
  have hmu : muR h o = (((∑ n, a n o) * (1 / 262144) : ℝ) : EReal) := by
    unfold muR
    simp only [ha]
    rw [cN_eq, Ideal.div_coe (by norm_num), zero_add, EReal.coe_mul, coe_sum]
  have hm2 : m2K h o = (((∑ n, a n o * a n o) * (1 / 262144) : ℝ) : EReal) := by
    rw [m2K_eq]
    simp only [ha, ← EReal.coe_mul]
    rw [cN_eq, Ideal.div_coe (by norm_num), zero_add, EReal.coe_mul, coe_sum]
  have hvr : varR h o = (((∑ n, (a n o - (∑ n, a n o) * (1 / 262144)) * (a n o - (∑ n, a n o) * (1 / 262144)))
      * (1 / 262144) : ℝ) : EReal) := by
    unfold varR
    rw [hmu]
    simp only [ha, ← EReal.coe_sub, ← EReal.coe_mul]
    rw [cN_eq, Ideal.div_coe (by norm_num), zero_add, EReal.coe_mul, coe_sum]
  unfold varK
  rw [muK_eq, hmu, hm2, hvr, ← EReal.coe_mul, ← EReal.coe_sub]
  exact congrArg _ (var_real fun n => a n o).symm

/-! ## The layer on real data, and the whole function -/

/-- The two forms of the layer agree when the second weight array is the transpose of the first. -/
theorem linT_eq_lin (x : SX.Idx → EReal) (WT : SWT.Idx → EReal) (W : SW.Idx → EReal) (b : SV.Idx → EReal)
    (hW : ∀ (k : Fin 80) (o : Fin 160), WT (ix2 k o) = W (ix2 o k)) : linT x WT b = lin x W b := by
  funext n o
  unfold linT lin
  simp only [hW]

/-- The layer of real arrays is real. -/
theorem lin_real (x : SX.Idx → EReal) (W : SW.Idx → EReal) (b : SV.Idx → EReal)
    (hx : ∀ i, ∃ r : ℝ, x i = (r : EReal)) (hW : ∀ i, ∃ r : ℝ, W i = (r : EReal)) (hb : ∀ i, ∃ r : ℝ, b i = (r : EReal))
    (n : Fin 262144) (o : Fin 160) : ∃ r : ℝ, lin x W b n o = (r : EReal) := by
  choose x' hx' using hx
  choose W' hW' using hW
  choose b' hb' using hb
  refine ⟨(∑ k : Fin 80, x' (ix2 n k) * W' (ix2 o k)) + b' (ix1 o), ?_⟩
  unfold lin
  rw [EReal.coe_add, coe_sum, hb']
  exact congrArg (· + _) (Finset.sum_congr rfl fun k _ => by rw [hx', hW', EReal.coe_mul])

/-- On real arguments the whole function does not depend on which way the statistics are taken. -/
theorem full_eq (sub left right : SX.Idx → EReal)
    (Ws : SW.Idx → EReal) (bs gs bes : SV.Idx → EReal)
    (Wl : SW.Idx → EReal) (bl gl bel : SV.Idx → EReal)
    (Wr : SW.Idx → EReal) (br gr ber : SV.Idx → EReal)
    (hsub : ∀ i, ∃ r : ℝ, sub i = (r : EReal)) (hleft : ∀ i, ∃ r : ℝ, left i = (r : EReal))
    (hright : ∀ i, ∃ r : ℝ, right i = (r : EReal))
    (hWs : ∀ i, ∃ r : ℝ, Ws i = (r : EReal)) (hbs : ∀ i, ∃ r : ℝ, bs i = (r : EReal))
    (hWl : ∀ i, ∃ r : ℝ, Wl i = (r : EReal)) (hbl : ∀ i, ∃ r : ℝ, bl i = (r : EReal))
    (hWr : ∀ i, ∃ r : ℝ, Wr i = (r : EReal)) (hbr : ∀ i, ∃ r : ℝ, br i = (r : EReal)) :
    full muK varK sub left right Ws bs gs bes Wl bl gl bel Wr br gr ber
      = full muR varR sub left right Ws bs gs bes Wl bl gl bel Wr br gr ber := by
  unfold full
  rw [muK_eq, muK_eq, muK_eq, varK_eq _ (lin_real sub Ws bs hsub hWs hbs), varK_eq _ (lin_real left Wl bl hleft hWl hbl),
    varK_eq _ (lin_real right Wr br hright hWr hbr)]

end Cert.Spec

end
-- ==== Proof.KValue.lean ====
/-
  The kernel program's result, as the specification with the statistics taken blockwise.

  Three facts about the two regions are taken as hypotheses here, each stated for the contents the region is entered
  with: what the statistics region leaves in its two arrays of totals (per branch: the running totals of the
  layer's columns and of their squares), and what the combining region leaves in the result array (the mix of
  the three inputs' rows under the softmax of the normalised features' inner products, the features normalised by
  whatever means and variances the region is handed). Between them sit only the host's transposes, its sum over
  the two halves, two divisions, a product and a difference; reading those gives the means and variances the
  second region is handed as the blockwise statistics of the layers, and everything else it is handed as the
  launch arguments.
-/
import proofs.«144679_j65463891525764_2_alg».proof.Proof.KRun
import proofs.«144679_j65463891525764_2_alg».proof.Proof.KHost
import proofs.«144679_j65463891525764_2_alg».proof.Proof.StatsLaw

set_option maxRecDepth 16384

noncomputable section

open scoped BigOperators

namespace Cert.KernelIdeal.KValue

open Cert.KernelIdeal Cert.KernelIdeal.Gen Cert.KernelIdeal.KHost
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Branch 0's layer as the statistics region reads it (over the transposed weights) is the layer of the launch
    arguments. -/
theorem lin_V1_0 (c : Dev nD) : Cert.Spec.linT (V1 m ρ c main_arg0) (V1 m ρ c main_v1) (V1 m ρ c main_arg4) = Cert.Spec.lin (m ((c : Thread nD τ).loc main_arg0)) (m ((c : Thread nD τ).loc main_arg3)) (m ((c : Thread nD τ).loc main_arg4)) := by
  rw [V1_arg0, V1_arg4]
  exact Cert.Spec.linT_eq_lin _ _ _ _ (V1_v1_apply m ρ c)
/-- … and so is the layer as the combining region reads it. -/
theorem lin_V3_0 (c : Dev nD) : Cert.Spec.linT (V3 m ρ c main_arg0) (V3 m ρ c main_v1) (V3 m ρ c main_arg4) = Cert.Spec.lin (m ((c : Thread nD τ).loc main_arg0)) (m ((c : Thread nD τ).loc main_arg3)) (m ((c : Thread nD τ).loc main_arg4)) := by
  rw [V3_arg0, V3_arg4, V3_v1]
  exact lin_V1_0 m ρ c
/-- Branch 1's layer as the statistics region reads it (over the transposed weights) is the layer of the launch
    arguments. -/
theorem lin_V1_1 (c : Dev nD) : Cert.Spec.linT (V1 m ρ c main_arg1) (V1 m ρ c main_v3) (V1 m ρ c main_arg8) = Cert.Spec.lin (m ((c : Thread nD τ).loc main_arg1)) (m ((c : Thread nD τ).loc main_arg7)) (m ((c : Thread nD τ).loc main_arg8)) := by
  rw [V1_arg1, V1_arg8]
  exact Cert.Spec.linT_eq_lin _ _ _ _ (V1_v3_apply m ρ c)
/-- … and so is the layer as the combining region reads it. -/
theorem lin_V3_1 (c : Dev nD) : Cert.Spec.linT (V3 m ρ c main_arg1) (V3 m ρ c main_v3) (V3 m ρ c main_arg8) = Cert.Spec.lin (m ((c : Thread nD τ).loc main_arg1)) (m ((c : Thread nD τ).loc main_arg7)) (m ((c : Thread nD τ).loc main_arg8)) := by
  rw [V3_arg1, V3_arg8, V3_v3]
  exact lin_V1_1 m ρ c
/-- Branch 2's layer as the statistics region reads it (over the transposed weights) is the layer of the launch
    arguments. -/
theorem lin_V1_2 (c : Dev nD) : Cert.Spec.linT (V1 m ρ c main_arg2) (V1 m ρ c main_v5) (V1 m ρ c main_arg12) = Cert.Spec.lin (m ((c : Thread nD τ).loc main_arg2)) (m ((c : Thread nD τ).loc main_arg11)) (m ((c : Thread nD τ).loc main_arg12)) := by
  rw [V1_arg2, V1_arg12]
  exact Cert.Spec.linT_eq_lin _ _ _ _ (V1_v5_apply m ρ c)
/-- … and so is the layer as the combining region reads it. -/
theorem lin_V3_2 (c : Dev nD) : Cert.Spec.linT (V3 m ρ c main_arg2) (V3 m ρ c main_v5) (V3 m ρ c main_arg12) = Cert.Spec.lin (m ((c : Thread nD τ).loc main_arg2)) (m ((c : Thread nD τ).loc main_arg11)) (m ((c : Thread nD τ).loc main_arg12)) := by
  rw [V3_arg2, V3_arg12, V3_v5]
  exact lin_V1_2 m ρ c

theorem lin_V1_0_apply (c : Dev nD) (n : Fin 262144) (o : Fin 160) :
    Cert.Spec.linT (V1 m ρ c main_arg0) (V1 m ρ c main_v1) (V1 m ρ c main_arg4) n o = Cert.Spec.lin (m ((c : Thread nD τ).loc main_arg0)) (m ((c : Thread nD τ).loc main_arg3)) (m ((c : Thread nD τ).loc main_arg4)) n o :=
  congrFun (congrFun (lin_V1_0 m ρ c) n) o

/-- Branch 0's means, as the combining region is handed them, are the blockwise means of the branch's layer. -/
theorem mu_eq_0 (c : Dev nD)
    (hs : ∀ (c' : Fin 2) (o : Fin 160), sums (V1 m ρ) c (ix3 c' (0 : Fin 3) o)
      = Cert.Spec.acc (fun n => Cert.Spec.linT (V1 m ρ c main_arg0) (V1 m ρ c main_v1) (V1 m ρ c main_arg4) n o) c' 32) :
    (fun o => (V3 m ρ c main_v10 : FVec Ideal S3x160 .f32) (ix2 (0 : Fin 3) o)) = Cert.Spec.muK (Cert.Spec.lin (m ((c : Thread nD τ).loc main_arg0)) (m ((c : Thread nD τ).loc main_arg3)) (m ((c : Thread nD τ).loc main_arg4))) := by
  funext o
  rw [V3_v10_apply]
  simp only [hs, lin_V1_0_apply m ρ c]
  rfl

/-- Branch 0's variances likewise are the blockwise variances of the branch's layer. -/
theorem var_eq_0 (c : Dev nD)
    (hs : ∀ (c' : Fin 2) (o : Fin 160), sums (V1 m ρ) c (ix3 c' (0 : Fin 3) o)
      = Cert.Spec.acc (fun n => Cert.Spec.linT (V1 m ρ c main_arg0) (V1 m ρ c main_v1) (V1 m ρ c main_arg4) n o) c' 32)
    (hq : ∀ (c' : Fin 2) (o : Fin 160), sumsqs (V1 m ρ) c (ix3 c' (0 : Fin 3) o)
      = Cert.Spec.acc (fun n => Cert.Spec.linT (V1 m ρ c main_arg0) (V1 m ρ c main_v1) (V1 m ρ c main_arg4) n o * Cert.Spec.linT (V1 m ρ c main_arg0) (V1 m ρ c main_v1) (V1 m ρ c main_arg4) n o) c' 32) :
    (fun o => (V3 m ρ c main_v14 : FVec Ideal S3x160 .f32) (ix2 (0 : Fin 3) o)) = Cert.Spec.varK (Cert.Spec.lin (m ((c : Thread nD τ).loc main_arg0)) (m ((c : Thread nD τ).loc main_arg3)) (m ((c : Thread nD τ).loc main_arg4))) := by
  funext o
  rw [V3_v14_apply]
  simp only [hs, hq, lin_V1_0_apply m ρ c]
  rfl

theorem lin_V1_1_apply (c : Dev nD) (n : Fin 262144) (o : Fin 160) :
    Cert.Spec.linT (V1 m ρ c main_arg1) (V1 m ρ c main_v3) (V1 m ρ c main_arg8) n o = Cert.Spec.lin (m ((c : Thread nD τ).loc main_arg1)) (m ((c : Thread nD τ).loc main_arg7)) (m ((c : Thread nD τ).loc main_arg8)) n o :=
  congrFun (congrFun (lin_V1_1 m ρ c) n) o

/-- Branch 1's means, as the combining region is handed them, are the blockwise means of the branch's layer. -/
theorem mu_eq_1 (c : Dev nD)
    (hs : ∀ (c' : Fin 2) (o : Fin 160), sums (V1 m ρ) c (ix3 c' (1 : Fin 3) o)
      = Cert.Spec.acc (fun n => Cert.Spec.linT (V1 m ρ c main_arg1) (V1 m ρ c main_v3) (V1 m ρ c main_arg8) n o) c' 32) :
    (fun o => (V3 m ρ c main_v10 : FVec Ideal S3x160 .f32) (ix2 (1 : Fin 3) o)) = Cert.Spec.muK (Cert.Spec.lin (m ((c : Thread nD τ).loc main_arg1)) (m ((c : Thread nD τ).loc main_arg7)) (m ((c : Thread nD τ).loc main_arg8))) := by
  funext o
  rw [V3_v10_apply]
  simp only [hs, lin_V1_1_apply m ρ c]
  rfl

/-- Branch 1's variances likewise are the blockwise variances of the branch's layer. -/
theorem var_eq_1 (c : Dev nD)
    (hs : ∀ (c' : Fin 2) (o : Fin 160), sums (V1 m ρ) c (ix3 c' (1 : Fin 3) o)
      = Cert.Spec.acc (fun n => Cert.Spec.linT (V1 m ρ c main_arg1) (V1 m ρ c main_v3) (V1 m ρ c main_arg8) n o) c' 32)
    (hq : ∀ (c' : Fin 2) (o : Fin 160), sumsqs (V1 m ρ) c (ix3 c' (1 : Fin 3) o)
      = Cert.Spec.acc (fun n => Cert.Spec.linT (V1 m ρ c main_arg1) (V1 m ρ c main_v3) (V1 m ρ c main_arg8) n o * Cert.Spec.linT (V1 m ρ c main_arg1) (V1 m ρ c main_v3) (V1 m ρ c main_arg8) n o) c' 32) :
    (fun o => (V3 m ρ c main_v14 : FVec Ideal S3x160 .f32) (ix2 (1 : Fin 3) o)) = Cert.Spec.varK (Cert.Spec.lin (m ((c : Thread nD τ).loc main_arg1)) (m ((c : Thread nD τ).loc main_arg7)) (m ((c : Thread nD τ).loc main_arg8))) := by
  funext o
  rw [V3_v14_apply]
  simp only [hs, hq, lin_V1_1_apply m ρ c]
  rfl

theorem lin_V1_2_apply (c : Dev nD) (n : Fin 262144) (o : Fin 160) :
    Cert.Spec.linT (V1 m ρ c main_arg2) (V1 m ρ c main_v5) (V1 m ρ c main_arg12) n o = Cert.Spec.lin (m ((c : Thread nD τ).loc main_arg2)) (m ((c : Thread nD τ).loc main_arg11)) (m ((c : Thread nD τ).loc main_arg12)) n o :=
  congrFun (congrFun (lin_V1_2 m ρ c) n) o

/-- Branch 2's means, as the combining region is handed them, are the blockwise means of the branch's layer. -/
theorem mu_eq_2 (c : Dev nD)
    (hs : ∀ (c' : Fin 2) (o : Fin 160), sums (V1 m ρ) c (ix3 c' (2 : Fin 3) o)
      = Cert.Spec.acc (fun n => Cert.Spec.linT (V1 m ρ c main_arg2) (V1 m ρ c main_v5) (V1 m ρ c main_arg12) n o) c' 32) :
    (fun o => (V3 m ρ c main_v10 : FVec Ideal S3x160 .f32) (ix2 (2 : Fin 3) o)) = Cert.Spec.muK (Cert.Spec.lin (m ((c : Thread nD τ).loc main_arg2)) (m ((c : Thread nD τ).loc main_arg11)) (m ((c : Thread nD τ).loc main_arg12))) := by
  funext o
  rw [V3_v10_apply]
  simp only [hs, lin_V1_2_apply m ρ c]
  rfl

/-- Branch 2's variances likewise are the blockwise variances of the branch's layer. -/
theorem var_eq_2 (c : Dev nD)
    (hs : ∀ (c' : Fin 2) (o : Fin 160), sums (V1 m ρ) c (ix3 c' (2 : Fin 3) o)
      = Cert.Spec.acc (fun n => Cert.Spec.linT (V1 m ρ c main_arg2) (V1 m ρ c main_v5) (V1 m ρ c main_arg12) n o) c' 32)
    (hq : ∀ (c' : Fin 2) (o : Fin 160), sumsqs (V1 m ρ) c (ix3 c' (2 : Fin 3) o)
      = Cert.Spec.acc (fun n => Cert.Spec.linT (V1 m ρ c main_arg2) (V1 m ρ c main_v5) (V1 m ρ c main_arg12) n o * Cert.Spec.linT (V1 m ρ c main_arg2) (V1 m ρ c main_v5) (V1 m ρ c main_arg12) n o) c' 32) :
    (fun o => (V3 m ρ c main_v14 : FVec Ideal S3x160 .f32) (ix2 (2 : Fin 3) o)) = Cert.Spec.varK (Cert.Spec.lin (m ((c : Thread nD τ).loc main_arg2)) (m ((c : Thread nD τ).loc main_arg11)) (m ((c : Thread nD τ).loc main_arg12))) := by
  funext o
  rw [V3_v14_apply]
  simp only [hs, hq, lin_V1_2_apply m ρ c]
  rfl

/-! The other arrays the combining region reads are the launch arguments. -/
theorem V3m_arg0 (c : Dev nD) : V3 m ρ c main_arg0 = m ((c : Thread nD τ).loc main_arg0) :=
  (V3_arg0 m ρ c).trans (V1_arg0 m ρ c)
theorem V3m_arg1 (c : Dev nD) : V3 m ρ c main_arg1 = m ((c : Thread nD τ).loc main_arg1) :=
  (V3_arg1 m ρ c).trans (V1_arg1 m ρ c)
theorem V3m_arg2 (c : Dev nD) : V3 m ρ c main_arg2 = m ((c : Thread nD τ).loc main_arg2) :=
  (V3_arg2 m ρ c).trans (V1_arg2 m ρ c)
theorem V3m_arg5 (c : Dev nD) : V3 m ρ c main_arg5 = m ((c : Thread nD τ).loc main_arg5) :=
  (V3_arg5 m ρ c).trans (V1_arg5 m ρ c)
theorem V3m_arg6 (c : Dev nD) : V3 m ρ c main_arg6 = m ((c : Thread nD τ).loc main_arg6) :=
  (V3_arg6 m ρ c).trans (V1_arg6 m ρ c)
theorem V3m_arg9 (c : Dev nD) : V3 m ρ c main_arg9 = m ((c : Thread nD τ).loc main_arg9) :=
  (V3_arg9 m ρ c).trans (V1_arg9 m ρ c)
theorem V3m_arg10 (c : Dev nD) : V3 m ρ c main_arg10 = m ((c : Thread nD τ).loc main_arg10) :=
  (V3_arg10 m ρ c).trans (V1_arg10 m ρ c)
theorem V3m_arg13 (c : Dev nD) : V3 m ρ c main_arg13 = m ((c : Thread nD τ).loc main_arg13) :=
  (V3_arg13 m ρ c).trans (V1_arg13 m ρ c)
theorem V3m_arg14 (c : Dev nD) : V3 m ρ c main_arg14 = m ((c : Thread nD τ).loc main_arg14) :=
  (V3_arg14 m ρ c).trans (V1_arg14 m ρ c)

set_option maxHeartbeats 1600000 in
/-- What the combining region leaves, once everything it is handed is read back to the launch arguments, is the
    specification with the statistics taken blockwise. -/
theorem out_full (c : Dev nD)
    (hs0 : ∀ (c' : Fin 2) (o : Fin 160), sums (V1 m ρ) c (ix3 c' (0 : Fin 3) o)
      = Cert.Spec.acc (fun n => Cert.Spec.linT (V1 m ρ c main_arg0) (V1 m ρ c main_v1) (V1 m ρ c main_arg4) n o) c' 32)
    (hq0 : ∀ (c' : Fin 2) (o : Fin 160), sumsqs (V1 m ρ) c (ix3 c' (0 : Fin 3) o)
      = Cert.Spec.acc (fun n => Cert.Spec.linT (V1 m ρ c main_arg0) (V1 m ρ c main_v1) (V1 m ρ c main_arg4) n o * Cert.Spec.linT (V1 m ρ c main_arg0) (V1 m ρ c main_v1) (V1 m ρ c main_arg4) n o) c' 32)
    (hs1 : ∀ (c' : Fin 2) (o : Fin 160), sums (V1 m ρ) c (ix3 c' (1 : Fin 3) o)
      = Cert.Spec.acc (fun n => Cert.Spec.linT (V1 m ρ c main_arg1) (V1 m ρ c main_v3) (V1 m ρ c main_arg8) n o) c' 32)
    (hq1 : ∀ (c' : Fin 2) (o : Fin 160), sumsqs (V1 m ρ) c (ix3 c' (1 : Fin 3) o)
      = Cert.Spec.acc (fun n => Cert.Spec.linT (V1 m ρ c main_arg1) (V1 m ρ c main_v3) (V1 m ρ c main_arg8) n o * Cert.Spec.linT (V1 m ρ c main_arg1) (V1 m ρ c main_v3) (V1 m ρ c main_arg8) n o) c' 32)
    (hs2 : ∀ (c' : Fin 2) (o : Fin 160), sums (V1 m ρ) c (ix3 c' (2 : Fin 3) o)
      = Cert.Spec.acc (fun n => Cert.Spec.linT (V1 m ρ c main_arg2) (V1 m ρ c main_v5) (V1 m ρ c main_arg12) n o) c' 32)
    (hq2 : ∀ (c' : Fin 2) (o : Fin 160), sumsqs (V1 m ρ) c (ix3 c' (2 : Fin 3) o)
      = Cert.Spec.acc (fun n => Cert.Spec.linT (V1 m ρ c main_arg2) (V1 m ρ c main_v5) (V1 m ρ c main_arg12) n o * Cert.Spec.linT (V1 m ρ c main_arg2) (V1 m ρ c main_v5) (V1 m ρ c main_arg12) n o) c' 32) :
    Cert.Spec.out (V3 m ρ c main_arg0) (V3 m ρ c main_arg1) (V3 m ρ c main_arg2)
          (Cert.Spec.nrm (Cert.Spec.linT (V3 m ρ c main_arg0) (V3 m ρ c main_v1) (V3 m ρ c main_arg4)) (fun o => V3 m ρ c main_v10 (ix2 (0 : Fin 3) o)) (fun o => V3 m ρ c main_v14 (ix2 (0 : Fin 3) o)) (V3 m ρ c main_arg5) (V3 m ρ c main_arg6))
          (Cert.Spec.nrm (Cert.Spec.linT (V3 m ρ c main_arg1) (V3 m ρ c main_v3) (V3 m ρ c main_arg8)) (fun o => V3 m ρ c main_v10 (ix2 (1 : Fin 3) o)) (fun o => V3 m ρ c main_v14 (ix2 (1 : Fin 3) o)) (V3 m ρ c main_arg9) (V3 m ρ c main_arg10))
          (Cert.Spec.nrm (Cert.Spec.linT (V3 m ρ c main_arg2) (V3 m ρ c main_v5) (V3 m ρ c main_arg12)) (fun o => V3 m ρ c main_v10 (ix2 (2 : Fin 3) o)) (fun o => V3 m ρ c main_v14 (ix2 (2 : Fin 3) o)) (V3 m ρ c main_arg13) (V3 m ρ c main_arg14))
      = Cert.Spec.full Cert.Spec.muK Cert.Spec.varK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) (m ((c : Thread nD τ).loc main_arg14)) := by
  have e0 := mu_eq_0 m ρ c hs0
  have e1 := mu_eq_1 m ρ c hs1
  have e2 := mu_eq_2 m ρ c hs2
  have f0 := var_eq_0 m ρ c hs0 hq0
  have f1 := var_eq_1 m ρ c hs1 hq1
  have f2 := var_eq_2 m ρ c hs2 hq2
  rw [e0, e1, e2, f0, f1, f2, lin_V3_0, lin_V3_1, lin_V3_2,
    V3m_arg0, V3m_arg1, V3m_arg2, V3m_arg5, V3m_arg6, V3m_arg9, V3m_arg10, V3m_arg13, V3m_arg14]
  rfl

/-- The result buffer after the run holds the specification, statistics taken blockwise, of the launch arguments. -/
theorem W4_value (c : Dev nD)
    (hs0 : ∀ (c' : Fin 2) (o : Fin 160), sums (V1 m ρ) c (ix3 c' (0 : Fin 3) o)
      = Cert.Spec.acc (fun n => Cert.Spec.linT (V1 m ρ c main_arg0) (V1 m ρ c main_v1) (V1 m ρ c main_arg4) n o) c' 32)
    (hq0 : ∀ (c' : Fin 2) (o : Fin 160), sumsqs (V1 m ρ) c (ix3 c' (0 : Fin 3) o)
      = Cert.Spec.acc (fun n => Cert.Spec.linT (V1 m ρ c main_arg0) (V1 m ρ c main_v1) (V1 m ρ c main_arg4) n o * Cert.Spec.linT (V1 m ρ c main_arg0) (V1 m ρ c main_v1) (V1 m ρ c main_arg4) n o) c' 32)
    (hs1 : ∀ (c' : Fin 2) (o : Fin 160), sums (V1 m ρ) c (ix3 c' (1 : Fin 3) o)
      = Cert.Spec.acc (fun n => Cert.Spec.linT (V1 m ρ c main_arg1) (V1 m ρ c main_v3) (V1 m ρ c main_arg8) n o) c' 32)
    (hq1 : ∀ (c' : Fin 2) (o : Fin 160), sumsqs (V1 m ρ) c (ix3 c' (1 : Fin 3) o)
      = Cert.Spec.acc (fun n => Cert.Spec.linT (V1 m ρ c main_arg1) (V1 m ρ c main_v3) (V1 m ρ c main_arg8) n o * Cert.Spec.linT (V1 m ρ c main_arg1) (V1 m ρ c main_v3) (V1 m ρ c main_arg8) n o) c' 32)
    (hs2 : ∀ (c' : Fin 2) (o : Fin 160), sums (V1 m ρ) c (ix3 c' (2 : Fin 3) o)
      = Cert.Spec.acc (fun n => Cert.Spec.linT (V1 m ρ c main_arg2) (V1 m ρ c main_v5) (V1 m ρ c main_arg12) n o) c' 32)
    (hq2 : ∀ (c' : Fin 2) (o : Fin 160), sumsqs (V1 m ρ) c (ix3 c' (2 : Fin 3) o)
      = Cert.Spec.acc (fun n => Cert.Spec.linT (V1 m ρ c main_arg2) (V1 m ρ c main_v5) (V1 m ρ c main_arg12) n o * Cert.Spec.linT (V1 m ρ c main_arg2) (V1 m ρ c main_v5) (V1 m ρ c main_arg12) n o) c' 32)
    (hout : (dat1 (F := Ideal) (V3 m ρ) c).arrAt 17 cfg1.N
      = Cert.Spec.out (V3 m ρ c main_arg0) (V3 m ρ c main_arg1) (V3 m ρ c main_arg2)
          (Cert.Spec.nrm (Cert.Spec.linT (V3 m ρ c main_arg0) (V3 m ρ c main_v1) (V3 m ρ c main_arg4)) (fun o => V3 m ρ c main_v10 (ix2 (0 : Fin 3) o)) (fun o => V3 m ρ c main_v14 (ix2 (0 : Fin 3) o)) (V3 m ρ c main_arg5) (V3 m ρ c main_arg6))
          (Cert.Spec.nrm (Cert.Spec.linT (V3 m ρ c main_arg1) (V3 m ρ c main_v3) (V3 m ρ c main_arg8)) (fun o => V3 m ρ c main_v10 (ix2 (1 : Fin 3) o)) (fun o => V3 m ρ c main_v14 (ix2 (1 : Fin 3) o)) (V3 m ρ c main_arg9) (V3 m ρ c main_arg10))
          (Cert.Spec.nrm (Cert.Spec.linT (V3 m ρ c main_arg2) (V3 m ρ c main_v5) (V3 m ρ c main_arg12)) (fun o => V3 m ρ c main_v10 (ix2 (2 : Fin 3) o)) (fun o => V3 m ρ c main_v14 (ix2 (2 : Fin 3) o)) (V3 m ρ c main_arg13) (V3 m ρ c main_arg14))) :
    W4 m ρ c (Proc.devRef .tc main_v15)
      = Cert.Spec.full Cert.Spec.muK Cert.Spec.varK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) (m ((c : Thread nD τ).loc main_arg14)) :=
  (KRun.W4_result m ρ c).trans (hout.trans (out_full m ρ c hs0 hq0 hs1 hq1 hs2 hq2))

end Cert.KernelIdeal.KValue

end
-- ==== Proof.Finite.lean ====
/-
  The precondition, read back: every entry of every argument array is a real number.

  The precondition is the conjunction, over the fifteen argument arrays, of "every entry's absolute value is below
  +∞". On the extended reals the absolute value of x is max x (−x), which is +∞ exactly at the two infinities;
  so an entry whose absolute value is below +∞ is neither of them, hence a real number.
-/
import proofs.«144679_j65463891525764_2_alg».proof.Pre_finite_inputs
import Idealize.ShloMosaic.Lib.ReduceAll
import Idealize.ShloMosaic.Lib.IdealHost
import Idealize.ShloMosaic.PureOps.Ideal.Laws

noncomputable section

namespace Cert.Finite

open Idealize.ShloMosaic Idealize.ShloMosaic.ValueIdx Cert.Pre_finite_inputs

/-- A rank-0 array has one index. -/
instance : Subsingleton (⟨0, ![]⟩ : Shape).Idx := ⟨fun _ _ => funext fun d => d.elim0⟩

/-- The word the precondition compares against denotes +∞. -/
theorem ofBits_top : Ideal.ofBits .f32 0x7F800000#32 = ⊤ := by simp [Ideal.ofBits, Ideal.ieee]

/-- If "all entries have absolute value below +∞" holds of an array, every entry is a real number. -/
theorem real_of_all {s : Shape} {axes : List (Fin s.rank)} (x : FVec Ideal s .f32)
    (bc : (⟨0, ![]⟩ : Shape).BroadcastsInDim s ![]) (hred : s.ReducesTo axes ⟨0, ![]⟩) (hS : 0 < (⟨0, ![]⟩ : Shape).numel)
    (e : Host.reduce IntOp.andi (cmpf .olt (Host.absf x) (broadcastInDim s ![] bc (constant (F := Ideal) ⟨0, ![]⟩ .f32 0x7F800000#32)))
        (constantI ⟨0, ![]⟩ 1 1#1) hred hS ix0 = 1#1)
    (i : s.Idx) : ∃ r : ℝ, x i = (r : EReal) := by
  have h1 := Host.reduce_andi_all _ _ hred hS ix0 e i
  rw [cmpf_apply, broadcastInDim_scalar_apply, constant_apply, ofBits_top] at h1
  have h2 : max (x i) (-(x i)) < ⊤ := by
    by_contra hc
    have h0 : FloatOps.cmpf (F := Ideal) .olt (Host.absf x i) (⊤ : EReal) = 0#1 := by
      show BitVec.ofBool (decide (max (x i) (-(x i)) < ⊤)) = 0#1
      rw [decide_eq_false hc]; rfl
    rw [h0] at h1
    exact absurd h1 (by decide)
  have hb : x i ≠ ⊥ := fun h => by rw [h] at h2; simp at h2
  have ht : x i ≠ ⊤ := fun h => by rw [h] at h2; simp at h2
  exact ⟨(x i).toReal, (EReal.coe_toReal ht hb).symm⟩

/-- A conjunction of two one-bit facts that holds gives both. -/
theorem andi_split {a b : IVec S_ 1} (h : andi a b ix0 = 1#1) : a ix0 = 1#1 ∧ b ix0 = 1#1 := IntOp.andi_eq_one.1 h

variable [Cert.Pre_finite_inputs.Facts]

/-- The precondition gives, for each of the nine arrays that enter the three linear layers, that its entries are real. -/
theorem fn_real
    (a0 a1 a2 : FVec Ideal S262144x80 .f32) (a3 : FVec Ideal S160x80 .f32) (a4 a5 a6 : FVec Ideal S160 .f32)
    (a7 : FVec Ideal S160x80 .f32) (a8 a9 a10 : FVec Ideal S160 .f32)
    (a11 : FVec Ideal S160x80 .f32) (a12 a13 a14 : FVec Ideal S160 .f32)
    (h : fn (F := Ideal) a0 a1 a2 a3 a4 a5 a6 a7 a8 a9 a10 a11 a12 a13 a14 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal))
    ∧ (∀ i, ∃ r : ℝ, a7 i = (r : EReal)) ∧ (∀ i, ∃ r : ℝ, a8 i = (r : EReal))
    ∧ (∀ i, ∃ r : ℝ, a11 i = (r : EReal)) ∧ (∀ i, ∃ r : ℝ, a12 i = (r : EReal)) := by
  have h0 := congrFun h ix0
  dsimp only [fn, fn_part1, fn_part2, fn_part3, fn_part4] at h0
  obtain ⟨h0, -⟩ := andi_split h0
  obtain ⟨h0, -⟩ := andi_split h0
  obtain ⟨h0, e12⟩ := andi_split h0
  obtain ⟨h0, e11⟩ := andi_split h0
  obtain ⟨h0, -⟩ := andi_split h0
  obtain ⟨h0, -⟩ := andi_split h0
  obtain ⟨h0, e8⟩ := andi_split h0
  obtain ⟨h0, e7⟩ := andi_split h0
  obtain ⟨h0, -⟩ := andi_split h0
  obtain ⟨h0, -⟩ := andi_split h0
  obtain ⟨h0, e4⟩ := andi_split h0
  obtain ⟨h0, e3⟩ := andi_split h0
  obtain ⟨h0, e2⟩ := andi_split h0
  obtain ⟨e0, e1⟩ := andi_split h0
  exact ⟨real_of_all a0 _ _ _ e0, real_of_all a1 _ _ _ e1, real_of_all a2 _ _ _ e2, real_of_all a3 _ _ _ e3,
    real_of_all a4 _ _ _ e4, real_of_all a7 _ _ _ e7, real_of_all a8 _ _ _ e8, real_of_all a11 _ _ _ e11,
    real_of_all a12 _ _ _ e12⟩

end Cert.Finite

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.RefValue.lean ====
/-
  Reading the plain formulation's arrays one entry at a time.

  Every array the plain formulation builds is a chain of row and column broadcasts, entrywise arithmetic, a
  matrix product, sums over one axis and a three-way stack. This file reads each of those steps at an index,
  over arbitrary arrays of the literal shapes, so that the later files only have to chain them.
-/
import proofs.«144679_j65463891525764_2_alg».proof.Proof.Gen.ReferenceIdeal.Run
import proofs.«144679_j65463891525764_2_alg».proof.Proof.Spec
import proofs.«144679_j65463891525764_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- A vector of 160 features laid out as one row and repeated down the N rows reads, at (n, o), entry o. -/
theorem rowBcast_apply (v : FVec Ideal S160 .f32) (n : Fin 262144) (o : Fin 160) :
    broadcastInDim S262144x160 ![0, 1] bcast_S1x160_S262144x160_0_1 (broadcastInDim S1x160 ![1] bcast_S160_S1x160_1 v) (ix2 n o)
      = v (ix1 o) := by
  refine (broadcastInDim_apply _ _ _ (ix2 n o) (ix2 (0 : Fin 1) o) fun a => ?_).trans ?_
  · match a with
    | ⟨0, _⟩ => rfl
    | ⟨1, _⟩ => rfl
  · refine broadcastInDim_apply _ _ _ (ix2 (0 : Fin 1) o) (ix1 o) fun a => ?_
    match a with
    | ⟨0, _⟩ => rfl

/-- A scalar constant repeated over the 160 features reads its value everywhere. -/
theorem scalarBcast_apply (w : BitVec 32) (o : Fin 160) :
    broadcastInDim S160 ![] bcast_S_S160 (constant (F := Ideal) S_ .f32 w) (ix1 o) = Ideal.ofBits .f32 w := rfl

/-- A scalar constant repeated over the N rows reads its value everywhere. -/
theorem scalarBcastN_apply (w : BitVec 32) (n : Fin 262144) :
    broadcastInDim S262144 ![] bcast_S_S262144 (constant (F := Ideal) S_ .f32 w) (ix1 n) = Ideal.ofBits .f32 w := rfl

/-- With the row axis summed away, the index over column t with row k put back is (k, t). -/
theorem lift_rows {m n : Nat} (h : (⟨2, ![m, n]⟩ : Shape).Reduces [0] (⟨1, ![n]⟩ : Shape)) (t : Fin n) (k : Fin m) :
    h.lift (ix1 t) k = ix2 k t := by
  funext c; apply Fin.ext
  fin_cases c <;> rfl

/-- With the column axis summed away, the index over row t with column k put back is (t, k). -/
theorem lift_cols {m n : Nat} (h : (⟨2, ![m, n]⟩ : Shape).Reduces [1] (⟨1, ![m]⟩ : Shape)) (t : Fin m) (k : Fin n) :
    h.lift (ix1 t) k = ix2 t k := by
  funext c; apply Fin.ext
  fin_cases c <;> rfl

/-- The sum of an N × 160 array over its rows, from zero, at feature o. -/
theorem colSum_apply (h : FVec Ideal S262144x160 .f32) (o : Fin 160) :
    Host.reduceAdd (F := Ideal) h (constant (F := Ideal) S_ .f32 0x00000000#32) reducesTo_S262144x160_S160_d0 h_S_ (ix1 o)
      = 0 + ∑ n : Fin 262144, h (ix2 n o) := by
  have hr : S262144x160.Reduces [0] S160 := by decide
  show Ideal.hostReduceAdd reducesTo_S262144x160_S160_d0 h (Ideal.ofBits .f32 0x00000000#32) (ix1 o) = _
  rw [Ideal.hostReduceAdd_single reducesTo_S262144x160_S160_d0 hr, Ideal.ofBits_zero_f32]
  show (0 : EReal) + ∑ k : Fin 262144, h (hr.lift (ix1 o) k) = _
  simp only [lift_rows hr]

/-- The sum of an N × 160 array over its 160 features, from zero, at row n. -/
theorem rowSum_apply (h : FVec Ideal S262144x160 .f32) (n : Fin 262144) :
    Host.reduceAdd (F := Ideal) h (constant (F := Ideal) S_ .f32 0x00000000#32) reducesTo_S262144x160_S262144_d1 h_S_ (ix1 n)
      = 0 + ∑ o : Fin 160, h (ix2 n o) := by
  have hr : S262144x160.Reduces [1] S262144 := by decide
  show Ideal.hostReduceAdd reducesTo_S262144x160_S262144_d1 h (Ideal.ofBits .f32 0x00000000#32) (ix1 n) = _
  rw [Ideal.hostReduceAdd_single reducesTo_S262144x160_S262144_d1 hr, Ideal.ofBits_zero_f32]
  show (0 : EReal) + ∑ k : Fin 160, h (hr.lift (ix1 n) k) = _
  simp only [lift_cols hr]

/-- The sum of a 3 × N array over its three rows, from zero, at column n. -/
theorem triSum_apply (h : FVec Ideal S3x262144 .f32) (n : Fin 262144) :
    Host.reduceAdd (F := Ideal) h (constant (F := Ideal) S_ .f32 0x00000000#32) reducesTo_S3x262144_S262144_d0 h_S_ (ix1 n)
      = 0 + ∑ c : Fin 3, h (ix2 c n) := by
  have hr : S3x262144.Reduces [0] S262144 := by decide
  show Ideal.hostReduceAdd reducesTo_S3x262144_S262144_d0 h (Ideal.ofBits .f32 0x00000000#32) (ix1 n) = _
  rw [Ideal.hostReduceAdd_single reducesTo_S3x262144_S262144_d0 hr, Ideal.ofBits_zero_f32]
  show (0 : EReal) + ∑ k : Fin 3, h (hr.lift (ix1 n) k) = _
  simp only [lift_rows hr]

/-- The linear layer as the plain formulation builds it: the product of x with the transposed weights, plus the
    bias repeated down the rows. -/
def linT (x : FVec Ideal S262144x80 .f32) (W : FVec Ideal S160x80 .f32) (b : FVec Ideal S160 .f32) :
    FVec Ideal S262144x160 .f32 :=
  addf (Host.dotGeneral (F := Ideal) dot_S262144x80_S80x160_S262144x160_1_0_0_1_n_n none x
      (transpose S80x160 [1, 0] W transposes_S160x80_S80x160_1_0))
    (broadcastInDim S262144x160 ![0, 1] bcast_S1x160_S262144x160_0_1 (broadcastInDim S1x160 ![1] bcast_S160_S1x160_1 b))

/-- Entry (n, o) of the linear layer is Σ_k x(n, k) · W(o, k) + b(o). -/
theorem linT_apply (x : FVec Ideal S262144x80 .f32) (W : FVec Ideal S160x80 .f32) (b : FVec Ideal S160 .f32)
    (n : Fin 262144) (o : Fin 160) : linT x W b (ix2 n o) = Cert.Spec.lin x W b n o := by
  show Host.dotGeneral (F := Ideal) dot_S262144x80_S80x160_S262144x160_1_0_0_1_n_n none x
      (transpose S80x160 [1, 0] W transposes_S160x80_S80x160_1_0) (ix2 n o)
    + broadcastInDim S262144x160 ![0, 1] bcast_S1x160_S262144x160_0_1 (broadcastInDim S1x160 ![1] bcast_S160_S1x160_1 b) (ix2 n o)
    = _
  rw [rowBcast_apply]
  unfold Cert.Spec.lin
  congr 1
  refine (Cert.Lib.dotGeneral_plain_apply dot_S262144x80_S80x160_S262144x160_1_0_0_1_n_n_wf none .single x _ n o).trans ?_
  refine Finset.sum_congr rfl fun k _ => ?_
  rw [transpose_ix2_apply]

/-- The column mean as the plain formulation builds it: the column sums from zero, divided by N. -/
def meanT (h : FVec Ideal S262144x160 .f32) : FVec Ideal S160 .f32 :=
  Host.divf (F := Ideal)
    (Host.reduceAdd (F := Ideal) h (constant (F := Ideal) S_ .f32 0x00000000#32) reducesTo_S262144x160_S160_d0 h_S_)
    (broadcastInDim S160 ![] bcast_S_S160 (constant (F := Ideal) S_ .f32 0x48800000#32))

/-- An N × 160 array as a function of its row and its feature. -/
abbrev asFn (h : FVec Ideal S262144x160 .f32) : Fin 262144 → Fin 160 → EReal := fun n o => h (ix2 n o)

/-- The column mean at feature o. -/
theorem meanT_apply (h : FVec Ideal S262144x160 .f32) (o : Fin 160) :
    meanT h (ix1 o) = Cert.Spec.muR (asFn h) o := by
  show Ideal.div
      (Host.reduceAdd (F := Ideal) h (constant (F := Ideal) S_ .f32 0x00000000#32) reducesTo_S262144x160_S160_d0 h_S_ (ix1 o))
      (broadcastInDim S160 ![] bcast_S_S160 (constant (F := Ideal) S_ .f32 0x48800000#32) (ix1 o)) = _
  rw [colSum_apply, scalarBcast_apply]
  rfl

/-- The deviations from the column means. -/
def cenT (h : FVec Ideal S262144x160 .f32) : FVec Ideal S262144x160 .f32 :=
  subf h (broadcastInDim S262144x160 ![0, 1] bcast_S1x160_S262144x160_0_1
    (broadcastInDim S1x160 ![1] bcast_S160_S1x160_1 (meanT h)))

theorem cenT_apply (h : FVec Ideal S262144x160 .f32) (n : Fin 262144) (o : Fin 160) :
    cenT h (ix2 n o) = h (ix2 n o) - Cert.Spec.muR (asFn h) o := by
  show h (ix2 n o) - broadcastInDim S262144x160 ![0, 1] bcast_S1x160_S262144x160_0_1
    (broadcastInDim S1x160 ![1] bcast_S160_S1x160_1 (meanT h)) (ix2 n o) = _
  rw [rowBcast_apply, meanT_apply]

/-- The column variance as the plain formulation builds it: the column sums of the squared deviations, divided by N. -/
def varT (h : FVec Ideal S262144x160 .f32) : FVec Ideal S160 .f32 :=
  Host.divf (F := Ideal)
    (Host.reduceAdd (F := Ideal) (mulf (cenT h) (cenT h)) (constant (F := Ideal) S_ .f32 0x00000000#32)
      reducesTo_S262144x160_S160_d0 h_S_)
    (broadcastInDim S160 ![] bcast_S_S160 (constant (F := Ideal) S_ .f32 0x48800000#32))

/-- The column variance at feature o. -/
theorem varT_apply (h : FVec Ideal S262144x160 .f32) (o : Fin 160) :
    varT h (ix1 o) = Cert.Spec.varR (asFn h) o := by
  show Ideal.div
      (Host.reduceAdd (F := Ideal) (mulf (cenT h) (cenT h)) (constant (F := Ideal) S_ .f32 0x00000000#32)
        reducesTo_S262144x160_S160_d0 h_S_ (ix1 o))
      (broadcastInDim S160 ![] bcast_S_S160 (constant (F := Ideal) S_ .f32 0x48800000#32) (ix1 o)) = _
  rw [colSum_apply, scalarBcast_apply]
  have e : (∑ n : Fin 262144, mulf (cenT h) (cenT h) (ix2 n o))
      = ∑ n : Fin 262144, (asFn h n o - Cert.Spec.muR (asFn h) o) * (asFn h n o - Cert.Spec.muR (asFn h) o) :=
    Finset.sum_congr rfl fun n _ => by
      show cenT h (ix2 n o) * cenT h (ix2 n o) = _
      rw [cenT_apply]
  rw [e]
  rfl

/-- The normalised, scaled and shifted features as the plain formulation builds them. -/
def nrmT (h : FVec Ideal S262144x160 .f32) (g be : FVec Ideal S160 .f32) : FVec Ideal S262144x160 .f32 :=
  addf (mulf (mulf
        (subf h (broadcastInDim S262144x160 ![0, 1] bcast_S1x160_S262144x160_0_1
          (broadcastInDim S1x160 ![1] bcast_S160_S1x160_1 (meanT h))))
        (broadcastInDim S262144x160 ![0, 1] bcast_S1x160_S262144x160_0_1
          (broadcastInDim S1x160 ![1] bcast_S160_S1x160_1
            (Host.rsqrt (F := Ideal) (addf (varT h)
              (broadcastInDim S160 ![] bcast_S_S160 (constant (F := Ideal) S_ .f32 0x3727C5AC#32)))))))
      (broadcastInDim S262144x160 ![0, 1] bcast_S1x160_S262144x160_0_1 (broadcastInDim S1x160 ![1] bcast_S160_S1x160_1 g)))
    (broadcastInDim S262144x160 ![0, 1] bcast_S1x160_S262144x160_0_1 (broadcastInDim S1x160 ![1] bcast_S160_S1x160_1 be))

/-- Entry (n, o) of the normalised features. -/
theorem nrmT_apply (h : FVec Ideal S262144x160 .f32) (g be : FVec Ideal S160 .f32) (n : Fin 262144) (o : Fin 160) :
    nrmT h g be (ix2 n o)
      = Cert.Spec.nrm (asFn h) (Cert.Spec.muR (asFn h)) (Cert.Spec.varR (asFn h)) g be n o := by
  show (h (ix2 n o) - broadcastInDim S262144x160 ![0, 1] bcast_S1x160_S262144x160_0_1
          (broadcastInDim S1x160 ![1] bcast_S160_S1x160_1 (meanT h)) (ix2 n o))
        * broadcastInDim S262144x160 ![0, 1] bcast_S1x160_S262144x160_0_1
          (broadcastInDim S1x160 ![1] bcast_S160_S1x160_1
            (Host.rsqrt (F := Ideal) (addf (varT h)
              (broadcastInDim S160 ![] bcast_S_S160 (constant (F := Ideal) S_ .f32 0x3727C5AC#32))))) (ix2 n o)
        * broadcastInDim S262144x160 ![0, 1] bcast_S1x160_S262144x160_0_1 (broadcastInDim S1x160 ![1] bcast_S160_S1x160_1 g) (ix2 n o)
      + broadcastInDim S262144x160 ![0, 1] bcast_S1x160_S262144x160_0_1 (broadcastInDim S1x160 ![1] bcast_S160_S1x160_1 be) (ix2 n o)
      = _
  rw [rowBcast_apply, rowBcast_apply, rowBcast_apply, rowBcast_apply, meanT_apply]
  show (h (ix2 n o) - Cert.Spec.muR (asFn h) o)
        * Ideal.rsqrt (varT h (ix1 o)
            + broadcastInDim S160 ![] bcast_S_S160 (constant (F := Ideal) S_ .f32 0x3727C5AC#32) (ix1 o))
        * g (ix1 o) + be (ix1 o) = _
  rw [varT_apply, scalarBcast_apply]
  rfl

/-! ## The three scores and their softmax -/

/-- One row of scores: the row-wise inner products of two N × 160 arrays, laid out as a 1 × N array. -/
def scoreT (a b : FVec Ideal S262144x160 .f32) : FVec Ideal S1x262144 .f32 :=
  broadcastInDim S1x262144 ![1] bcast_S262144_S1x262144_1
    (Host.reduceAdd (F := Ideal) (mulf a b) (constant (F := Ideal) S_ .f32 0x00000000#32)
      reducesTo_S262144x160_S262144_d1 h_S_)

/-- Its entry over row n is the inner product of the two arrays' rows n. -/
theorem scoreT_apply (a b : FVec Ideal S262144x160 .f32) (u : Fin 1) (n : Fin 262144) :
    scoreT a b (ix2 u n) = Cert.Spec.dotRow (asFn a) (asFn b) n := by
  refine (broadcastInDim_apply _ _ _ (ix2 u n) (ix1 n) fun c => ?_).trans ?_
  · match c with
    | ⟨0, _⟩ => rfl
  · rw [rowSum_apply, zero_add]
    rfl

/-- Three 1 × N rows stacked into a 3 × N array. -/
def stackT (a b c : FVec Ideal S1x262144 .f32) : FVec Ideal S3x262144 .f32 :=
  concatenate S3x262144 0 [⟨S1x262144, a⟩, ⟨S1x262144, b⟩, ⟨S1x262144, c⟩]
    concatenates_S1x262144_S1x262144_S1x262144_S3x262144_d0

theorem stackT_apply0 (a b c : FVec Ideal S1x262144 .f32) (n : Fin 262144) :
    stackT a b c (ix2 (0 : Fin 3) n) = a (ix2 (0 : Fin 1) n) :=
  concatenate_apply_piece (t := S3x262144) (0 : Fin 2) [⟨S1x262144, a⟩, ⟨S1x262144, b⟩, ⟨S1x262144, c⟩]
    concatenates_S1x262144_S1x262144_S1x262144_S3x262144_d0 (ix2 (0 : Fin 3) n) 0 (by simp) S1x262144 a rfl rfl 0 rfl (ix2 (0 : Fin 1) n)
    (fun d hd => match d, hd with
      | ⟨0, _⟩, hd => absurd rfl hd
      | ⟨1, _⟩, _ => rfl) rfl

theorem stackT_apply1 (a b c : FVec Ideal S1x262144 .f32) (n : Fin 262144) :
    stackT a b c (ix2 (1 : Fin 3) n) = b (ix2 (0 : Fin 1) n) :=
  concatenate_apply_piece (t := S3x262144) (0 : Fin 2) [⟨S1x262144, a⟩, ⟨S1x262144, b⟩, ⟨S1x262144, c⟩]
    concatenates_S1x262144_S1x262144_S1x262144_S3x262144_d0 (ix2 (1 : Fin 3) n) 1 (by simp) S1x262144 b rfl rfl 1 rfl (ix2 (0 : Fin 1) n)
    (fun d hd => match d, hd with
      | ⟨0, _⟩, hd => absurd rfl hd
      | ⟨1, _⟩, _ => rfl) rfl

theorem stackT_apply2 (a b c : FVec Ideal S1x262144 .f32) (n : Fin 262144) :
    stackT a b c (ix2 (2 : Fin 3) n) = c (ix2 (0 : Fin 1) n) :=
  concatenate_apply_piece (t := S3x262144) (0 : Fin 2) [⟨S1x262144, a⟩, ⟨S1x262144, b⟩, ⟨S1x262144, c⟩]
    concatenates_S1x262144_S1x262144_S1x262144_S3x262144_d0 (ix2 (2 : Fin 3) n) 2 (by simp) S1x262144 c rfl rfl 2 rfl (ix2 (0 : Fin 1) n)
    (fun d hd => match d, hd with
      | ⟨0, _⟩, hd => absurd rfl hd
      | ⟨1, _⟩, _ => rfl) rfl

/-- A vector over the N rows laid out as one row and repeated three times reads, at (c, n), entry n. -/
theorem triBcast_apply (v : FVec Ideal S262144 .f32) (c : Fin 3) (n : Fin 262144) :
    broadcastInDim S3x262144 ![0, 1] bcast_S1x262144_S3x262144_0_1
      (broadcastInDim S1x262144 ![1] bcast_S262144_S1x262144_1 v) (ix2 c n) = v (ix1 n) := by
  refine (broadcastInDim_apply _ _ _ (ix2 c n) (ix2 (0 : Fin 1) n) fun a => ?_).trans ?_
  · match a with
    | ⟨0, _⟩ => rfl
    | ⟨1, _⟩ => rfl
  · refine broadcastInDim_apply _ _ _ (ix2 (0 : Fin 1) n) (ix1 n) fun a => ?_
    match a with
    | ⟨0, _⟩ => rfl

/-- The largest of three extended reals, folded from −∞. -/
theorem fold_max_three (f : Fin 3 → EReal) :
    (Finset.univ : Finset (Fin 3)).fold max ⊥ f = max (max (f 0) (f 1)) (f 2) := by
  apply le_antisymm
  · refine (Finset.fold_max_le _).2 ⟨bot_le, fun x _ => ?_⟩
    fin_cases x
    · exact le_max_of_le_left (le_max_left _ _)
    · exact le_max_of_le_left (le_max_right _ _)
    · exact le_max_right _ _
  · refine max_le (max_le ?_ ?_) ?_ <;> exact (Finset.le_fold_max _).2 (Or.inr ⟨_, Finset.mem_univ _, le_rfl⟩)

/-- The word of −∞. -/
theorem ofBits_neg_inf : Ideal.ofBits .f32 0xFF800000#32 = (⊥ : EReal) := by simp [Ideal.ofBits, Ideal.ieee]

/-- The maximum over the three rows of a 3 × N array, from −∞, at column n. -/
theorem triMax_apply (S : FVec Ideal S3x262144 .f32) (n : Fin 262144) :
    Host.reduce FloatOps.maximumf S (constant (F := Ideal) S_ .f32 0xFF800000#32) reducesTo_S3x262144_S262144_d0 h_S_ (ix1 n)
      = max (max (S (ix2 0 n)) (S (ix2 1 n))) (S (ix2 2 n)) := by
  have hr : S3x262144.Reduces [0] S262144 := by decide
  rw [Host.reduce_eq_fold_single FloatOps.maximumf S _ reducesTo_S3x262144_S262144_d0 hr h_S_]
  have hf : (S ∘ hr.lift (ix1 n)) = fun c : Fin 3 => S (ix2 c n) := funext fun c => congrArg S (lift_rows hr n c)
  show (Finset.univ : Finset (Fin 3)).fold max (Ideal.ofBits .f32 0xFF800000#32) (S ∘ hr.lift (ix1 n)) = _
  rw [hf, ofBits_neg_inf]
  exact fold_max_three _

/-- The exponentials of the three scores, each less the largest of the three. -/
def expT (S : FVec Ideal S3x262144 .f32) : FVec Ideal S3x262144 .f32 :=
  Host.exp (F := Ideal) (subf S (broadcastInDim S3x262144 ![0, 1] bcast_S1x262144_S3x262144_0_1
    (broadcastInDim S1x262144 ![1] bcast_S262144_S1x262144_1
      (maximumf (broadcastInDim S262144 ![] bcast_S_S262144 (constant (F := Ideal) S_ .f32 0xFF800000#32))
        (Host.reduce FloatOps.maximumf S (constant (F := Ideal) S_ .f32 0xFF800000#32)
          reducesTo_S3x262144_S262144_d0 h_S_)))))

theorem hostExp_apply {s : Shape} (x : FVec Ideal s .f32) (i : s.Idx) : Host.exp (F := Ideal) x i = Ideal.exp (x i) := rfl

theorem expT_apply (S : FVec Ideal S3x262144 .f32) (c : Fin 3) (n : Fin 262144) :
    expT S (ix2 c n) = Ideal.exp (S (ix2 c n) - max (max (S (ix2 0 n)) (S (ix2 1 n))) (S (ix2 2 n))) := by
  unfold expT
  rw [hostExp_apply, subf_apply, triBcast_apply, maximumf_apply, scalarBcastN_apply, triMax_apply, ofBits_neg_inf,
    max_eq_right bot_le]

/-- The softmax over the three rows: each exponential over the sum of the three. -/
def smT (S : FVec Ideal S3x262144 .f32) : FVec Ideal S3x262144 .f32 :=
  Host.divf (F := Ideal) (expT S) (broadcastInDim S3x262144 ![0, 1] bcast_S1x262144_S3x262144_0_1
    (broadcastInDim S1x262144 ![1] bcast_S262144_S1x262144_1
      (Host.reduceAdd (F := Ideal) (expT S) (constant (F := Ideal) S_ .f32 0x00000000#32)
        reducesTo_S3x262144_S262144_d0 h_S_)))

theorem hostDivf_apply {s : Shape} (a b : FVec Ideal s .f32) (i : s.Idx) :
    Host.divf (F := Ideal) a b i = Ideal.div (a i) (b i) := rfl

theorem smT_apply (S : FVec Ideal S3x262144 .f32) (c : Fin 3) (n : Fin 262144) :
    smT S (ix2 c n)
      = Ideal.div (expT S (ix2 c n)) (expT S (ix2 0 n) + expT S (ix2 1 n) + expT S (ix2 2 n)) := by
  unfold smT
  rw [hostDivf_apply, triBcast_apply, triSum_apply, Fin.sum_univ_three, zero_add]

/-- Row c of a 3 × N array cut out, turned into a column and repeated across the 80 columns reads, at (n, k), the
    array's entry (c, n). -/
theorem pick_apply (P : FVec Ideal S3x262144 .f32) (off : Fin 2 → Nat) (hs : S3x262144.Slices off S1x262144) (c : Fin 3)
    (h0 : off 0 = c.val) (h1 : off 1 = 0) (n : Fin 262144) (k : Fin 80) :
    broadcastInDim S262144x80 ![0, 1] bcast_S262144x1_S262144x80_0_1
      (broadcastInDim S262144x1 ![0] bcast_S262144_S262144x1_0
        (shapeCast S262144 (extractStridedSlice S1x262144 off P hs) shapeCasts_S1x262144_S262144)) (ix2 n k)
      = P (ix2 c n) := by
  refine (broadcastInDim_apply _ _ _ (ix2 n k) (ix2 n (0 : Fin 1)) fun a => ?_).trans ?_
  · match a with
    | ⟨0, _⟩ => rfl
    | ⟨1, _⟩ => rfl
  refine (broadcastInDim_apply _ _ _ (ix2 n (0 : Fin 1)) (ix1 n) fun a => ?_).trans ?_
  · match a with
    | ⟨0, _⟩ => rfl
  refine (shapeCast_1a_a_apply _ _ n).trans ?_
  refine extractStridedSlice_apply off P hs (ix2 (0 : Fin 1) n) (ix2 c n) fun a => ?_
  match a with
  | ⟨0, _⟩ => show c.val = off 0 + 0; omega
  | ⟨1, _⟩ => show n.val = off 1 + n.val; omega

/-! ## The whole result -/

/-- An N × 160 array built by the linear layer is, as a function of row and feature, the layer's formula. -/
theorem asFn_linT (x : FVec Ideal S262144x80 .f32) (W : FVec Ideal S160x80 .f32) (b : FVec Ideal S160 .f32) :
    asFn (linT x W b) = Cert.Spec.lin x W b :=
  funext fun n => funext fun o => linT_apply x W b n o

/-- The normalised features of a linear layer, as a function of row and feature. -/
theorem asFn_nrmT (x : FVec Ideal S262144x80 .f32) (W : FVec Ideal S160x80 .f32) (b g be : FVec Ideal S160 .f32) :
    asFn (nrmT (linT x W b) g be)
      = Cert.Spec.nrm (Cert.Spec.lin x W b) (Cert.Spec.muR (Cert.Spec.lin x W b)) (Cert.Spec.varR (Cert.Spec.lin x W b)) g be := by
  funext n o
  show nrmT (linT x W b) g be (ix2 n o) = _
  rw [nrmT_apply, asFn_linT]

/-- The three softmax weights, as a 3 × N array, from the three normalised feature arrays. -/
def probsT (Rs Rl Rr : FVec Ideal S262144x160 .f32) : FVec Ideal S3x262144 .f32 :=
  smT (stackT (scoreT Rs Rl) (scoreT Rs Rr) (scoreT Rl Rr))

/-- Weight c over row n: the exponential of score c less the largest score, over the sum of the three. -/
theorem probsT_apply (Rs Rl Rr : FVec Ideal S262144x160 .f32) (c : Fin 3) (n : Fin 262144) :
    probsT Rs Rl Rr (ix2 c n)
      = Ideal.div
        (Ideal.exp (stackT (scoreT Rs Rl) (scoreT Rs Rr) (scoreT Rl Rr) (ix2 c n)
          - max (max (Cert.Spec.dotRow (asFn Rs) (asFn Rl) n) (Cert.Spec.dotRow (asFn Rs) (asFn Rr) n))
              (Cert.Spec.dotRow (asFn Rl) (asFn Rr) n)))
        (Ideal.exp (Cert.Spec.dotRow (asFn Rs) (asFn Rl) n
            - max (max (Cert.Spec.dotRow (asFn Rs) (asFn Rl) n) (Cert.Spec.dotRow (asFn Rs) (asFn Rr) n))
              (Cert.Spec.dotRow (asFn Rl) (asFn Rr) n))
          + Ideal.exp (Cert.Spec.dotRow (asFn Rs) (asFn Rr) n
            - max (max (Cert.Spec.dotRow (asFn Rs) (asFn Rl) n) (Cert.Spec.dotRow (asFn Rs) (asFn Rr) n))
              (Cert.Spec.dotRow (asFn Rl) (asFn Rr) n))
          + Ideal.exp (Cert.Spec.dotRow (asFn Rl) (asFn Rr) n
            - max (max (Cert.Spec.dotRow (asFn Rs) (asFn Rl) n) (Cert.Spec.dotRow (asFn Rs) (asFn Rr) n))
              (Cert.Spec.dotRow (asFn Rl) (asFn Rr) n))) := by
  unfold probsT
  rw [smT_apply, expT_apply, expT_apply, expT_apply, expT_apply, stackT_apply0, stackT_apply1, stackT_apply2,
    scoreT_apply, scoreT_apply, scoreT_apply]

/-- Entry (n, k) of the result: the three weights over row n applied to left, right and sub at (n, k). -/
theorem mixT_apply (Rs Rl Rr : FVec Ideal S262144x160 .f32) (l r s : FVec Ideal S262144x80 .f32)
    (n : Fin 262144) (k : Fin 80) :
    addf (addf
        (mulf (broadcastInDim S262144x80 ![0, 1] bcast_S262144x1_S262144x80_0_1
          (broadcastInDim S262144x1 ![0] bcast_S262144_S262144x1_0
            (shapeCast S262144 (extractStridedSlice S1x262144 ![0, 0] (probsT Rs Rl Rr) slices_S3x262144_S1x262144_0_0)
              shapeCasts_S1x262144_S262144))) l)
        (mulf (broadcastInDim S262144x80 ![0, 1] bcast_S262144x1_S262144x80_0_1
          (broadcastInDim S262144x1 ![0] bcast_S262144_S262144x1_0
            (shapeCast S262144 (extractStridedSlice S1x262144 ![1, 0] (probsT Rs Rl Rr) slices_S3x262144_S1x262144_1_0)
              shapeCasts_S1x262144_S262144))) r))
        (mulf (broadcastInDim S262144x80 ![0, 1] bcast_S262144x1_S262144x80_0_1
          (broadcastInDim S262144x1 ![0] bcast_S262144_S262144x1_0
            (shapeCast S262144 (extractStridedSlice S1x262144 ![2, 0] (probsT Rs Rl Rr) slices_S3x262144_S1x262144_2_0)
              shapeCasts_S1x262144_S262144))) s) (ix2 n k)
      = Cert.Spec.mix (Cert.Spec.dotRow (asFn Rs) (asFn Rl) n) (Cert.Spec.dotRow (asFn Rs) (asFn Rr) n)
          (Cert.Spec.dotRow (asFn Rl) (asFn Rr) n) (l (ix2 n k)) (r (ix2 n k)) (s (ix2 n k)) := by
  rw [addf_apply, addf_apply, mulf_apply, mulf_apply, mulf_apply,
    pick_apply (probsT Rs Rl Rr) ![0, 0] slices_S3x262144_S1x262144_0_0 0 rfl rfl n k,
    pick_apply (probsT Rs Rl Rr) ![1, 0] slices_S3x262144_S1x262144_1_0 1 rfl rfl n k,
    pick_apply (probsT Rs Rl Rr) ![2, 0] slices_S3x262144_S1x262144_2_0 2 rfl rfl n k,
    probsT_apply, probsT_apply, probsT_apply, stackT_apply0, stackT_apply1, stackT_apply2,
    scoreT_apply, scoreT_apply, scoreT_apply]
  rfl

open Cert.ReferenceIdeal.Value in
/-- The plain formulation's result array is the specified function of the fifteen argument arrays, with the column
    statistics taken as the mean and the mean squared deviation. -/
theorem result_eq (V0 : Valuation τ sig (Elt Ideal)) :
    addf (addf (mulf (broadcastInDim S262144x80 ![0, 1] bcast_S262144x1_S262144x80_0_1 (broadcastInDim S262144x1 ![0] bcast_S262144_S262144x1_0 (shapeCast _ (extractStridedSlice S1x262144 ![0, 0] (res_main_v110 V0) slices_S3x262144_S1x262144_0_0) shapeCasts_S1x262144_S262144))) (V0 (Proc.devRef .tc main_arg1))) (mulf (broadcastInDim S262144x80 ![0, 1] bcast_S262144x1_S262144x80_0_1 (broadcastInDim S262144x1 ![0] bcast_S262144_S262144x1_0 (shapeCast _ (extractStridedSlice S1x262144 ![1, 0] (res_main_v110 V0) slices_S3x262144_S1x262144_1_0) shapeCasts_S1x262144_S262144))) (V0 (Proc.devRef .tc main_arg2)))) (mulf (broadcastInDim S262144x80 ![0, 1] bcast_S262144x1_S262144x80_0_1 (broadcastInDim S262144x1 ![0] bcast_S262144_S262144x1_0 (shapeCast _ (extractStridedSlice S1x262144 ![2, 0] (res_main_v110 V0) slices_S3x262144_S1x262144_2_0) shapeCasts_S1x262144_S262144))) (V0 (Proc.devRef .tc main_arg0)))
      = Cert.Spec.full Cert.Spec.muR Cert.Spec.varR (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  have hP : res_main_v110 V0
      = probsT
        (nrmT (linT (V0 (Proc.devRef .tc main_arg0)) (V0 (Proc.devRef .tc main_arg3)) (V0 (Proc.devRef .tc main_arg4)))
          (V0 (Proc.devRef .tc main_arg5)) (V0 (Proc.devRef .tc main_arg6)))
        (nrmT (linT (V0 (Proc.devRef .tc main_arg1)) (V0 (Proc.devRef .tc main_arg7)) (V0 (Proc.devRef .tc main_arg8)))
          (V0 (Proc.devRef .tc main_arg9)) (V0 (Proc.devRef .tc main_arg10)))
        (nrmT (linT (V0 (Proc.devRef .tc main_arg2)) (V0 (Proc.devRef .tc main_arg11)) (V0 (Proc.devRef .tc main_arg12)))
          (V0 (Proc.devRef .tc main_arg13)) (V0 (Proc.devRef .tc main_arg14))) := rfl
  rw [hP]
  funext j
  obtain ⟨n, k, rfl⟩ : ∃ (n : Fin 262144) (k : Fin 80), j = ix2 n k := ⟨j 0, j 1, eq_ix2 j⟩
  refine (mixT_apply _ _ _ _ _ _ n k).trans ?_
  rw [asFn_nrmT, asFn_nrmT, asFn_nrmT]
  rfl

end Cert.ReferenceIdeal.RefValue

end
-- ==== Proof.CombineValueLayout.lean ====
/-
  Index-by-index readings of the re-layings a row-wise reduction with a kept unit axis goes through, of a row vector
  spread over the rows of a block, of one row taken out of a small table, and of a sum along the second axis of a
  matrix. Independent of any program.

  A vector of length a viewed as an [a, 1] column keeps its entries; such a column spread over [a, b] repeats each
  entry along its row; a vector of length b viewed as a [1, b] row and spread over [a, b] repeats each entry down its
  column; the [1, b] rectangle at row i of an [m, b] table reads that row; and the sum along the second axis of an
  [a, b] matrix is, at row r, the sum over the b entries of that row.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.CombineLayout

open Idealize.ShloMosaic Idealize.ShloMosaic.ValueIdx

variable {α : Type}

/-- An `[a]` array cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[b]` vector viewed as one row and broadcast to `[a, b]` reads, at `(p, c)`, the vector at `c`. -/
theorem rowBroadcast_apply {a b : ℕ} (g : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ g h1) h2 (ix2 p c) = g (ix1 c) :=
  (broadcastTo_1b_ab_apply _ h2 p c).trans (shapeCast_a_1a_apply g h1 0 c)

/-- The `[1, b]` rectangle at row `i` of an `[m, b]` table, read at `(u, c)`, is the table at `(i, c)`. -/
theorem ld_row_apply {m b : ℕ} {Val : EltTy → Type} {e : EltTy} (x : (⟨2, ![m, b]⟩ : Shape).Idx → Val e) (off0 : ℕ)
    (i : Fin m) (hi : i.val = off0)
    (inb : ∀ a, (![off0, 0] : Fin 2 → ℕ) a + (⟨2, ![1, b]⟩ : Shape).size a ≤ (⟨2, ![m, b]⟩ : Shape).size a)
    (u : Fin 1) (c : Fin b) :
    View.ld x (Rect.unit (s := ⟨2, ![m, b]⟩) ![off0, 0] (⟨2, ![1, b]⟩ : Shape).size inb) (ix2 u c) = x (ix2 i c) := by
  show x ((Rect.unit (s := ⟨2, ![m, b]⟩) ![off0, 0] (⟨2, ![1, b]⟩ : Shape).size inb).emb (ix2 u c)) = x (ix2 i c)
  refine congrArg x (funext fun a => Fin.ext ?_)
  have hu : u.val = 0 := by omega
  match a with
  | ⟨0, _⟩ => show off0 + 1 * u.val = i.val; omega
  | ⟨1, _⟩ => show 0 + 1 * c.val = c.val; omega

/-- The sum along the second axis of an `[a, b]` matrix, at row `r`: the sum of that row's `b` entries. -/
theorem laneSum_apply {a b : ℕ} (w : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (r : Fin a) :
    multiReduction (F := Ideal) .add [(1 : Fin 2)] ⟨1, ![a]⟩ w 0x00000000#32 h hφ hacc (ix1 r)
      = ∑ o : Fin b, w (ix2 r o) := by
  refine (Ideal.multiReduction_add_single w 0x00000000#32 h hφ hacc (ix1 r)).trans ?_
  show ∑ o : Fin b, w (h.lift (ix1 r) o) = ∑ o : Fin b, w (ix2 r o)
  refine Finset.sum_congr rfl fun o _ => congrArg w (funext fun ax => Fin.ext ?_)
  match ax with
  | ⟨0, _⟩ => rfl
  | ⟨1, _⟩ => rfl

end Cert.CombineLayout

end
-- ==== Proof.CombineValuePoint.lean ====
/-
  The arithmetic of one block of 2048 rows, read entry by entry on the extended reals.

  From a block x of 2048 rows of 80 entries, a [80, 160] matrix WT and a bias b, the body forms
  h(r, o) = Σ_k x(r, k) · WT(k, o) + b(o). With a mean μ(o) and a variance v(o) taken from row j of two small
  [3, 160] tables it forms R(r, o) = (h(r, o) − μ(o)) · (v(o) + ε)^(-1/2) · g(o) + β(o). For the three branches the
  three row-wise inner products s0 = Σ_o R_s·R_l, s1 = Σ_o R_s·R_r, s2 = Σ_o R_l·R_r are shifted by their maximum,
  exponentiated and divided by their sum, and entry (r, k) of the result is p0 · left(r, k) + p1 · right(r, k)
  + p2 · sub(r, k). Each lemma below reads one stage of this at an entry; nothing is rearranged, so each is the
  stage's definition unfolded through its re-layings (a vector spread over the rows, a column of row sums spread over
  the columns, one row of a table).
-/
import proofs.«144679_j65463891525764_2_alg».proof.Proof.Gen.KernelIdeal.Skeleton
import proofs.«144679_j65463891525764_2_alg».proof.Proof.Spec
import proofs.«144679_j65463891525764_2_alg».proof.Proof.LibPlainDot
import proofs.«144679_j65463891525764_2_alg».proof.Proof.CombineValueLayout

noncomputable section

open scoped BigOperators

namespace Cert.KernelIdeal.CombineValue

open Cert.KernelIdeal Cert.KernelIdeal.Gen Idealize.ShloMosaic Idealize.ShloMosaic.ValueIdx

/-! ## The linear layer of a block -/

/-- h(r, o) = Σ_k x(r, k) · WT(k, o) + b(o): the product into a zero accumulator plus the bias spread over the rows. -/
theorem lin_at (x : Vec Ideal S2048x80 .f32) (w : Vec Ideal S80x160 .bf16) (b : Vec Ideal S160 .f32)
    (r : Fin 2048) (o : Fin 160) :
    k1_pay2 (F := Ideal) x w b (ix2 r o) = (∑ k : Fin 80, x (ix2 r k) * w (ix2 k o)) + b (ix1 o) := by
  have e1 : matmul (F := Ideal) dot_S2048x80_S80x160_S2048x160_1_0_0_1_n_n none (truncf .bf16 x bitsLt_bf16_f32)
      (shapeCast S80x160 w shapeCasts_S80x160_S80x160 : FVec Ideal S80x160 .bf16) (constant S2048x160 .f32 0x00000000#32) (ix2 r o)
        = ∑ k : Fin 80, x (ix2 r k) * w (ix2 k o) := by
    rw [shapeCast_self]
    exact Cert.Lib.matmul_zero_apply _ _ _ _ r o
  have e2 : broadcastTo S2048x160 (shapeCast S1x160 b shapeCasts_S160_S1x160) broadcasts_S1x160_S2048x160 (ix2 r o)
      = b (ix1 o) := Cert.CombineLayout.rowBroadcast_apply b _ _ r o
  exact congrArg₂ (· + ·) e1 e2

/-- The second and third branches' layers are the same function of their own operands. -/
theorem lin3_eq : k1_pay3 (F := Ideal) = k1_pay2 (F := Ideal) := rfl
theorem lin4_eq : k1_pay4 (F := Ideal) = k1_pay2 (F := Ideal) := rfl

/-! ## One row of a statistics table -/

/-- A [1, 160] row viewed as a vector of length 160 keeps its entries. -/
theorem row_at (v : Vec Ideal S1x160 .f32) (o : Fin 160) : k1_pay5 (F := Ideal) v (ix1 o) = v (ix2 (0 : Fin 1) o) :=
  shapeCast_1a_a_apply v _ o
theorem row6_eq : k1_pay6 (F := Ideal) = k1_pay5 (F := Ideal) := rfl
theorem row7_eq : k1_pay7 (F := Ideal) = k1_pay5 (F := Ideal) := rfl

/-- The [1, 160] rectangle at row 0, 1, 2 of a [3, 160] table reads that row. -/
theorem tableRow0_at (x : Vec Ideal S3x160 .f32) (o : Fin 160) :
    View.ld x (Rect.unit (s := S3x160) ![0, 0] S1x160.size inb_S3x160_S1x160_0_0) (ix2 (0 : Fin 1) o) = x (ix2 (0 : Fin 3) o) :=
  Cert.CombineLayout.ld_row_apply x 0 (0 : Fin 3) rfl _ 0 o
theorem tableRow1_at (x : Vec Ideal S3x160 .f32) (o : Fin 160) :
    View.ld x (Rect.unit (s := S3x160) ![1, 0] S1x160.size inb_S3x160_S1x160_1_0) (ix2 (0 : Fin 1) o) = x (ix2 (1 : Fin 3) o) :=
  Cert.CombineLayout.ld_row_apply x 1 (1 : Fin 3) rfl _ 0 o
theorem tableRow2_at (x : Vec Ideal S3x160 .f32) (o : Fin 160) :
    View.ld x (Rect.unit (s := S3x160) ![2, 0] S1x160.size inb_S3x160_S1x160_2_0) (ix2 (0 : Fin 1) o) = x (ix2 (2 : Fin 3) o) :=
  Cert.CombineLayout.ld_row_apply x 2 (2 : Fin 3) rfl _ 0 o

/-! ## The normalised feature -/

/-- (h − μ) · (v + ε)^(-1/2) at (r, o), the mean a vector and the variance a [1, 160] row, both spread over the rows. -/
theorem centred_at (h : FVec Ideal S2048x160 .f32) (m : FVec Ideal S160 .f32) (v : Vec Ideal S1x160 .f32)
    (r : Fin 2048) (o : Fin 160) :
    k1_pay10 (F := Ideal) h m v (ix2 r o)
      = (h (ix2 r o) - m (ix1 o)) * Ideal.rsqrt (v (ix2 (0 : Fin 1) o) + Cert.Spec.cEps) := by
  have e1 : broadcastTo S2048x160 (shapeCast S1x160 m shapeCasts_S160_S1x160) broadcasts_S1x160_S2048x160 (ix2 r o)
      = m (ix1 o) := Cert.CombineLayout.rowBroadcast_apply m _ _ r o
  have e2 : broadcastTo S2048x160 (shapeCast S1x160 (rsqrt (addf (shapeCast S160 v shapeCasts_S1x160_S160)
        (broadcast S160 (Scalar.ofBits (F := Ideal) .f32 0x3727C5AC#32)))) shapeCasts_S160_S1x160) broadcasts_S1x160_S2048x160 (ix2 r o)
      = Ideal.rsqrt (v (ix2 (0 : Fin 1) o) + Cert.Spec.cEps) :=
    (Cert.CombineLayout.rowBroadcast_apply _ _ _ r o).trans
      (congrArg (fun t => Ideal.rsqrt (t + Cert.Spec.cEps)) (shapeCast_1a_a_apply v _ o))
  exact congrArg₂ (· * ·) (congrArg (h (ix2 r o) - ·) e1) e2

/-- A scale g and a shift β, vectors of length 160 spread over the rows: (a · g + β) at (r, o). -/
def scaleShift (a : FVec Ideal S2048x160 .f32) (g be : Vec Ideal S160 .f32) : FVec Ideal S2048x160 .f32 :=
  addf (mulf a (broadcastTo S2048x160 (shapeCast S1x160 g shapeCasts_S160_S1x160) broadcasts_S1x160_S2048x160))
    (broadcastTo S2048x160 (shapeCast S1x160 be shapeCasts_S160_S1x160) broadcasts_S1x160_S2048x160)

theorem scaleShift_at (a : FVec Ideal S2048x160 .f32) (g be : Vec Ideal S160 .f32) (r : Fin 2048) (o : Fin 160) :
    scaleShift a g be (ix2 r o) = a (ix2 r o) * g (ix1 o) + be (ix1 o) :=
  congrArg₂ (· + ·) (congrArg (a (ix2 r o) * ·) (Cert.CombineLayout.rowBroadcast_apply g _ _ r o))
    (Cert.CombineLayout.rowBroadcast_apply be _ _ r o)

/-- The first two branches carry the scale and shift inside the stage. -/
theorem nrm8_eq (h : FVec Ideal S2048x160 .f32) (m : FVec Ideal S160 .f32) (v : Vec Ideal S1x160 .f32) (g be : Vec Ideal S160 .f32) :
    k1_pay8 (F := Ideal) h m v g be = scaleShift (k1_pay10 (F := Ideal) h m v) g be := rfl
theorem nrm9_eq (h : FVec Ideal S2048x160 .f32) (m : FVec Ideal S160 .f32) (v : Vec Ideal S1x160 .f32) (g be : Vec Ideal S160 .f32) :
    k1_pay9 (F := Ideal) h m v g be = scaleShift (k1_pay10 (F := Ideal) h m v) g be := rfl

/-! ## The row-wise inner products and the softmax-weighted combination -/

/-- The column of row sums of a [2048, 160] array, kept as a [2048, 1] column. -/
def rowSums (w : FVec Ideal S2048x160 .f32) : FVec Ideal S2048x1 .f32 :=
  shapeCast S2048x1 (multiReduction .add [1] S2048 w 0x00000000#32 reduces_S2048x160_S2048 (.inl rfl) rfl) shapeCasts_S2048_S2048x1

theorem rowSums_at (w : FVec Ideal S2048x160 .f32) (r : Fin 2048) (u : Fin 1) :
    rowSums w (ix2 r u) = ∑ o : Fin 160, w (ix2 r o) :=
  (Cert.CombineLayout.shapeCast_a_a1_apply _ shapeCasts_S2048_S2048x1 r u).trans
    (Cert.CombineLayout.laneSum_apply w reduces_S2048x160_S2048 (.inl rfl) rfl r)

/-- From three score columns: shift by the row's maximum, exponentiate, divide by the sum, spread each weight over the
    row's 80 entries and combine the three data blocks. -/
def combine (s0 s1 s2 : FVec Ideal S2048x1 .f32) (v0 v1 v2 : Vec Ideal S2048x80 .f32) : FVec Ideal S2048x80 .f32 :=
  addf (addf
      (mulf (broadcastTo S2048x80 (divf (exp (subf s0 (maximumf (maximumf s0 s1) s2)))
          (addf (addf (exp (subf s0 (maximumf (maximumf s0 s1) s2))) (exp (subf s1 (maximumf (maximumf s0 s1) s2))))
            (exp (subf s2 (maximumf (maximumf s0 s1) s2))))) broadcasts_S2048x1_S2048x80) v1)
      (mulf (broadcastTo S2048x80 (divf (exp (subf s1 (maximumf (maximumf s0 s1) s2)))
          (addf (addf (exp (subf s0 (maximumf (maximumf s0 s1) s2))) (exp (subf s1 (maximumf (maximumf s0 s1) s2))))
            (exp (subf s2 (maximumf (maximumf s0 s1) s2))))) broadcasts_S2048x1_S2048x80) v2))
    (mulf (broadcastTo S2048x80 (divf (exp (subf s2 (maximumf (maximumf s0 s1) s2)))
        (addf (addf (exp (subf s0 (maximumf (maximumf s0 s1) s2))) (exp (subf s1 (maximumf (maximumf s0 s1) s2))))
          (exp (subf s2 (maximumf (maximumf s0 s1) s2))))) broadcasts_S2048x1_S2048x80) v0)

theorem combine_at (s0 s1 s2 : FVec Ideal S2048x1 .f32) (v0 v1 v2 : Vec Ideal S2048x80 .f32) (r : Fin 2048) (k : Fin 80) :
    combine s0 s1 s2 v0 v1 v2 (ix2 r k)
      = Cert.Spec.mix (s0 (ix2 r (0 : Fin 1))) (s1 (ix2 r (0 : Fin 1))) (s2 (ix2 r (0 : Fin 1)))
          (v1 (ix2 r k)) (v2 (ix2 r k)) (v0 (ix2 r k)) := by
  have b := fun (p : FVec Ideal S2048x1 .f32) => Cert.CombineLayout.broadcastTo_a1_ab_apply p broadcasts_S2048x1_S2048x80 r k
  unfold combine
  simp only [addf_apply, mulf_apply]
  rw [b, b, b]
  rfl

/-- The stored value is that combination of the three row-sum columns. -/
theorem store_eq (v0 v1 v2 : Vec Ideal S2048x80 .f32) (v55 v72 v81 : FVec Ideal S2048x160 .f32) (v82 v86 : Vec Ideal S160 .f32) :
    k1_pay1 (F := Ideal) v0 v1 v2 v55 v72 v81 v82 v86
      = combine (rowSums (mulf v55 v72)) (rowSums (mulf v55 (scaleShift v81 v82 v86))) (rowSums (mulf v72 (scaleShift v81 v82 v86)))
          v0 v1 v2 := rfl

/-- THE STORED VALUE AT (r, k): the softmax of the three row-wise inner products applied to left, right and sub. -/
theorem store_at (v0 v1 v2 : Vec Ideal S2048x80 .f32) (v55 v72 v81 : FVec Ideal S2048x160 .f32) (v82 v86 : Vec Ideal S160 .f32)
    (r : Fin 2048) (k : Fin 80) :
    k1_pay1 (F := Ideal) v0 v1 v2 v55 v72 v81 v82 v86 (ix2 r k)
      = Cert.Spec.mix (∑ o : Fin 160, v55 (ix2 r o) * v72 (ix2 r o))
          (∑ o : Fin 160, v55 (ix2 r o) * (v81 (ix2 r o) * v82 (ix1 o) + v86 (ix1 o)))
          (∑ o : Fin 160, v72 (ix2 r o) * (v81 (ix2 r o) * v82 (ix1 o) + v86 (ix1 o)))
          (v1 (ix2 r k)) (v2 (ix2 r k)) (v0 (ix2 r k)) := by
  rw [store_eq, combine_at, rowSums_at, rowSums_at, rowSums_at]
  simp only [mulf_apply, scaleShift_at]

end Cert.KernelIdeal.CombineValue

end
-- ==== Proof.CombineValue.lean ====
/-
  What the second region leaves in its output array.

  The grid has 128 points; point t stages rows [2048·t, 2048·t + 2048) of sub, left and right, all of the three [80, 160]
  weight matrices, of the nine vectors of length 160 and of the two [3, 160] tables of means and variances, and writes
  back rows [2048·t, 2048·t + 2048) of the result. Row r of block t is row 2048·t + r of the array, and the stored
  value at (r, k) depends on the data arrays only through that row, so the 128 blocks are the restrictions of ONE
  function of the arrays — the specification's `out` over the normalised features taken with the tables' rows as the
  statistics — and they tile the [262144, 80] result: after the region the array is that function.
-/
import proofs.«144679_j65463891525764_2_alg».proof.Proof.Gen.KernelIdeal.Frame
import proofs.«144679_j65463891525764_2_alg».proof.Proof.Spec
import proofs.«144679_j65463891525764_2_alg».proof.Proof.CombineValuePoint
import Idealize.ShloMosaic.Lib.Pipeline.Value

noncomputable section

open scoped BigOperators

namespace Cert.KernelIdeal.CombineValue

open Cert.KernelIdeal Cert.KernelIdeal.Gen Idealize.ShloMosaic Idealize.ShloMosaic.TcCoe Idealize.SL.Sem
open Idealize.ShloMosaic.ValueIdx
open Idealize.ShloMosaic.Pipeline (Dat)

theorem zero2 : (![0, 0] : Fin 2 → Nat) = fun _ => 0 := funext fun a => by fin_cases a <;> rfl
theorem zero1 : (![0] : Fin 1 → Nat) = fun _ => 0 := funext fun a => by fin_cases a; rfl

/-! ## One block, over any blocks whose data rows are row n of three arrays -/

/-- The body's one store at (r, k), when row r of the three data blocks is row n of the arrays A0, A1, A2: the
    specification's result at (n, k), the small operands entering whole. -/
theorem block_at (x0 x1 x2 : Vec Ideal S2048x80 .f32) (x3 : Vec Ideal S80x160 .bf16) (x4 x5 x6 : Vec Ideal S160 .f32)
    (x7 : Vec Ideal S80x160 .bf16) (x8 x9 x10 : Vec Ideal S160 .f32) (x11 : Vec Ideal S80x160 .bf16)
    (x12 x13 x14 : Vec Ideal S160 .f32) (x15 x16 : Vec Ideal S3x160 .f32)
    (A0 A1 A2 : Cert.Spec.SX.Idx → EReal) (n : Fin 262144) (r : Fin 2048) (k : Fin 80)
    (h0 : ∀ k' : Fin 80, x0 (ix2 r k') = A0 (ix2 n k')) (h1 : ∀ k' : Fin 80, x1 (ix2 r k') = A1 (ix2 n k'))
    (h2 : ∀ k' : Fin 80, x2 (ix2 r k') = A2 (ix2 n k')) :
    out1_17 (F := Ideal) x0 x1 x2 x3 x4 x5 x6 x7 x8 x9 x10 x11 x12 x13 x14 x15 x16 (ix2 r k)
      = Cert.Spec.out A0 A1 A2
          (Cert.Spec.nrm (Cert.Spec.linT A0 x3 x4) (fun o => x15 (ix2 (0 : Fin 3) o)) (fun o => x16 (ix2 (0 : Fin 3) o)) x5 x6)
          (Cert.Spec.nrm (Cert.Spec.linT A1 x7 x8) (fun o => x15 (ix2 (1 : Fin 3) o)) (fun o => x16 (ix2 (1 : Fin 3) o)) x9 x10)
          (Cert.Spec.nrm (Cert.Spec.linT A2 x11 x12) (fun o => x15 (ix2 (2 : Fin 3) o)) (fun o => x16 (ix2 (2 : Fin 3) o)) x13 x14)
          (ix2 n k) := by
  have m0 : ∀ o : Fin 160, View.ld x15 r1_3 (ix2 (0 : Fin 1) o) = x15 (ix2 (0 : Fin 3) o) := tableRow0_at x15
  have m1 : ∀ o : Fin 160, View.ld x15 r1_4 (ix2 (0 : Fin 1) o) = x15 (ix2 (1 : Fin 3) o) := tableRow1_at x15
  have m2 : ∀ o : Fin 160, View.ld x15 r1_5 (ix2 (0 : Fin 1) o) = x15 (ix2 (2 : Fin 3) o) := tableRow2_at x15
  have s0 : ∀ o : Fin 160, View.ld x16 r1_3 (ix2 (0 : Fin 1) o) = x16 (ix2 (0 : Fin 3) o) := tableRow0_at x16
  have s1 : ∀ o : Fin 160, View.ld x16 r1_4 (ix2 (0 : Fin 1) o) = x16 (ix2 (1 : Fin 3) o) := tableRow1_at x16
  have s2 : ∀ o : Fin 160, View.ld x16 r1_5 (ix2 (0 : Fin 1) o) = x16 (ix2 (2 : Fin 3) o) := tableRow2_at x16
  unfold out1_17
  rw [View.canon_unit_zero zero2]
  simp only [View.ld_unit_zero (S := S2048x80) zero2, View.ld_unit_zero (S := S80x160) zero2, View.ld_unit_zero (S := S160) zero1]
  rw [store_at]
  simp only [nrm8_eq, nrm9_eq, scaleShift_at, centred_at, lin3_eq, lin4_eq, lin_at, row6_eq, row7_eq, row_at,
    m0, m1, m2, s0, s1, s2, h0, h1, h2]
  rfl

/-! ## The blocks as rows of the arrays -/

section Region
variable (V : (c : Dev nD) → (b : Ref sig .tc) → Buf (Elt Ideal) ((c : Thread nD τ).loc b))

/-- The block indices over the 128 points (decided): the three data windows and the result window sit at block (t, 0). -/
theorem idx_data : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_17.index t (0 : Fin 2) = t.val ∧ win1_17.index t (1 : Fin 2) = 0 :=
  (by decide +kernel : ∀ t : Fin grid1.N, _)

/-- Row r of block t is row 2048·t + r of the array. -/
def rowOf (t : Fin cfg1.N) (r : Fin 2048) : Fin 262144 :=
  ⟨t.val * 2048 + r.val, by have hN : cfg1.N = 128 := N_1; have := t.isLt; have := r.isLt; omega⟩

/-- The three data blocks at point t, read at (r, k'), are the arrays at (2048·t + r, k'). -/
theorem data0_at (c : Dev nD) (t : Fin cfg1.N) (r : Fin 2048) (k' : Fin 80) :
    (iblk1 V c 0 t : Vec Ideal S2048x80 .f32) (ix2 r k') = (V c main_arg0 : Cert.Spec.SX.Idx → EReal) (ix2 (rowOf t r) k') := by
  obtain ⟨e0, e1, -⟩ := idx_data t
  unfold iblk1
  rw [View.read_apply]
  show (V c main_arg0 : Cert.Spec.SX.Idx → EReal) _ = _
  refine congrArg (V c main_arg0 : Cert.Spec.SX.Idx → EReal) (funext fun a => Fin.ext ?_)
  match a with
  | ⟨0, _⟩ => show win1_0.index t (0 : Fin 2) * 2048 + 1 * r.val = t.val * 2048 + r.val; rw [e0]; omega
  | ⟨1, _⟩ => show win1_0.index t (1 : Fin 2) * 80 + 1 * k'.val = k'.val; rw [e1]; omega

theorem data1_at (c : Dev nD) (t : Fin cfg1.N) (r : Fin 2048) (k' : Fin 80) :
    (iblk1 V c 1 t : Vec Ideal S2048x80 .f32) (ix2 r k') = (V c main_arg1 : Cert.Spec.SX.Idx → EReal) (ix2 (rowOf t r) k') := by
  obtain ⟨-, -, e0, e1, -⟩ := idx_data t
  unfold iblk1
  rw [View.read_apply]
  show (V c main_arg1 : Cert.Spec.SX.Idx → EReal) _ = _
  refine congrArg (V c main_arg1 : Cert.Spec.SX.Idx → EReal) (funext fun a => Fin.ext ?_)
  match a with
  | ⟨0, _⟩ => show win1_1.index t (0 : Fin 2) * 2048 + 1 * r.val = t.val * 2048 + r.val; rw [e0]; omega
  | ⟨1, _⟩ => show win1_1.index t (1 : Fin 2) * 80 + 1 * k'.val = k'.val; rw [e1]; omega

theorem data2_at (c : Dev nD) (t : Fin cfg1.N) (r : Fin 2048) (k' : Fin 80) :
    (iblk1 V c 2 t : Vec Ideal S2048x80 .f32) (ix2 r k') = (V c main_arg2 : Cert.Spec.SX.Idx → EReal) (ix2 (rowOf t r) k') := by
  obtain ⟨-, -, -, -, e0, e1, -⟩ := idx_data t
  unfold iblk1
  rw [View.read_apply]
  show (V c main_arg2 : Cert.Spec.SX.Idx → EReal) _ = _
  refine congrArg (V c main_arg2 : Cert.Spec.SX.Idx → EReal) (funext fun a => Fin.ext ?_)
  match a with
  | ⟨0, _⟩ => show win1_2.index t (0 : Fin 2) * 2048 + 1 * r.val = t.val * 2048 + r.val; rw [e0]; omega
  | ⟨1, _⟩ => show win1_2.index t (1 : Fin 2) * 80 + 1 * k'.val = k'.val; rw [e1]; omega

/-! ## The small operands' blocks are their whole arrays

Each of the fourteen small windows has one block, the whole array, at block index 0 at every point (decided over the
grid): its block read at y is the array at y. -/

theorem idx3 : ∀ t : Fin cfg1.N, win1_3.index t (0 : Fin 2) = 0 ∧ win1_3.index t (1 : Fin 2) = 0 :=
  (by decide +kernel : ∀ t : Fin grid1.N, _)

theorem whole3 (c : Dev nD) (t : Fin cfg1.N) :
    (iblk1 V c 3 t : Vec Ideal S80x160 .bf16) = (V c main_v1 : S80x160.Idx → EReal) := by
  have e := idx3 t
  funext y
  unfold iblk1
  rw [View.read_apply]
  show (V c main_v1 : S80x160.Idx → EReal) _ = _
  refine congrArg (V c main_v1 : S80x160.Idx → EReal) (funext fun a => Fin.ext ?_)
  match a with
  | ⟨0, _⟩ => show win1_3.index t (0 : Fin 2) * 80 + 1 * (y 0).val = (y 0).val; rw [e.1]; omega
  | ⟨1, _⟩ => show win1_3.index t (1 : Fin 2) * 160 + 1 * (y 1).val = (y 1).val; rw [e.2]; omega

theorem idx4 : ∀ t : Fin cfg1.N, win1_4.index t (0 : Fin 1) = 0 :=
  (by decide +kernel : ∀ t : Fin grid1.N, _)

theorem whole4 (c : Dev nD) (t : Fin cfg1.N) :
    (iblk1 V c 4 t : Vec Ideal S160 .f32) = (V c main_arg4 : S160.Idx → EReal) := by
  have e := idx4 t
  funext y
  unfold iblk1
  rw [View.read_apply]
  show (V c main_arg4 : S160.Idx → EReal) _ = _
  refine congrArg (V c main_arg4 : S160.Idx → EReal) (funext fun a => Fin.ext ?_)
  match a with
  | ⟨0, _⟩ => show win1_4.index t (0 : Fin 1) * 160 + 1 * (y 0).val = (y 0).val; rw [e]; omega

theorem idx5 : ∀ t : Fin cfg1.N, win1_5.index t (0 : Fin 1) = 0 :=
  (by decide +kernel : ∀ t : Fin grid1.N, _)

theorem whole5 (c : Dev nD) (t : Fin cfg1.N) :
    (iblk1 V c 5 t : Vec Ideal S160 .f32) = (V c main_arg5 : S160.Idx → EReal) := by
  have e := idx5 t
  funext y
  unfold iblk1
  rw [View.read_apply]
  show (V c main_arg5 : S160.Idx → EReal) _ = _
  refine congrArg (V c main_arg5 : S160.Idx → EReal) (funext fun a => Fin.ext ?_)
  match a with
  | ⟨0, _⟩ => show win1_5.index t (0 : Fin 1) * 160 + 1 * (y 0).val = (y 0).val; rw [e]; omega

theorem idx6 : ∀ t : Fin cfg1.N, win1_6.index t (0 : Fin 1) = 0 :=
  (by decide +kernel : ∀ t : Fin grid1.N, _)

theorem whole6 (c : Dev nD) (t : Fin cfg1.N) :
    (iblk1 V c 6 t : Vec Ideal S160 .f32) = (V c main_arg6 : S160.Idx → EReal) := by
  have e := idx6 t
  funext y
  unfold iblk1
  rw [View.read_apply]
  show (V c main_arg6 : S160.Idx → EReal) _ = _
  refine congrArg (V c main_arg6 : S160.Idx → EReal) (funext fun a => Fin.ext ?_)
  match a with
  | ⟨0, _⟩ => show win1_6.index t (0 : Fin 1) * 160 + 1 * (y 0).val = (y 0).val; rw [e]; omega

theorem idx7 : ∀ t : Fin cfg1.N, win1_7.index t (0 : Fin 2) = 0 ∧ win1_7.index t (1 : Fin 2) = 0 :=
  (by decide +kernel : ∀ t : Fin grid1.N, _)

theorem whole7 (c : Dev nD) (t : Fin cfg1.N) :
    (iblk1 V c 7 t : Vec Ideal S80x160 .bf16) = (V c main_v3 : S80x160.Idx → EReal) := by
  have e := idx7 t
  funext y
  unfold iblk1
  rw [View.read_apply]
  show (V c main_v3 : S80x160.Idx → EReal) _ = _
  refine congrArg (V c main_v3 : S80x160.Idx → EReal) (funext fun a => Fin.ext ?_)
  match a with
  | ⟨0, _⟩ => show win1_7.index t (0 : Fin 2) * 80 + 1 * (y 0).val = (y 0).val; rw [e.1]; omega
  | ⟨1, _⟩ => show win1_7.index t (1 : Fin 2) * 160 + 1 * (y 1).val = (y 1).val; rw [e.2]; omega

theorem idx8 : ∀ t : Fin cfg1.N, win1_8.index t (0 : Fin 1) = 0 :=
  (by decide +kernel : ∀ t : Fin grid1.N, _)

theorem whole8 (c : Dev nD) (t : Fin cfg1.N) :
    (iblk1 V c 8 t : Vec Ideal S160 .f32) = (V c main_arg8 : S160.Idx → EReal) := by
  have e := idx8 t
  funext y
  unfold iblk1
  rw [View.read_apply]
  show (V c main_arg8 : S160.Idx → EReal) _ = _
  refine congrArg (V c main_arg8 : S160.Idx → EReal) (funext fun a => Fin.ext ?_)
  match a with
  | ⟨0, _⟩ => show win1_8.index t (0 : Fin 1) * 160 + 1 * (y 0).val = (y 0).val; rw [e]; omega

theorem idx9 : ∀ t : Fin cfg1.N, win1_9.index t (0 : Fin 1) = 0 :=
  (by decide +kernel : ∀ t : Fin grid1.N, _)

theorem whole9 (c : Dev nD) (t : Fin cfg1.N) :
    (iblk1 V c 9 t : Vec Ideal S160 .f32) = (V c main_arg9 : S160.Idx → EReal) := by
  have e := idx9 t
  funext y
  unfold iblk1
  rw [View.read_apply]
  show (V c main_arg9 : S160.Idx → EReal) _ = _
  refine congrArg (V c main_arg9 : S160.Idx → EReal) (funext fun a => Fin.ext ?_)
  match a with
  | ⟨0, _⟩ => show win1_9.index t (0 : Fin 1) * 160 + 1 * (y 0).val = (y 0).val; rw [e]; omega

theorem idx10 : ∀ t : Fin cfg1.N, win1_10.index t (0 : Fin 1) = 0 :=
  (by decide +kernel : ∀ t : Fin grid1.N, _)

theorem whole10 (c : Dev nD) (t : Fin cfg1.N) :
    (iblk1 V c 10 t : Vec Ideal S160 .f32) = (V c main_arg10 : S160.Idx → EReal) := by
  have e := idx10 t
  funext y
  unfold iblk1
  rw [View.read_apply]
  show (V c main_arg10 : S160.Idx → EReal) _ = _
  refine congrArg (V c main_arg10 : S160.Idx → EReal) (funext fun a => Fin.ext ?_)
  match a with
  | ⟨0, _⟩ => show win1_10.index t (0 : Fin 1) * 160 + 1 * (y 0).val = (y 0).val; rw [e]; omega

theorem idx11 : ∀ t : Fin cfg1.N, win1_11.index t (0 : Fin 2) = 0 ∧ win1_11.index t (1 : Fin 2) = 0 :=
  (by decide +kernel : ∀ t : Fin grid1.N, _)

theorem whole11 (c : Dev nD) (t : Fin cfg1.N) :
    (iblk1 V c 11 t : Vec Ideal S80x160 .bf16) = (V c main_v5 : S80x160.Idx → EReal) := by
  have e := idx11 t
  funext y
  unfold iblk1
  rw [View.read_apply]
  show (V c main_v5 : S80x160.Idx → EReal) _ = _
  refine congrArg (V c main_v5 : S80x160.Idx → EReal) (funext fun a => Fin.ext ?_)
  match a with
  | ⟨0, _⟩ => show win1_11.index t (0 : Fin 2) * 80 + 1 * (y 0).val = (y 0).val; rw [e.1]; omega
  | ⟨1, _⟩ => show win1_11.index t (1 : Fin 2) * 160 + 1 * (y 1).val = (y 1).val; rw [e.2]; omega

theorem idx12 : ∀ t : Fin cfg1.N, win1_12.index t (0 : Fin 1) = 0 :=
  (by decide +kernel : ∀ t : Fin grid1.N, _)

theorem whole12 (c : Dev nD) (t : Fin cfg1.N) :
    (iblk1 V c 12 t : Vec Ideal S160 .f32) = (V c main_arg12 : S160.Idx → EReal) := by
  have e := idx12 t
  funext y
  unfold iblk1
  rw [View.read_apply]
  show (V c main_arg12 : S160.Idx → EReal) _ = _
  refine congrArg (V c main_arg12 : S160.Idx → EReal) (funext fun a => Fin.ext ?_)
  match a with
  | ⟨0, _⟩ => show win1_12.index t (0 : Fin 1) * 160 + 1 * (y 0).val = (y 0).val; rw [e]; omega

theorem idx13 : ∀ t : Fin cfg1.N, win1_13.index t (0 : Fin 1) = 0 :=
  (by decide +kernel : ∀ t : Fin grid1.N, _)

theorem whole13 (c : Dev nD) (t : Fin cfg1.N) :
    (iblk1 V c 13 t : Vec Ideal S160 .f32) = (V c main_arg13 : S160.Idx → EReal) := by
  have e := idx13 t
  funext y
  unfold iblk1
  rw [View.read_apply]
  show (V c main_arg13 : S160.Idx → EReal) _ = _
  refine congrArg (V c main_arg13 : S160.Idx → EReal) (funext fun a => Fin.ext ?_)
  match a with
  | ⟨0, _⟩ => show win1_13.index t (0 : Fin 1) * 160 + 1 * (y 0).val = (y 0).val; rw [e]; omega

theorem idx14 : ∀ t : Fin cfg1.N, win1_14.index t (0 : Fin 1) = 0 :=
  (by decide +kernel : ∀ t : Fin grid1.N, _)

theorem whole14 (c : Dev nD) (t : Fin cfg1.N) :
    (iblk1 V c 14 t : Vec Ideal S160 .f32) = (V c main_arg14 : S160.Idx → EReal) := by
  have e := idx14 t
  funext y
  unfold iblk1
  rw [View.read_apply]
  show (V c main_arg14 : S160.Idx → EReal) _ = _
  refine congrArg (V c main_arg14 : S160.Idx → EReal) (funext fun a => Fin.ext ?_)
  match a with
  | ⟨0, _⟩ => show win1_14.index t (0 : Fin 1) * 160 + 1 * (y 0).val = (y 0).val; rw [e]; omega

theorem idx15 : ∀ t : Fin cfg1.N, win1_15.index t (0 : Fin 2) = 0 ∧ win1_15.index t (1 : Fin 2) = 0 :=
  (by decide +kernel : ∀ t : Fin grid1.N, _)

theorem whole15 (c : Dev nD) (t : Fin cfg1.N) :
    (iblk1 V c 15 t : Vec Ideal S3x160 .f32) = (V c main_v10 : S3x160.Idx → EReal) := by
  have e := idx15 t
  funext y
  unfold iblk1
  rw [View.read_apply]
  show (V c main_v10 : S3x160.Idx → EReal) _ = _
  refine congrArg (V c main_v10 : S3x160.Idx → EReal) (funext fun a => Fin.ext ?_)
  match a with
  | ⟨0, _⟩ => show win1_15.index t (0 : Fin 2) * 3 + 1 * (y 0).val = (y 0).val; rw [e.1]; omega
  | ⟨1, _⟩ => show win1_15.index t (1 : Fin 2) * 160 + 1 * (y 1).val = (y 1).val; rw [e.2]; omega

theorem idx16 : ∀ t : Fin cfg1.N, win1_16.index t (0 : Fin 2) = 0 ∧ win1_16.index t (1 : Fin 2) = 0 :=
  (by decide +kernel : ∀ t : Fin grid1.N, _)

theorem whole16 (c : Dev nD) (t : Fin cfg1.N) :
    (iblk1 V c 16 t : Vec Ideal S3x160 .f32) = (V c main_v14 : S3x160.Idx → EReal) := by
  have e := idx16 t
  funext y
  unfold iblk1
  rw [View.read_apply]
  show (V c main_v14 : S3x160.Idx → EReal) _ = _
  refine congrArg (V c main_v14 : S3x160.Idx → EReal) (funext fun a => Fin.ext ?_)
  match a with
  | ⟨0, _⟩ => show win1_16.index t (0 : Fin 2) * 3 + 1 * (y 0).val = (y 0).val; rw [e.1]; omega
  | ⟨1, _⟩ => show win1_16.index t (1 : Fin 2) * 160 + 1 * (y 1).val = (y 1).val; rw [e.2]; omega

/-! ## From the blocks to the array -/

/-- The array the region leaves: the specification's result over the three data arrays, the normalised features taken
    with row j of the two tables as branch j's mean and variance. -/
abbrev result (c : Dev nD) : Cert.Spec.SX.Idx → EReal :=
  Cert.Spec.out (V c main_arg0) (V c main_arg1) (V c main_arg2)
    (Cert.Spec.nrm (Cert.Spec.linT (V c main_arg0) (V c main_v1) (V c main_arg4)) (fun o => V c main_v10 (ix2 (0 : Fin 3) o)) (fun o => V c main_v14 (ix2 (0 : Fin 3) o)) (V c main_arg5) (V c main_arg6))
    (Cert.Spec.nrm (Cert.Spec.linT (V c main_arg1) (V c main_v3) (V c main_arg8)) (fun o => V c main_v10 (ix2 (1 : Fin 3) o)) (fun o => V c main_v14 (ix2 (1 : Fin 3) o)) (V c main_arg9) (V c main_arg10))
    (Cert.Spec.nrm (Cert.Spec.linT (V c main_arg2) (V c main_v5) (V c main_arg12)) (fun o => V c main_v10 (ix2 (2 : Fin 3) o)) (fun o => V c main_v14 (ix2 (2 : Fin 3) o)) (V c main_arg13) (V c main_arg14))

/-- WHAT POINT t WRITES BACK is block t of `result`. -/
theorem flushed_eq (c : Dev nD) (t : Fin cfg1.N) :
    (dat1 V c).flushed 17 t = ((cfg1.win 17).blk t).view.read (Elt Ideal) (result V c) := by
  show (cfg1.win 17).cut (grid1.coords t) ((dat1 V c).after 17 t) = _
  rw [after1_17]
  funext j
  obtain ⟨r, k, rfl⟩ : ∃ (r : Fin 2048) (k : Fin 80), j = ix2 r k := ⟨j 0, j 1, eq_ix2 j⟩
  obtain ⟨-, -, -, -, -, -, e0, e1⟩ := idx_data t
  have hemb : ((cfg1.win 17).blk t).view.emb (ix2 r k) = (ix2 (rowOf t r) k : Cert.Spec.SX.Idx) := by
    funext a; apply Fin.ext
    match a with
    | ⟨0, _⟩ => show win1_17.index t (0 : Fin 2) * 2048 + 1 * r.val = t.val * 2048 + r.val; rw [e0]; omega
    | ⟨1, _⟩ => show win1_17.index t (1 : Fin 2) * 80 + 1 * k.val = k.val; rw [e1]; omega
  rw [View.read_apply]
  show out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (ix2 r k)
      = result V c (((cfg1.win 17).blk t).view.emb (ix2 r k))
  rw [hemb]
  refine (block_at (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)
    (V c main_arg0) (V c main_arg1) (V c main_arg2) (rowOf t r) r k (data0_at V c t r) (data1_at V c t r) (data2_at V c t r)).trans ?_
  rw [whole3 V c t, whole4 V c t, whole5 V c t, whole6 V c t, whole7 V c t, whole8 V c t, whole9 V c t, whole10 V c t,
    whole11 V c t, whole12 V c t, whole13 V c t, whole14 V c t, whole15 V c t, whole16 V c t]

/-- An index of the array is in point t's block iff each coordinate is in the block's range on its axis. -/
theorem mem_blk (t : Fin cfg1.N) (i : S262144x80.Idx) :
    i ∈ ((cfg1.win 17).blk t).view.set ↔ ∀ a : Fin 2, win1_17.index t a * S2048x80.size a ≤ (i a).val
      ∧ (i a).val < win1_17.index t a * S2048x80.size a + S2048x80.size a := by
  show i ∈ ((View.whole main_v15).slice (win1_17.rect t)).set ↔ _
  rw [View.set_slice_whole, Rect.mem_set_unit]
  exact Iff.rfl

/-- Row n of the array lies in the block of point n / 2048: the 128 blocks tile the array. -/
theorem cover (i : S262144x80.Idx) :
    ∃ t : Fin cfg1.N, (cfg1.win 17).flush t = true ∧ i ∈ ((cfg1.win 17).blk t).view.set := by
  have hi0 : (i 0).val < 262144 := (i 0).isLt
  have hi1 : (i 1).val < 80 := (i 1).isLt
  have hN : cfg1.N = 128 := N_1
  obtain ⟨t, ht⟩ : ∃ t : Fin cfg1.N, t.val = (i 0).val / 2048 := ⟨⟨(i 0).val / 2048, by rw [hN]; omega⟩, rfl⟩
  obtain ⟨-, -, -, -, -, -, e0, e1⟩ := idx_data t
  refine ⟨t, flush1_17 t, ?_⟩
  rw [mem_blk]
  intro a
  match a with
  | ⟨0, _⟩ =>
    show win1_17.index t (0 : Fin 2) * 2048 ≤ (i 0).val ∧ (i 0).val < win1_17.index t (0 : Fin 2) * 2048 + 2048
    rw [e0, ht]; omega
  | ⟨1, _⟩ =>
    show win1_17.index t (1 : Fin 2) * 80 ≤ (i 1).val ∧ (i 1).val < win1_17.index t (1 : Fin 2) * 80 + 80
    rw [e1]; omega

end Region

/-- THE RESULT ARRAY AFTER THE REGION, whatever the buffers hold when it is entered. -/
theorem out_eq (V : (c : Dev nD) → (b : Ref sig .tc) → Buf (Elt Ideal) ((c : Thread nD τ).loc b)) (c : Dev nD) :
    (Gen.dat1 (F := Ideal) V c).arrAt 17 cfg1.N
      = Cert.Spec.out (V c main_arg0) (V c main_arg1) (V c main_arg2)
          (Cert.Spec.nrm (Cert.Spec.linT (V c main_arg0) (V c main_v1) (V c main_arg4)) (fun o => V c main_v10 (ix2 (0 : Fin 3) o)) (fun o => V c main_v14 (ix2 (0 : Fin 3) o)) (V c main_arg5) (V c main_arg6))
          (Cert.Spec.nrm (Cert.Spec.linT (V c main_arg1) (V c main_v3) (V c main_arg8)) (fun o => V c main_v10 (ix2 (1 : Fin 3) o)) (fun o => V c main_v14 (ix2 (1 : Fin 3) o)) (V c main_arg9) (V c main_arg10))
          (Cert.Spec.nrm (Cert.Spec.linT (V c main_arg2) (V c main_v5) (V c main_arg12)) (fun o => V c main_v10 (ix2 (2 : Fin 3) o)) (fun o => V c main_v14 (ix2 (2 : Fin 3) o)) (V c main_arg13) (V c main_arg14)) :=
  (dat1 V c).arrAt_eq_of_cover 17 (result V c) (fun t _ => flushed_eq V c t) cover

end Cert.KernelIdeal.CombineValue

end
-- ==== Proof.StatsValue.lean ====
/-
  What the statistics region leaves in its two result arrays, at the extended reals.

  The region walks the N = 262144 rows of sub, left and right as 2 halves of 32 blocks of 4096 rows. At each block it forms
  the three linear layers h_X = X · W_Xᵀ + b_X on the block's rows and adds, into row j ∈ {0, 1, 2} (sub, left, right) of a
  [1, 3, 160] block it carries from point to point, the column sums of h over the 4096 rows — and into a second such block
  the column sums of h². The first point of a half starts both blocks from zero; the last point of a half writes them to
  block c' of the two [2, 3, 160] result arrays.

  So entry (c', j, o) of the first array ends at the total over the 32 blocks of half c' of branch j's layer at feature o,
  and of the second at the same total of its square (`sums_eq`, `sumsq_eq`): by induction over the points of a half
  (`totals`), each step one point's stores read back at an index (`outA9_apply` … `outB10_apply`) over the blocks that
  point holds, which are rows of the arrays (`blkH_eq`).
-/
import proofs.«144679_j65463891525764_2_alg».proof.Proof.Gen.KernelIdeal.Frame
import proofs.«144679_j65463891525764_2_alg».proof.Proof.Spec
import proofs.«144679_j65463891525764_2_alg».proof.Proof.LibPlainDot
import Idealize.ShloMosaic.Lib.Pipeline.Value
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.ShloMosaic.ValueIdx Idealize.SL.Sem Idealize.ShloMosaic.Tactic
open Idealize.ShloMosaic.Pipeline (Dat)

namespace Cert.KernelIdeal.StatsValue

open Cert.KernelIdeal Cert.KernelIdeal.Gen

/-! ## The payloads of one grid point, read at an index

A point holds a block of 4096 rows of each of sub, left and right, the three transposed weight matrices and the three
biases. Its linear layer at row r of the block and feature o is the sum over k of x(r, k) · w(k, o), plus b(o). -/

/-- One block's linear layer at (r, o). -/
def hblk (x : Vec Ideal S4096x80 .f32) (w : Vec Ideal S80x160 .bf16) (b : Vec Ideal S160 .f32) (r : Fin 4096) (o : Fin 160) : EReal :=
  (∑ k : Fin 80, x (ix2 r k) * w (ix2 k o)) + b (ix1 o)

/-- A bias [160] viewed as [1, 160] and repeated down the 4096 rows reads b(o) at (r, o). -/
theorem bias_apply (b : Vec Ideal S160 .f32) (r : Fin 4096) (o : Fin 160) :
    broadcastTo S4096x160 (shapeCast S1x160 b shapeCasts_S160_S1x160) broadcasts_S1x160_S4096x160 (ix2 r o) = b (ix1 o) := by
  refine (broadcastTo_apply _ broadcasts_S1x160_S4096x160 (ix2 r o) (ix2 (0 : Fin 1) o) (fun a => ?_)).trans ?_
  · match a with
    | ⟨0, _⟩ => rfl
    | ⟨1, _⟩ => rfl
  · refine (shapeCast_addUnit_apply ![160] b shapeCasts_S160_S1x160 (ix2 (0 : Fin 1) o)).trans (congrArg b ?_)
    funext a
    match a with
    | ⟨0, _⟩ => rfl

/-- The matrix product of a block with the transposed weights, rounded operands and all, is the plain sum over k. -/
theorem mm_apply (x : Vec Ideal S4096x80 .f32) (w : Vec Ideal S80x160 .bf16) (r : Fin 4096) (o : Fin 160) :
    matmul dot_S4096x80_S80x160_S4096x160_1_0_0_1_n_n none (truncf .bf16 x bitsLt_bf16_f32)
        (shapeCast S80x160 w shapeCasts_S80x160_S80x160 : FVec Ideal S80x160 .bf16) (constant (F := Ideal) S4096x160 .f32 0x00000000#32) (ix2 r o)
      = ∑ k : Fin 80, x (ix2 r k) * w (ix2 k o) := by
  refine (Cert.Lib.matmul_zero_apply dot_S4096x80_S80x160_S4096x160_1_0_0_1_n_n_wf none (truncf .bf16 x bitsLt_bf16_f32)
    (shapeCast S80x160 w shapeCasts_S80x160_S80x160 : FVec Ideal S80x160 .bf16) r o).trans ?_
  rw [shapeCast_self]
  rfl

theorem pay5_apply (x : Vec Ideal S4096x80 .f32) (w : Vec Ideal S80x160 .bf16) (b : Vec Ideal S160 .f32) (r : Fin 4096) (o : Fin 160) :
    k0_pay5 (F := Ideal) x w b (ix2 r o) = hblk x w b r o := by
  unfold k0_pay5 hblk
  exact congrArg₂ (· + ·) (mm_apply x w r o) (bias_apply b r o)

theorem pay6_apply (x : Vec Ideal S4096x80 .f32) (w : Vec Ideal S80x160 .bf16) (b : Vec Ideal S160 .f32) (r : Fin 4096) (o : Fin 160) :
    k0_pay6 (F := Ideal) x w b (ix2 r o) = hblk x w b r o := by
  unfold k0_pay6 hblk
  exact congrArg₂ (· + ·) (mm_apply x w r o) (bias_apply b r o)

theorem pay7_apply (x : Vec Ideal S4096x80 .f32) (w : Vec Ideal S80x160 .bf16) (b : Vec Ideal S160 .f32) (r : Fin 4096) (o : Fin 160) :
    k0_pay7 (F := Ideal) x w b (ix2 r o) = hblk x w b r o := by
  unfold k0_pay7 hblk
  exact congrArg₂ (· + ·) (mm_apply x w r o) (bias_apply b r o)

/-- The sum down the 4096 rows of a [4096, 160] block, at feature o. -/
theorem colsum_apply (v : FVec Ideal S4096x160 .f32) (o : Fin 160) :
    multiReduction (F := Ideal) .add [0] S160 v 0x00000000#32 reduces_S4096x160_S160 (.inl rfl) rfl (ix1 o)
      = ∑ r : Fin 4096, v (ix2 r o) := by
  refine (Ideal.multiReduction_add_single v 0x00000000#32 reduces_S4096x160_S160 (.inl rfl) rfl (ix1 o)).trans ?_
  refine Finset.sum_congr rfl fun r _ => congrArg v ?_
  funext a
  match a with
  | ⟨0, _⟩ => rfl
  | ⟨1, _⟩ => rfl

/-- A [160] vector stored as a [1, 1, 160] row reads v(o) at (0, 0, o); -/
theorem up_apply {α : Type} (v : S160.Idx → α) (o : Fin 160) :
    shapeCast S1x1x160 v shapeCasts_S160_S1x1x160 (ix3 (0 : Fin 1) (0 : Fin 1) o) = v (ix1 o) := by
  refine shapeCast_apply v shapeCasts_S160_S1x1x160 _ (ix1 o) ?_
  rw [Shape.rowMajor_val_one, Shape.rowMajor_val_three]
  show o.val = (0 * 1 + 0) * 160 + o.val
  omega

/-- and a [1, 1, 160] row viewed as [160] reads v(0, 0, o) at o. -/
theorem down_apply {α : Type} (v : S1x1x160.Idx → α) (o : Fin 160) :
    shapeCast S160 v shapeCasts_S1x1x160_S160 (ix1 o) = v (ix3 (0 : Fin 1) (0 : Fin 1) o) := by
  refine shapeCast_apply v shapeCasts_S1x1x160_S160 _ (ix3 (0 : Fin 1) (0 : Fin 1) o) ?_
  rw [Shape.rowMajor_val_one, Shape.rowMajor_val_three]
  show (0 * 1 + 0) * 160 + o.val = o.val
  omega

/-! ## A [1, 3, 160] block written row by row

The body never stores the accumulator block whole (except to zero it): it stores its three rows one at a time. What the
block holds afterwards at (0, j, o) is what the store of row j put at (0, 0, o); and a load of row j made while other
rows (or a whole-block fill underneath them) have been stored reads through to the fill. -/

abbrev row0 : Rect S1x3x160 := Rect.unit (s := S1x3x160) ![0, 0, 0] S1x1x160.size inb_S1x3x160_S1x1x160_0_0_0
abbrev row1 : Rect S1x3x160 := Rect.unit (s := S1x3x160) ![0, 1, 0] S1x1x160.size inb_S1x3x160_S1x1x160_0_1_0
abbrev row2 : Rect S1x3x160 := Rect.unit (s := S1x3x160) ![0, 2, 0] S1x1x160.size inb_S1x3x160_S1x1x160_0_2_0
abbrev full : Rect S1x3x160 := Rect.unit (s := S1x3x160) ![0, 0, 0] S1x3x160.size inb_S1x3x160_S1x3x160_0_0_0

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

theorem row0_emb (o : Fin 160) : row0.emb (ix3 (0 : Fin 1) (0 : Fin 1) o) = ix3 (0 : Fin 1) (0 : Fin 3) o :=
  funext fun a => Fin.ext (by
    match a with
    | ⟨0, _⟩ => rfl
    | ⟨1, _⟩ => rfl
    | ⟨2, _⟩ => show 0 + 1 * o.val = o.val; omega)
theorem row1_emb (o : Fin 160) : row1.emb (ix3 (0 : Fin 1) (0 : Fin 1) o) = ix3 (0 : Fin 1) (1 : Fin 3) o :=
  funext fun a => Fin.ext (by
    match a with
    | ⟨0, _⟩ => rfl
    | ⟨1, _⟩ => rfl
    | ⟨2, _⟩ => show 0 + 1 * o.val = o.val; omega)
theorem row2_emb (o : Fin 160) : row2.emb (ix3 (0 : Fin 1) (0 : Fin 1) o) = ix3 (0 : Fin 1) (2 : Fin 3) o :=
  funext fun a => Fin.ext (by
    match a with
    | ⟨0, _⟩ => rfl
    | ⟨1, _⟩ => rfl
    | ⟨2, _⟩ => show 0 + 1 * o.val = o.val; omega)

theorem not_mem_row0 (j : Fin 3) (hj : j.val ≠ 0) (o : Fin 160) : ix3 (0 : Fin 1) j o ∉ row0.set := by
  rw [Rect.mem_set_unit]
  intro h
  have h1 : j.val < 0 + 1 := (h 1).2
  omega
theorem not_mem_row1 (j : Fin 3) (hj : j.val ≠ 1) (o : Fin 160) : ix3 (0 : Fin 1) j o ∉ row1.set := by
  rw [Rect.mem_set_unit]
  intro h
  have h1 : 1 ≤ j.val := (h 1).1
  have h2 : j.val < 1 + 1 := (h 1).2
  omega
theorem not_mem_row2 (j : Fin 3) (hj : j.val ≠ 2) (o : Fin 160) : ix3 (0 : Fin 1) j o ∉ row2.set := by
  rw [Rect.mem_set_unit]
  intro h
  have h1 : 2 ≤ j.val := (h 1).1
  have := j.isLt
  omega

section Rows
variable {Val : EltTy → Type} [∀ e, Nonempty (Val e)]

theorem canon_row2 (w2 : S1x1x160.Idx → Val .f32) (L : List (View.Piece Val S1x3x160 .f32)) (o : Fin 160) :
    View.canon ((⟨row2, w2⟩ : View.Piece Val S1x3x160 .f32) :: L) (ix3 (0 : Fin 1) (2 : Fin 3) o) = w2 (ix3 (0 : Fin 1) (0 : Fin 1) o) := by
  rw [← row2_emb o]; exact View.canon_cons_emb row2 w2 L _

theorem canon_row1 (w2 w1 : S1x1x160.Idx → Val .f32) (L : List (View.Piece Val S1x3x160 .f32)) (o : Fin 160) :
    View.canon ((⟨row2, w2⟩ : View.Piece Val S1x3x160 .f32) :: ⟨row1, w1⟩ :: L) (ix3 (0 : Fin 1) (1 : Fin 3) o) = w1 (ix3 (0 : Fin 1) (0 : Fin 1) o) := by
  refine (View.canon_cons_of_not_mem (⟨row2, w2⟩ : View.Piece Val S1x3x160 .f32) (⟨row1, w1⟩ :: L) (not_mem_row2 1 (by decide) o)).trans ?_
  rw [← row1_emb o]; exact View.canon_cons_emb row1 w1 L _

theorem canon_row0 (w2 w1 w0 : S1x1x160.Idx → Val .f32) (L : List (View.Piece Val S1x3x160 .f32)) (o : Fin 160) :
    View.canon ((⟨row2, w2⟩ : View.Piece Val S1x3x160 .f32) :: ⟨row1, w1⟩ :: ⟨row0, w0⟩ :: L) (ix3 (0 : Fin 1) (0 : Fin 3) o) = w0 (ix3 (0 : Fin 1) (0 : Fin 1) o) := by
  refine (View.canon_cons_of_not_mem (⟨row2, w2⟩ : View.Piece Val S1x3x160 .f32) (⟨row1, w1⟩ :: ⟨row0, w0⟩ :: L) (not_mem_row2 0 (by decide) o)).trans ?_
  refine (View.canon_cons_of_not_mem (⟨row1, w1⟩ : View.Piece Val S1x3x160 .f32) (⟨row0, w0⟩ :: L) (not_mem_row1 0 (by decide) o)).trans ?_
  rw [← row0_emb o]; exact View.canon_cons_emb row0 w0 L _

variable {sg : RefSig} {κ : Kind} {sp : Space} (v : View sg κ sp S1x3x160 .f32)

/-- A load of row 0 over a whole-block fill reads the fill; -/
theorem read_row0 (Z : S1x3x160.Idx → Val .f32) (o : Fin 160) :
    v.readCov [(⟨full, Z⟩ : View.Piece Val S1x3x160 .f32)] row0.toLoadRect (ix3 (0 : Fin 1) (0 : Fin 1) o) = Z (ix3 (0 : Fin 1) (0 : Fin 3) o) := by
  rw [View.readCov_eq_canon']
  show View.canon _ (row0.emb (ix3 (0 : Fin 1) (0 : Fin 1) o)) = _
  rw [row0_emb, View.canon_unit_zero hz3]

/-- a load of row 1 after row 0 has been stored over the fill still reads the fill; -/
theorem read_row1 (w0 : S1x1x160.Idx → Val .f32) (Z : S1x3x160.Idx → Val .f32) (o : Fin 160) :
    v.readCov [(⟨row0, w0⟩ : View.Piece Val S1x3x160 .f32), ⟨full, Z⟩] row1.toLoadRect (ix3 (0 : Fin 1) (0 : Fin 1) o) = Z (ix3 (0 : Fin 1) (1 : Fin 3) o) := by
  rw [View.readCov_eq_canon']
  show View.canon _ (row1.emb (ix3 (0 : Fin 1) (0 : Fin 1) o)) = _
  rw [row1_emb]
  refine (View.canon_cons_of_not_mem (⟨row0, w0⟩ : View.Piece Val S1x3x160 .f32) [⟨full, Z⟩] (not_mem_row0 1 (by decide) o)).trans ?_
  rw [View.canon_unit_zero hz3]

/-- and so does a load of row 2 after rows 1 and 0. -/
theorem read_row2 (w1 w0 : S1x1x160.Idx → Val .f32) (Z : S1x3x160.Idx → Val .f32) (o : Fin 160) :
    v.readCov [(⟨row1, w1⟩ : View.Piece Val S1x3x160 .f32), ⟨row0, w0⟩, ⟨full, Z⟩] row2.toLoadRect (ix3 (0 : Fin 1) (0 : Fin 1) o) = Z (ix3 (0 : Fin 1) (2 : Fin 3) o) := by
  rw [View.readCov_eq_canon']
  show View.canon _ (row2.emb (ix3 (0 : Fin 1) (0 : Fin 1) o)) = _
  rw [row2_emb]
  refine (View.canon_cons_of_not_mem (⟨row1, w1⟩ : View.Piece Val S1x3x160 .f32) [⟨row0, w0⟩, ⟨full, Z⟩] (not_mem_row1 2 (by decide) o)).trans ?_
  refine (View.canon_cons_of_not_mem (⟨row0, w0⟩ : View.Piece Val S1x3x160 .f32) [⟨full, Z⟩] (not_mem_row0 2 (by decide) o)).trans ?_
  rw [View.canon_unit_zero hz3]

end Rows

/-- A row of a block's contents, as a load of that row reads it. -/
theorem ld_row0 {α : Type} (X : S1x3x160.Idx → α) (o : Fin 160) :
    (fun x => X (row0.emb x)) (ix3 (0 : Fin 1) (0 : Fin 1) o) = X (ix3 (0 : Fin 1) (0 : Fin 3) o) := congrArg X (row0_emb o)
theorem ld_row1 {α : Type} (X : S1x3x160.Idx → α) (o : Fin 160) :
    (fun x => X (row1.emb x)) (ix3 (0 : Fin 1) (0 : Fin 1) o) = X (ix3 (0 : Fin 1) (1 : Fin 3) o) := congrArg X (row1_emb o)
theorem ld_row2 {α : Type} (X : S1x3x160.Idx → α) (o : Fin 160) :
    (fun x => X (row2.emb x)) (ix3 (0 : Fin 1) (0 : Fin 1) o) = X (ix3 (0 : Fin 1) (2 : Fin 3) o) := congrArg X (row2_emb o)

/-! ## The stores' payloads at an index -/

theorem pay8_apply (v30 : Vec Ideal S1x1x160 .f32) (o : Fin 160) :
    k0_pay8 (F := Ideal) v30 (ix1 o) = v30 (ix3 (0 : Fin 1) (0 : Fin 1) o) := by
  unfold k0_pay8; exact down_apply v30 o

theorem pay14_apply (v59 : Vec Ideal S1x1x160 .f32) (o : Fin 160) :
    k0_pay14 (F := Ideal) v59 (ix1 o) = v59 (ix3 (0 : Fin 1) (0 : Fin 1) o) := by
  unfold k0_pay14; exact down_apply v59 o

theorem pay9_apply (x : Vec Ideal S4096x80 .f32) (w : Vec Ideal S80x160 .bf16) (b : Vec Ideal S160 .f32) (o : Fin 160) :
    k0_pay9 (F := Ideal) x w b (ix1 o) = ∑ r : Fin 4096, hblk x w b r o := by
  unfold k0_pay9
  refine (colsum_apply _ o).trans (Finset.sum_congr rfl fun r _ => pay5_apply x w b r o)

theorem pay10_apply (v31 v32 : FVec Ideal S160 .f32) (o : Fin 160) :
    k0_pay10 (F := Ideal) v31 v32 (ix3 (0 : Fin 1) (0 : Fin 1) o) = v31 (ix1 o) + v32 (ix1 o) := by
  unfold k0_pay10; exact up_apply _ o

theorem pay11_apply (v20 : FVec Ideal S4096x160 .f32) (v37 : Vec Ideal S1x1x160 .f32) (o : Fin 160) :
    k0_pay11 (F := Ideal) v20 v37 (ix3 (0 : Fin 1) (0 : Fin 1) o) = v37 (ix3 (0 : Fin 1) (0 : Fin 1) o) + ∑ r : Fin 4096, v20 (ix2 r o) := by
  unfold k0_pay11
  exact (up_apply _ o).trans (congrArg₂ (· + ·) (down_apply v37 o) (colsum_apply v20 o))

theorem pay12_apply (v29 : FVec Ideal S4096x160 .f32) (v44 : Vec Ideal S1x1x160 .f32) (o : Fin 160) :
    k0_pay12 (F := Ideal) v29 v44 (ix3 (0 : Fin 1) (0 : Fin 1) o) = v44 (ix3 (0 : Fin 1) (0 : Fin 1) o) + ∑ r : Fin 4096, v29 (ix2 r o) := by
  unfold k0_pay12
  exact (up_apply _ o).trans (congrArg₂ (· + ·) (down_apply v44 o) (colsum_apply v29 o))

theorem pay13_apply (v11 : FVec Ideal S4096x160 .f32) (v51 : Vec Ideal S1x1x160 .f32) (o : Fin 160) :
    k0_pay13 (F := Ideal) v11 v51 (ix3 (0 : Fin 1) (0 : Fin 1) o)
      = v51 (ix3 (0 : Fin 1) (0 : Fin 1) o) + ∑ r : Fin 4096, v11 (ix2 r o) * v11 (ix2 r o) := by
  unfold k0_pay13
  exact (up_apply _ o).trans (congrArg₂ (· + ·) (down_apply v51 o) (colsum_apply (mulf v11 v11) o))

theorem pay2_apply (v29 : FVec Ideal S4096x160 .f32) (v67 : Vec Ideal S1x1x160 .f32) (o : Fin 160) :
    k0_pay2 (F := Ideal) v29 v67 (ix3 (0 : Fin 1) (0 : Fin 1) o)
      = v67 (ix3 (0 : Fin 1) (0 : Fin 1) o) + ∑ r : Fin 4096, v29 (ix2 r o) * v29 (ix2 r o) := by
  unfold k0_pay2
  exact (up_apply _ o).trans (congrArg₂ (· + ·) (down_apply v67 o) (colsum_apply (mulf v29 v29) o))

theorem pay1_apply (v60 : FVec Ideal S160 .f32) (v61 : FVec Ideal S4096x160 .f32) (o : Fin 160) :
    k0_pay1 (F := Ideal) v60 v61 (ix3 (0 : Fin 1) (0 : Fin 1) o) = v60 (ix1 o) + ∑ r : Fin 4096, v61 (ix2 r o) := by
  unfold k0_pay1
  exact (up_apply _ o).trans (congrArg₂ (· + ·) rfl (colsum_apply v61 o))

/-- The zero fill reads the float zero everywhere. -/
theorem pay3_apply (y : S1x3x160.Idx) : k0_pay3 (F := Ideal) y = 0 := by
  unfold k0_pay3; exact Ideal.ofBits_zero_f32
theorem pay4_apply (y : S1x3x160.Idx) : k0_pay4 (F := Ideal) y = 0 := by
  unfold k0_pay4; exact Ideal.ofBits_zero_f32

/-! ## What one point leaves in the two accumulator blocks, at (0, j, o)

Row j of either block belongs to branch j (sub, left, right). At a point that is not the first of its half the body adds
to row j of the first block the column sums of that branch's linear layer over the point's 4096 rows, and to row j of the
second block the column sums of its square. At the first point of a half it does the same over zeros. -/

/-- The three branches' linear layers on one point's blocks. -/
def blkH (x0 x1 x2 : Vec Ideal S4096x80 .f32) (x3 : Vec Ideal S80x160 .bf16) (x4 : Vec Ideal S160 .f32) (x5 : Vec Ideal S80x160 .bf16) (x6 : Vec Ideal S160 .f32) (x7 : Vec Ideal S80x160 .bf16) (x8 : Vec Ideal S160 .f32) : Fin 3 → Fin 4096 → Fin 160 → EReal
  | 0 => hblk x0 x3 x4
  | 1 => hblk x1 x5 x6
  | 2 => hblk x2 x7 x8

theorem fin3_cases {P : Fin 3 → Prop} (h0 : P 0) (h1 : P 1) (h2 : P 2) (j : Fin 3) : P j := by
  match j with
  | ⟨0, _⟩ => exact h0
  | ⟨1, _⟩ => exact h1
  | ⟨2, _⟩ => exact h2

theorem outB9_apply (c : Dev nD) (i : grid0.Coords) (arg2 : Memref sig .tc .vmem S4096x80 .f32) (harg2 : arg2.IsWhole) (arg3 : Memref sig .tc .vmem S4096x80 .f32) (harg3 : arg3.IsWhole) (arg4 : Memref sig .tc .vmem S4096x80 .f32) (harg4 : arg4.IsWhole) (arg5 : Memref sig .tc .vmem S80x160 .bf16) (harg5 : arg5.IsWhole) (arg6 : Memref sig .tc .vmem S160 .f32) (harg6 : arg6.IsWhole) (arg7 : Memref sig .tc .vmem S80x160 .bf16) (harg7 : arg7.IsWhole) (arg8 : Memref sig .tc .vmem S160 .f32) (harg8 : arg8.IsWhole) (arg9 : Memref sig .tc .vmem S80x160 .bf16) (harg9 : arg9.IsWhole) (arg10 : Memref sig .tc .vmem S160 .f32) (harg10 : arg10.IsWhole) (arg11 : Memref sig .tc .vmem S1x3x160 .f32) (harg11 : arg11.IsWhole) (arg12 : Memref sig .tc .vmem S1x3x160 .f32) (harg12 : arg12.IsWhole) (hc0 : ¬cond0_0 i) (x0 x1 x2 : Vec Ideal S4096x80 .f32) (x3 : Vec Ideal S80x160 .bf16) (x4 : Vec Ideal S160 .f32) (x5 : Vec Ideal S80x160 .bf16) (x6 : Vec Ideal S160 .f32) (x7 : Vec Ideal S80x160 .bf16) (x8 : Vec Ideal S160 .f32) (xo9 xo10 : Vec Ideal S1x3x160 .f32)
    (j : Fin 3) (o : Fin 160) :
    out0_B_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 xo9 xo10 (ix3 (0 : Fin 1) j o)
      = xo9 (ix3 (0 : Fin 1) j o) + ∑ r : Fin 4096, blkH x0 x1 x2 x3 x4 x5 x6 x7 x8 j r o := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xo9 xo10)]
  unfold kernelRun0_B
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S4096x80) hz2, View.ld_unit_zero (S := S80x160) hz2, View.ld_unit_zero (S := S160) hz1]
  refine fin3_cases (P := fun j => View.canon _ (ix3 (0 : Fin 1) j o) = xo9 (ix3 (0 : Fin 1) j o) + ∑ r : Fin 4096, blkH x0 x1 x2 x3 x4 x5 x6 x7 x8 j r o) ?_ ?_ ?_ j
  · refine (canon_row0 _ _ _ [] o).trans ?_
    refine (pay10_apply _ _ o).trans ?_
    exact congrArg₂ (· + ·) ((pay8_apply _ o).trans (ld_row0 xo9 o)) (pay9_apply x0 x3 x4 o)
  · refine (canon_row1 _ _ _ o).trans ?_
    refine (pay11_apply _ _ o).trans ?_
    exact congrArg₂ (· + ·) (ld_row1 xo9 o) (Finset.sum_congr rfl fun r _ => pay6_apply x1 x5 x6 r o)
  · refine (canon_row2 _ _ o).trans ?_
    refine (pay12_apply _ _ o).trans ?_
    exact congrArg₂ (· + ·) (ld_row2 xo9 o) (Finset.sum_congr rfl fun r _ => pay7_apply x2 x7 x8 r o)

theorem pay15_apply (v20 : FVec Ideal S4096x160 .f32) (r : Fin 4096) (o : Fin 160) :
    k0_pay15 (F := Ideal) v20 (ix2 r o) = v20 (ix2 r o) * v20 (ix2 r o) := rfl

theorem outB10_apply (c : Dev nD) (i : grid0.Coords) (arg2 : Memref sig .tc .vmem S4096x80 .f32) (harg2 : arg2.IsWhole) (arg3 : Memref sig .tc .vmem S4096x80 .f32) (harg3 : arg3.IsWhole) (arg4 : Memref sig .tc .vmem S4096x80 .f32) (harg4 : arg4.IsWhole) (arg5 : Memref sig .tc .vmem S80x160 .bf16) (harg5 : arg5.IsWhole) (arg6 : Memref sig .tc .vmem S160 .f32) (harg6 : arg6.IsWhole) (arg7 : Memref sig .tc .vmem S80x160 .bf16) (harg7 : arg7.IsWhole) (arg8 : Memref sig .tc .vmem S160 .f32) (harg8 : arg8.IsWhole) (arg9 : Memref sig .tc .vmem S80x160 .bf16) (harg9 : arg9.IsWhole) (arg10 : Memref sig .tc .vmem S160 .f32) (harg10 : arg10.IsWhole) (arg11 : Memref sig .tc .vmem S1x3x160 .f32) (harg11 : arg11.IsWhole) (arg12 : Memref sig .tc .vmem S1x3x160 .f32) (harg12 : arg12.IsWhole) (hc0 : ¬cond0_0 i) (x0 x1 x2 : Vec Ideal S4096x80 .f32) (x3 : Vec Ideal S80x160 .bf16) (x4 : Vec Ideal S160 .f32) (x5 : Vec Ideal S80x160 .bf16) (x6 : Vec Ideal S160 .f32) (x7 : Vec Ideal S80x160 .bf16) (x8 : Vec Ideal S160 .f32) (xo9 xo10 : Vec Ideal S1x3x160 .f32)
    (j : Fin 3) (o : Fin 160) :
    out0_B_10 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 xo9 xo10 (ix3 (0 : Fin 1) j o)
      = xo10 (ix3 (0 : Fin 1) j o) + ∑ r : Fin 4096, blkH x0 x1 x2 x3 x4 x5 x6 x7 x8 j r o * blkH x0 x1 x2 x3 x4 x5 x6 x7 x8 j r o := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 xo9 xo10)]
  unfold kernelRun0_B
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S4096x80) hz2, View.ld_unit_zero (S := S80x160) hz2, View.ld_unit_zero (S := S160) hz1]
  refine fin3_cases (P := fun j => View.canon _ (ix3 (0 : Fin 1) j o) = xo10 (ix3 (0 : Fin 1) j o) + ∑ r : Fin 4096, blkH x0 x1 x2 x3 x4 x5 x6 x7 x8 j r o * blkH x0 x1 x2 x3 x4 x5 x6 x7 x8 j r o) ?_ ?_ ?_ j
  · refine (canon_row0 _ _ _ [] o).trans ?_
    refine (pay13_apply _ _ o).trans ?_
    exact congrArg₂ (· + ·) (ld_row0 xo10 o)
      (Finset.sum_congr rfl fun r _ => congrArg₂ (· * ·) (pay5_apply x0 x3 x4 r o) (pay5_apply x0 x3 x4 r o))
  · refine (canon_row1 _ _ _ o).trans ?_
    refine (pay1_apply _ _ o).trans ?_
    exact congrArg₂ (· + ·) ((pay14_apply _ o).trans (ld_row1 xo10 o))
      (Finset.sum_congr rfl fun r _ => (pay15_apply _ r o).trans (congrArg₂ (· * ·) (pay6_apply x1 x5 x6 r o) (pay6_apply x1 x5 x6 r o)))
  · refine (canon_row2 _ _ o).trans ?_
    refine (pay2_apply _ _ o).trans ?_
    exact congrArg₂ (· + ·) (ld_row2 xo10 o)
      (Finset.sum_congr rfl fun r _ => congrArg₂ (· * ·) (pay7_apply x2 x7 x8 r o) (pay7_apply x2 x7 x8 r o))

theorem outA9_apply (c : Dev nD) (i : grid0.Coords) (arg2 : Memref sig .tc .vmem S4096x80 .f32) (harg2 : arg2.IsWhole) (arg3 : Memref sig .tc .vmem S4096x80 .f32) (harg3 : arg3.IsWhole) (arg4 : Memref sig .tc .vmem S4096x80 .f32) (harg4 : arg4.IsWhole) (arg5 : Memref sig .tc .vmem S80x160 .bf16) (harg5 : arg5.IsWhole) (arg6 : Memref sig .tc .vmem S160 .f32) (harg6 : arg6.IsWhole) (arg7 : Memref sig .tc .vmem S80x160 .bf16) (harg7 : arg7.IsWhole) (arg8 : Memref sig .tc .vmem S160 .f32) (harg8 : arg8.IsWhole) (arg9 : Memref sig .tc .vmem S80x160 .bf16) (harg9 : arg9.IsWhole) (arg10 : Memref sig .tc .vmem S160 .f32) (harg10 : arg10.IsWhole) (arg11 : Memref sig .tc .vmem S1x3x160 .f32) (harg11 : arg11.IsWhole) (arg12 : Memref sig .tc .vmem S1x3x160 .f32) (harg12 : arg12.IsWhole) (hc0 : cond0_0 i) (x0 x1 x2 : Vec Ideal S4096x80 .f32) (x3 : Vec Ideal S80x160 .bf16) (x4 : Vec Ideal S160 .f32) (x5 : Vec Ideal S80x160 .bf16) (x6 : Vec Ideal S160 .f32) (x7 : Vec Ideal S80x160 .bf16) (x8 : Vec Ideal S160 .f32)
    (j : Fin 3) (o : Fin 160) :
    out0_A_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 (ix3 (0 : Fin 1) j o)
      = 0 + ∑ r : Fin 4096, blkH x0 x1 x2 x3 x4 x5 x6 x7 x8 j r o := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S4096x80) hz2, View.ld_unit_zero (S := S80x160) hz2, View.ld_unit_zero (S := S160) hz1]
  refine fin3_cases (P := fun j => View.canon (Val := Elt Ideal) (s := S1x3x160) (e := .f32) _ (ix3 (0 : Fin 1) j o) = 0 + ∑ r : Fin 4096, blkH x0 x1 x2 x3 x4 x5 x6 x7 x8 j r o) ?_ ?_ ?_ j
  · refine (canon_row0 _ _ _ _ o).trans ?_
    refine (pay10_apply _ _ o).trans ?_
    exact congrArg₂ (· + ·) ((pay8_apply _ o).trans ((read_row0 arg11.view _ o).trans (pay3_apply _))) (pay9_apply x0 x3 x4 o)
  · refine (canon_row1 _ _ _ o).trans ?_
    refine (pay11_apply _ _ o).trans ?_
    exact congrArg₂ (· + ·) ((read_row1 arg11.view _ _ o).trans (pay3_apply _)) (Finset.sum_congr rfl fun r _ => pay6_apply x1 x5 x6 r o)
  · refine (canon_row2 _ _ o).trans ?_
    refine (pay12_apply _ _ o).trans ?_
    exact congrArg₂ (· + ·) ((read_row2 arg11.view _ _ _ o).trans (pay3_apply _)) (Finset.sum_congr rfl fun r _ => pay7_apply x2 x7 x8 r o)

theorem outA10_apply (c : Dev nD) (i : grid0.Coords) (arg2 : Memref sig .tc .vmem S4096x80 .f32) (harg2 : arg2.IsWhole) (arg3 : Memref sig .tc .vmem S4096x80 .f32) (harg3 : arg3.IsWhole) (arg4 : Memref sig .tc .vmem S4096x80 .f32) (harg4 : arg4.IsWhole) (arg5 : Memref sig .tc .vmem S80x160 .bf16) (harg5 : arg5.IsWhole) (arg6 : Memref sig .tc .vmem S160 .f32) (harg6 : arg6.IsWhole) (arg7 : Memref sig .tc .vmem S80x160 .bf16) (harg7 : arg7.IsWhole) (arg8 : Memref sig .tc .vmem S160 .f32) (harg8 : arg8.IsWhole) (arg9 : Memref sig .tc .vmem S80x160 .bf16) (harg9 : arg9.IsWhole) (arg10 : Memref sig .tc .vmem S160 .f32) (harg10 : arg10.IsWhole) (arg11 : Memref sig .tc .vmem S1x3x160 .f32) (harg11 : arg11.IsWhole) (arg12 : Memref sig .tc .vmem S1x3x160 .f32) (harg12 : arg12.IsWhole) (hc0 : cond0_0 i) (x0 x1 x2 : Vec Ideal S4096x80 .f32) (x3 : Vec Ideal S80x160 .bf16) (x4 : Vec Ideal S160 .f32) (x5 : Vec Ideal S80x160 .bf16) (x6 : Vec Ideal S160 .f32) (x7 : Vec Ideal S80x160 .bf16) (x8 : Vec Ideal S160 .f32)
    (j : Fin 3) (o : Fin 160) :
    out0_A_10 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 (ix3 (0 : Fin 1) j o)
      = 0 + ∑ r : Fin 4096, blkH x0 x1 x2 x3 x4 x5 x6 x7 x8 j r o * blkH x0 x1 x2 x3 x4 x5 x6 x7 x8 j r o := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S4096x80) hz2, View.ld_unit_zero (S := S80x160) hz2, View.ld_unit_zero (S := S160) hz1]
  refine fin3_cases (P := fun j => View.canon (Val := Elt Ideal) (s := S1x3x160) (e := .f32) _ (ix3 (0 : Fin 1) j o) = 0 + ∑ r : Fin 4096, blkH x0 x1 x2 x3 x4 x5 x6 x7 x8 j r o * blkH x0 x1 x2 x3 x4 x5 x6 x7 x8 j r o) ?_ ?_ ?_ j
  · refine (canon_row0 _ _ _ _ o).trans ?_
    refine (pay13_apply _ _ o).trans ?_
    exact congrArg₂ (· + ·) ((read_row0 arg12.view _ o).trans (pay4_apply _))
      (Finset.sum_congr rfl fun r _ => congrArg₂ (· * ·) (pay5_apply x0 x3 x4 r o) (pay5_apply x0 x3 x4 r o))
  · refine (canon_row1 _ _ _ o).trans ?_
    refine (pay1_apply _ _ o).trans ?_
    exact congrArg₂ (· + ·) ((pay14_apply _ o).trans ((read_row1 arg12.view _ _ o).trans (pay4_apply _)))
      (Finset.sum_congr rfl fun r _ => (pay15_apply _ r o).trans (congrArg₂ (· * ·) (pay6_apply x1 x5 x6 r o) (pay6_apply x1 x5 x6 r o)))
  · refine (canon_row2 _ _ o).trans ?_
    refine (pay2_apply _ _ o).trans ?_
    exact congrArg₂ (· + ·) ((read_row2 arg12.view _ _ _ o).trans (pay4_apply _))
      (Finset.sum_congr rfl fun r _ => congrArg₂ (· * ·) (pay7_apply x2 x7 x8 r o) (pay7_apply x2 x7 x8 r o))

/-! ## The blocks a point holds, as rows of the arrays the region is entered with

Point t = c'·32 + i of the grid holds rows (c'·32 + i)·4096 … +4095 of sub, left and right — row r of the block is row
`rowOf c' i r` of the array —, and the whole of each transposed weight matrix and each bias. -/

section Blocks

variable (V : (c : Dev nD) → (b : Ref sig .tc) → Buf (Elt Ideal) ((c : Thread nD τ).loc b))

/-- Branch j's linear layer over the whole arrays: j = 0, 1, 2 is sub, left, right. -/
def hsel (c : Dev nD) : Fin 3 → Fin 262144 → Fin 160 → EReal
  | 0 => Cert.Spec.linT (V c main_arg0) (V c main_v1) (V c main_arg4)
  | 1 => Cert.Spec.linT (V c main_arg1) (V c main_v3) (V c main_arg8)
  | 2 => Cert.Spec.linT (V c main_arg2) (V c main_v5) (V c main_arg12)

/-- The windows' index maps at each of the 64 points: the data windows' block row is the point's number, the
    weights' and biases' blocks never move, and the accumulators' block is the point's half. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 3) = t.val / 32 ∧ win0_9.index t (1 : Fin 3) = 0 ∧ win0_9.index t (2 : Fin 3) = 0)
    ∧ (win0_10.index t (0 : Fin 3) = t.val / 32 ∧ win0_10.index t (1 : Fin 3) = 0 ∧ win0_10.index t (2 : Fin 3) = 0) :=
  (by decide +kernel : ∀ t : Fin grid0.N, _)

theorem blk0_read (c : Dev nD) (t : Fin cfg0.N) (c' : Fin 2) (i : Fin 32) (ht : t.val = c'.val * 32 + i.val) (r : Fin 4096) (k : Fin 80) :
    iblk0 (F := Ideal) V c 0 t (ix2 r k) = V c main_arg0 (ix2 (Cert.Spec.rowOf c' i r) k) := by
  obtain ⟨⟨e0, e1⟩, -⟩ := idx_facts t
  show V c main_arg0 (((cfg0.win 0).blk t).view.emb (ix2 r k)) = _
  refine congrArg (V c main_arg0) (funext fun a => Fin.ext ?_)
  match a with
  | ⟨0, _⟩ => show win0_0.index t (0 : Fin 2) * 4096 + 1 * r.val = c'.val * 131072 + i.val * 4096 + r.val; omega
  | ⟨1, _⟩ => show win0_0.index t (1 : Fin 2) * 80 + 1 * k.val = k.val; omega

theorem blk1_read (c : Dev nD) (t : Fin cfg0.N) (c' : Fin 2) (i : Fin 32) (ht : t.val = c'.val * 32 + i.val) (r : Fin 4096) (k : Fin 80) :
    iblk0 (F := Ideal) V c 1 t (ix2 r k) = V c main_arg1 (ix2 (Cert.Spec.rowOf c' i r) k) := by
  obtain ⟨-, ⟨e0, e1⟩, -⟩ := idx_facts t
  show V c main_arg1 (((cfg0.win 1).blk t).view.emb (ix2 r k)) = _
  refine congrArg (V c main_arg1) (funext fun a => Fin.ext ?_)
  match a with
  | ⟨0, _⟩ => show win0_1.index t (0 : Fin 2) * 4096 + 1 * r.val = c'.val * 131072 + i.val * 4096 + r.val; omega
  | ⟨1, _⟩ => show win0_1.index t (1 : Fin 2) * 80 + 1 * k.val = k.val; omega

theorem blk2_read (c : Dev nD) (t : Fin cfg0.N) (c' : Fin 2) (i : Fin 32) (ht : t.val = c'.val * 32 + i.val) (r : Fin 4096) (k : Fin 80) :
    iblk0 (F := Ideal) V c 2 t (ix2 r k) = V c main_arg2 (ix2 (Cert.Spec.rowOf c' i r) k) := by
  obtain ⟨-, -, ⟨e0, e1⟩, -⟩ := idx_facts t
  show V c main_arg2 (((cfg0.win 2).blk t).view.emb (ix2 r k)) = _
  refine congrArg (V c main_arg2) (funext fun a => Fin.ext ?_)
  match a with
  | ⟨0, _⟩ => show win0_2.index t (0 : Fin 2) * 4096 + 1 * r.val = c'.val * 131072 + i.val * 4096 + r.val; omega
  | ⟨1, _⟩ => show win0_2.index t (1 : Fin 2) * 80 + 1 * k.val = k.val; omega

theorem blk3_read (c : Dev nD) (t : Fin cfg0.N) (k : Fin 80) (o : Fin 160) :
    iblk0 (F := Ideal) V c 3 t (ix2 k o) = V c main_v1 (ix2 k o) := by
  obtain ⟨-, -, -, ⟨e0, e1⟩, -⟩ := idx_facts t
  show V c main_v1 (((cfg0.win 3).blk t).view.emb (ix2 k o)) = _
  refine congrArg (V c main_v1) (funext fun a => Fin.ext ?_)
  match a with
  | ⟨0, _⟩ => show win0_3.index t (0 : Fin 2) * 80 + 1 * k.val = k.val; omega
  | ⟨1, _⟩ => show win0_3.index t (1 : Fin 2) * 160 + 1 * o.val = o.val; omega

theorem blk5_read (c : Dev nD) (t : Fin cfg0.N) (k : Fin 80) (o : Fin 160) :
    iblk0 (F := Ideal) V c 5 t (ix2 k o) = V c main_v3 (ix2 k o) := by
  obtain ⟨-, -, -, -, -, ⟨e0, e1⟩, -⟩ := idx_facts t
  show V c main_v3 (((cfg0.win 5).blk t).view.emb (ix2 k o)) = _
  refine congrArg (V c main_v3) (funext fun a => Fin.ext ?_)
  match a with
  | ⟨0, _⟩ => show win0_5.index t (0 : Fin 2) * 80 + 1 * k.val = k.val; omega
  | ⟨1, _⟩ => show win0_5.index t (1 : Fin 2) * 160 + 1 * o.val = o.val; omega

theorem blk7_read (c : Dev nD) (t : Fin cfg0.N) (k : Fin 80) (o : Fin 160) :
    iblk0 (F := Ideal) V c 7 t (ix2 k o) = V c main_v5 (ix2 k o) := by
  obtain ⟨-, -, -, -, -, -, -, ⟨e0, e1⟩, -⟩ := idx_facts t
  show V c main_v5 (((cfg0.win 7).blk t).view.emb (ix2 k o)) = _
  refine congrArg (V c main_v5) (funext fun a => Fin.ext ?_)
  match a with
  | ⟨0, _⟩ => show win0_7.index t (0 : Fin 2) * 80 + 1 * k.val = k.val; omega
  | ⟨1, _⟩ => show win0_7.index t (1 : Fin 2) * 160 + 1 * o.val = o.val; omega

theorem blk4_read (c : Dev nD) (t : Fin cfg0.N) (o : Fin 160) :
    iblk0 (F := Ideal) V c 4 t (ix1 o) = V c main_arg4 (ix1 o) := by
  obtain ⟨-, -, -, -, e0, -⟩ := idx_facts t
  show V c main_arg4 (((cfg0.win 4).blk t).view.emb (ix1 o)) = _
  refine congrArg (V c main_arg4) (funext fun a => Fin.ext ?_)
  match a with
  | ⟨0, _⟩ => show win0_4.index t (0 : Fin 1) * 160 + 1 * o.val = o.val; omega

theorem blk6_read (c : Dev nD) (t : Fin cfg0.N) (o : Fin 160) :
    iblk0 (F := Ideal) V c 6 t (ix1 o) = V c main_arg8 (ix1 o) := by
  obtain ⟨-, -, -, -, -, -, e0, -⟩ := idx_facts t
  show V c main_arg8 (((cfg0.win 6).blk t).view.emb (ix1 o)) = _
  refine congrArg (V c main_arg8) (funext fun a => Fin.ext ?_)
  match a with
  | ⟨0, _⟩ => show win0_6.index t (0 : Fin 1) * 160 + 1 * o.val = o.val; omega

theorem blk8_read (c : Dev nD) (t : Fin cfg0.N) (o : Fin 160) :
    iblk0 (F := Ideal) V c 8 t (ix1 o) = V c main_arg12 (ix1 o) := by
  obtain ⟨-, -, -, -, -, -, -, -, e0, -⟩ := idx_facts t
  show V c main_arg12 (((cfg0.win 8).blk t).view.emb (ix1 o)) = _
  refine congrArg (V c main_arg12) (funext fun a => Fin.ext ?_)
  match a with
  | ⟨0, _⟩ => show win0_8.index t (0 : Fin 1) * 160 + 1 * o.val = o.val; omega

/-- So the three branches' layers on point t's blocks are the branches' layers on the arrays, at the block's rows. -/
theorem blkH_eq (c : Dev nD) (t : Fin cfg0.N) (c' : Fin 2) (i : Fin 32) (ht : t.val = c'.val * 32 + i.val)
    (j : Fin 3) (r : Fin 4096) (o : Fin 160) :
    blkH (iblk0 V c 0 t) (iblk0 V c 1 t) (iblk0 V c 2 t) (iblk0 V c 3 t) (iblk0 V c 4 t) (iblk0 V c 5 t) (iblk0 V c 6 t) (iblk0 V c 7 t) (iblk0 V c 8 t) j r o = hsel V c j (Cert.Spec.rowOf c' i r) o := by
  refine fin3_cases (P := fun j => blkH (iblk0 V c 0 t) (iblk0 V c 1 t) (iblk0 V c 2 t) (iblk0 V c 3 t) (iblk0 V c 4 t) (iblk0 V c 5 t) (iblk0 V c 6 t) (iblk0 V c 7 t) (iblk0 V c 8 t) j r o = hsel V c j (Cert.Spec.rowOf c' i r) o) ?_ ?_ ?_ j
  · exact congrArg₂ (· + ·)
      (Finset.sum_congr rfl fun k _ => congrArg₂ (· * ·) (blk0_read V c t c' i ht r k) (blk3_read V c t k o)) (blk4_read V c t o)
  · exact congrArg₂ (· + ·)
      (Finset.sum_congr rfl fun k _ => congrArg₂ (· * ·) (blk1_read V c t c' i ht r k) (blk5_read V c t k o)) (blk6_read V c t o)
  · exact congrArg₂ (· + ·)
      (Finset.sum_congr rfl fun k _ => congrArg₂ (· * ·) (blk2_read V c t c' i ht r k) (blk7_read V c t k o)) (blk8_read V c t o)

/-! ## One point's step, on the carried blocks -/

/-- The first point of a half leaves, at (0, j, o) of the first block, zero plus its block's column sums of branch j; -/
theorem stepA9 (c : Dev nD) (t : Fin cfg0.N) (h0 : t.val % 32 = 0) (j : Fin 3) (o : Fin 160) :
    (outsAt0 (F := Ideal) V c t.val t.isLt).1 (ix3 (0 : Fin 1) j o) = 0 + ∑ r : Fin 4096, blkH (iblk0 V c 0 t) (iblk0 V c 1 t) (iblk0 V c 2 t) (iblk0 V c 3 t) (iblk0 V c 4 t) (iblk0 V c 5 t) (iblk0 V c 6 t) (iblk0 V c 7 t) (iblk0 V c 8 t) j r o := by
  rw [outsAt0_A V c t h0]
  dsimp only
  exact outA9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) j o

/-- and, of the second block, zero plus the column sums of its square. -/
theorem stepA10 (c : Dev nD) (t : Fin cfg0.N) (h0 : t.val % 32 = 0) (j : Fin 3) (o : Fin 160) :
    (outsAt0 (F := Ideal) V c t.val t.isLt).2 (ix3 (0 : Fin 1) j o)
      = 0 + ∑ r : Fin 4096, blkH (iblk0 V c 0 t) (iblk0 V c 1 t) (iblk0 V c 2 t) (iblk0 V c 3 t) (iblk0 V c 4 t) (iblk0 V c 5 t) (iblk0 V c 6 t) (iblk0 V c 7 t) (iblk0 V c 8 t) j r o * blkH (iblk0 V c 0 t) (iblk0 V c 1 t) (iblk0 V c 2 t) (iblk0 V c 3 t) (iblk0 V c 4 t) (iblk0 V c 5 t) (iblk0 V c 6 t) (iblk0 V c 7 t) (iblk0 V c 8 t) j r o := by
  rw [outsAt0_A V c t h0]
  dsimp only
  exact outA10_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) j o

/-- Every other point adds the same sums to what the point before left. -/
theorem stepB9 (c : Dev nD) (t : Fin cfg0.N) (h0 : ¬t.val % 32 = 0) (hp : t.val - 1 < cfg0.N) (j : Fin 3) (o : Fin 160) :
    (outsAt0 (F := Ideal) V c t.val t.isLt).1 (ix3 (0 : Fin 1) j o)
      = (outsAt0 (F := Ideal) V c (t.val - 1) hp).1 (ix3 (0 : Fin 1) j o) + ∑ r : Fin 4096, blkH (iblk0 V c 0 t) (iblk0 V c 1 t) (iblk0 V c 2 t) (iblk0 V c 3 t) (iblk0 V c 4 t) (iblk0 V c 5 t) (iblk0 V c 6 t) (iblk0 V c 7 t) (iblk0 V c 8 t) j r o := by
  rw [outsAt0_B V c t h0]
  dsimp only
  exact outB9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)
    (outsAt0 V c (t.val - 1) hp).1 (outsAt0 V c (t.val - 1) hp).2 j o

theorem stepB10 (c : Dev nD) (t : Fin cfg0.N) (h0 : ¬t.val % 32 = 0) (hp : t.val - 1 < cfg0.N) (j : Fin 3) (o : Fin 160) :
    (outsAt0 (F := Ideal) V c t.val t.isLt).2 (ix3 (0 : Fin 1) j o)
      = (outsAt0 (F := Ideal) V c (t.val - 1) hp).2 (ix3 (0 : Fin 1) j o)
        + ∑ r : Fin 4096, blkH (iblk0 V c 0 t) (iblk0 V c 1 t) (iblk0 V c 2 t) (iblk0 V c 3 t) (iblk0 V c 4 t) (iblk0 V c 5 t) (iblk0 V c 6 t) (iblk0 V c 7 t) (iblk0 V c 8 t) j r o * blkH (iblk0 V c 0 t) (iblk0 V c 1 t) (iblk0 V c 2 t) (iblk0 V c 3 t) (iblk0 V c 4 t) (iblk0 V c 5 t) (iblk0 V c 6 t) (iblk0 V c 7 t) (iblk0 V c 8 t) j r o := by
  rw [outsAt0_B V c t h0]
  dsimp only
  exact outB10_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)
    (outsAt0 V c (t.val - 1) hp).1 (outsAt0 V c (t.val - 1) hp).2 j o

/-! ## The running totals -/

theorem acc_succ (f : Fin 262144 → EReal) (c' : Fin 2) (k : ℕ) (hk : k < 32) :
    Cert.Spec.acc f c' (k + 1) = Cert.Spec.acc f c' k + ∑ r : Fin 4096, f (Cert.Spec.rowOf c' ⟨k, hk⟩ r) := by
  show Cert.Spec.acc f c' k + (if hk : k < 32 then Cert.Spec.blockSum f c' ⟨k, hk⟩ else 0) = _
  rw [dif_pos hk]
  rfl

/-- THE INVARIANT. After point c'·32 + i the two carried blocks hold, at (0, j, o), the totals of branch j's layer and of
    its square over the first i + 1 blocks of half c': the first point of the half starts from zeros, every later one adds
    its block's column sums to what the point before left. By induction on i. -/
theorem totals (c : Dev nD) (c' : Fin 2) (j : Fin 3) (o : Fin 160) :
    ∀ (i : ℕ) (hi : i < 32) (n : ℕ) (hn : n < cfg0.N), n = c'.val * 32 + i →
      (outsAt0 (F := Ideal) V c n hn).1 (ix3 (0 : Fin 1) j o) = Cert.Spec.acc (fun m => hsel V c j m o) c' (i + 1)
      ∧ (outsAt0 (F := Ideal) V c n hn).2 (ix3 (0 : Fin 1) j o)
          = Cert.Spec.acc (fun m => hsel V c j m o * hsel V c j m o) c' (i + 1)
  | 0, hi, n, hn, e => by
    have h0 : (⟨n, hn⟩ : Fin cfg0.N).val % 32 = 0 := by show n % 32 = 0; omega
    have ht : (⟨n, hn⟩ : Fin cfg0.N).val = c'.val * 32 + (⟨0, hi⟩ : Fin 32).val := e
    constructor
    · refine (stepA9 V c ⟨n, hn⟩ h0 j o).trans ?_
      rw [acc_succ _ c' 0 hi]
      exact congrArg₂ (· + ·) rfl (Finset.sum_congr rfl fun r _ => blkH_eq V c ⟨n, hn⟩ c' ⟨0, hi⟩ ht j r o)
    · refine (stepA10 V c ⟨n, hn⟩ h0 j o).trans ?_
      rw [acc_succ _ c' 0 hi]
      exact congrArg₂ (· + ·) rfl (Finset.sum_congr rfl fun r _ =>
        congrArg₂ (· * ·) (blkH_eq V c ⟨n, hn⟩ c' ⟨0, hi⟩ ht j r o) (blkH_eq V c ⟨n, hn⟩ c' ⟨0, hi⟩ ht j r o))
  | i + 1, hi, n, hn, e => by
    have h0 : ¬(⟨n, hn⟩ : Fin cfg0.N).val % 32 = 0 := by show ¬n % 32 = 0; omega
    have ht : (⟨n, hn⟩ : Fin cfg0.N).val = c'.val * 32 + (⟨i + 1, hi⟩ : Fin 32).val := e
    have hp : n - 1 < cfg0.N := Nat.lt_of_le_of_lt (Nat.sub_le _ _) hn
    have IH := totals c c' j o i (Nat.lt_of_succ_lt hi) (n - 1) hp (by omega)
    constructor
    · refine (stepB9 V c ⟨n, hn⟩ h0 hp j o).trans ?_
      rw [acc_succ _ c' (i + 1) hi]
      exact congrArg₂ (· + ·) IH.1 (Finset.sum_congr rfl fun r _ => blkH_eq V c ⟨n, hn⟩ c' ⟨i + 1, hi⟩ ht j r o)
    · refine (stepB10 V c ⟨n, hn⟩ h0 hp j o).trans ?_
      rw [acc_succ _ c' (i + 1) hi]
      exact congrArg₂ (· + ·) IH.2 (Finset.sum_congr rfl fun r _ =>
        congrArg₂ (· * ·) (blkH_eq V c ⟨n, hn⟩ c' ⟨i + 1, hi⟩ ht j r o) (blkH_eq V c ⟨n, hn⟩ c' ⟨i + 1, hi⟩ ht j r o))

/-! ## The two result arrays

Block c' of either [2, 3, 160] array is revisited by the 32 points of half c' and written back once, after the last of
them; the two blocks cover the array. So entry (c', j, o) ends at the 32-block total of half c'. -/

/-- What the array of sums ends holding: at (c', j, o) the total of branch j's layer at feature o over half c'. -/
def sumsArr (c : Dev nD) : S2x3x160.Idx → EReal :=
  fun y => Cert.Spec.acc (fun m => hsel V c (y 1) m (y 2)) (y 0) 32

/-- What the array of sums of squares ends holding. -/
def sumsqArr (c : Dev nD) : S2x3x160.Idx → EReal :=
  fun y => Cert.Spec.acc (fun m => hsel V c (y 1) m (y 2) * hsel V c (y 1) m (y 2)) (y 0) 32

/-- An index of a [1, 3, 160] block is (0, j, o). -/
theorem exists_ix3 (y : S1x3x160.Idx) : ∃ (j : Fin 3) (o : Fin 160), y = ix3 (0 : Fin 1) j o :=
  ⟨y 1, y 2, by
    funext a
    match a with
    | ⟨0, _⟩ => exact Fin.ext (by have : (y 0).val < 1 := (y 0).isLt; show (y 0).val = 0; omega)
    | ⟨1, _⟩ => rfl
    | ⟨2, _⟩ => rfl⟩

/-- What point t writes back of window 9, when it writes back, is its block of `sumsArr`: the point is the last of its half
    (t ≡ 31 mod 32), its carried block holds the half's 32-block totals, and the block it writes is block t / 32. -/
theorem flushed9_eq (c : Dev nD) (t : Fin cfg0.N) (hf : (cfg0.win 9).flush t = true) :
    (dat0 (F := Ideal) V c).flushed 9 t = ((cfg0.win 9).blk t).view.read (Elt Ideal) (sumsArr V c) := by
  have h31 : t.val % 32 = 31 := (flush0_9 t).mp hf
  have hN : t.val < 64 := lt_of_lt_of_eq t.isLt (show cfg0.N = 64 from N_0)
  obtain ⟨-, -, -, -, -, -, -, -, -, ⟨d0, d1, d2⟩, ⟨e0, e1, e2⟩⟩ := idx_facts t
  show (cfg0.win 9).cut (grid0.coords t) ((dat0 V c).after 9 t) = _
  rw [after0_9]
  funext y
  obtain ⟨j, o, rfl⟩ := exists_ix3 y
  have he : ((cfg0.win 9).blk t).view.emb (ix3 (0 : Fin 1) j o) = ix3 (⟨t.val / 32, by omega⟩ : Fin 2) j o := by
    funext a; apply Fin.ext
    match a with
    | ⟨0, _⟩ => show win0_9.index t (0 : Fin 3) * 1 + 1 * 0 = t.val / 32; omega
    | ⟨1, _⟩ => show win0_9.index t (1 : Fin 3) * 3 + 1 * j.val = j.val; omega
    | ⟨2, _⟩ => show win0_9.index t (2 : Fin 3) * 160 + 1 * o.val = o.val; omega
  show (outsAt0 V c t.val t.isLt).1 (ix3 (0 : Fin 1) j o) = sumsArr V c (((cfg0.win 9).blk t).view.emb (ix3 (0 : Fin 1) j o))
  rw [he]
  exact (totals V c ⟨t.val / 32, by omega⟩ j o 31 (by decide) t.val t.isLt (by show t.val = t.val / 32 * 32 + 31; omega)).1

/-- An index of the [2, 3, 160] array is in point t's block iff each coordinate is in the block's range on its axis. -/
theorem mem_blk9 (t : Fin cfg0.N) (y : S2x3x160.Idx) :
    y ∈ ((cfg0.win 9).blk t).view.set ↔ ∀ a : Fin 3, win0_9.index t a * S1x3x160.size a ≤ (y a).val
      ∧ (y a).val < win0_9.index t a * S1x3x160.size a + S1x3x160.size a := by
  show y ∈ ((View.whole main_v6_0).slice (win0_9.rect t)).set ↔ _
  rw [View.set_slice_whole, Rect.mem_set_unit]
  exact Iff.rfl

/-- Every index (c', j, o) of the array is written back by the last point of half c'. -/
theorem cover9 (y : S2x3x160.Idx) : ∃ t : Fin cfg0.N, (cfg0.win 9).flush t = true ∧ y ∈ ((cfg0.win 9).blk t).view.set := by
  have h0 : (y 0).val < 2 := (y 0).isLt
  have h1 : (y 1).val < 3 := (y 1).isLt
  have h2 : (y 2).val < 160 := (y 2).isLt
  have hN : cfg0.N = 64 := N_0
  have hb : (y 0).val * 32 + 31 < cfg0.N := by omega
  obtain ⟨-, -, -, -, -, -, -, -, -, ⟨d0, d1, d2⟩, ⟨e0, e1, e2⟩⟩ := idx_facts ⟨(y 0).val * 32 + 31, hb⟩
  have hv : (⟨(y 0).val * 32 + 31, hb⟩ : Fin cfg0.N).val = (y 0).val * 32 + 31 := rfl
  refine ⟨⟨(y 0).val * 32 + 31, hb⟩, (flush0_9 _).mpr (by show ((y 0).val * 32 + 31) % 32 = 31; omega), ?_⟩
  rw [mem_blk9]
  intro a
  match a with
  | ⟨0, _⟩ =>
    show win0_9.index ⟨(y 0).val * 32 + 31, hb⟩ (0 : Fin 3) * 1 ≤ (y 0).val
      ∧ (y 0).val < win0_9.index ⟨(y 0).val * 32 + 31, hb⟩ (0 : Fin 3) * 1 + 1
    omega
  | ⟨1, _⟩ =>
    show win0_9.index ⟨(y 0).val * 32 + 31, hb⟩ (1 : Fin 3) * 3 ≤ (y 1).val
      ∧ (y 1).val < win0_9.index ⟨(y 0).val * 32 + 31, hb⟩ (1 : Fin 3) * 3 + 3
    omega
  | ⟨2, _⟩ =>
    show win0_9.index ⟨(y 0).val * 32 + 31, hb⟩ (2 : Fin 3) * 160 ≤ (y 2).val
      ∧ (y 2).val < win0_9.index ⟨(y 0).val * 32 + 31, hb⟩ (2 : Fin 3) * 160 + 160
    omega

/-- So the array ends holding `sumsArr`. -/
theorem final9 (c : Dev nD) : (dat0 (F := Ideal) V c).arrAt 9 cfg0.N = sumsArr V c :=
  (dat0 V c).arrAt_eq_of_cover 9 (sumsArr V c) (flushed9_eq V c) cover9

/-- What point t writes back of window 10, when it writes back, is its block of `sumsqArr`: the point is the last of its half
    (t ≡ 31 mod 32), its carried block holds the half's 32-block totals, and the block it writes is block t / 32. -/
theorem flushed10_eq (c : Dev nD) (t : Fin cfg0.N) (hf : (cfg0.win 10).flush t = true) :
    (dat0 (F := Ideal) V c).flushed 10 t = ((cfg0.win 10).blk t).view.read (Elt Ideal) (sumsqArr V c) := by
  have h31 : t.val % 32 = 31 := (flush0_10 t).mp hf
  have hN : t.val < 64 := lt_of_lt_of_eq t.isLt (show cfg0.N = 64 from N_0)
  obtain ⟨-, -, -, -, -, -, -, -, -, ⟨d0, d1, d2⟩, ⟨e0, e1, e2⟩⟩ := idx_facts t
  show (cfg0.win 10).cut (grid0.coords t) ((dat0 V c).after 10 t) = _
  rw [after0_10]
  funext y
  obtain ⟨j, o, rfl⟩ := exists_ix3 y
  have he : ((cfg0.win 10).blk t).view.emb (ix3 (0 : Fin 1) j o) = ix3 (⟨t.val / 32, by omega⟩ : Fin 2) j o := by
    funext a; apply Fin.ext
    match a with
    | ⟨0, _⟩ => show win0_10.index t (0 : Fin 3) * 1 + 1 * 0 = t.val / 32; omega
    | ⟨1, _⟩ => show win0_10.index t (1 : Fin 3) * 3 + 1 * j.val = j.val; omega
    | ⟨2, _⟩ => show win0_10.index t (2 : Fin 3) * 160 + 1 * o.val = o.val; omega
  show (outsAt0 V c t.val t.isLt).2 (ix3 (0 : Fin 1) j o) = sumsqArr V c (((cfg0.win 10).blk t).view.emb (ix3 (0 : Fin 1) j o))
  rw [he]
  exact (totals V c ⟨t.val / 32, by omega⟩ j o 31 (by decide) t.val t.isLt (by show t.val = t.val / 32 * 32 + 31; omega)).2

/-- An index of the [2, 3, 160] array is in point t's block iff each coordinate is in the block's range on its axis. -/
theorem mem_blk10 (t : Fin cfg0.N) (y : S2x3x160.Idx) :
    y ∈ ((cfg0.win 10).blk t).view.set ↔ ∀ a : Fin 3, win0_10.index t a * S1x3x160.size a ≤ (y a).val
      ∧ (y a).val < win0_10.index t a * S1x3x160.size a + S1x3x160.size a := by
  show y ∈ ((View.whole main_v6_1).slice (win0_10.rect t)).set ↔ _
  rw [View.set_slice_whole, Rect.mem_set_unit]
  exact Iff.rfl

/-- Every index (c', j, o) of the array is written back by the last point of half c'. -/
theorem cover10 (y : S2x3x160.Idx) : ∃ t : Fin cfg0.N, (cfg0.win 10).flush t = true ∧ y ∈ ((cfg0.win 10).blk t).view.set := by
  have h0 : (y 0).val < 2 := (y 0).isLt
  have h1 : (y 1).val < 3 := (y 1).isLt
  have h2 : (y 2).val < 160 := (y 2).isLt
  have hN : cfg0.N = 64 := N_0
  have hb : (y 0).val * 32 + 31 < cfg0.N := by omega
  obtain ⟨-, -, -, -, -, -, -, -, -, ⟨d0, d1, d2⟩, ⟨e0, e1, e2⟩⟩ := idx_facts ⟨(y 0).val * 32 + 31, hb⟩
  have hv : (⟨(y 0).val * 32 + 31, hb⟩ : Fin cfg0.N).val = (y 0).val * 32 + 31 := rfl
  refine ⟨⟨(y 0).val * 32 + 31, hb⟩, (flush0_10 _).mpr (by show ((y 0).val * 32 + 31) % 32 = 31; omega), ?_⟩
  rw [mem_blk10]
  intro a
  match a with
  | ⟨0, _⟩ =>
    show win0_10.index ⟨(y 0).val * 32 + 31, hb⟩ (0 : Fin 3) * 1 ≤ (y 0).val
      ∧ (y 0).val < win0_10.index ⟨(y 0).val * 32 + 31, hb⟩ (0 : Fin 3) * 1 + 1
    omega
  | ⟨1, _⟩ =>
    show win0_10.index ⟨(y 0).val * 32 + 31, hb⟩ (1 : Fin 3) * 3 ≤ (y 1).val
      ∧ (y 1).val < win0_10.index ⟨(y 0).val * 32 + 31, hb⟩ (1 : Fin 3) * 3 + 3
    omega
  | ⟨2, _⟩ =>
    show win0_10.index ⟨(y 0).val * 32 + 31, hb⟩ (2 : Fin 3) * 160 ≤ (y 2).val
      ∧ (y 2).val < win0_10.index ⟨(y 0).val * 32 + 31, hb⟩ (2 : Fin 3) * 160 + 160
    omega

/-- So the array ends holding `sumsqArr`. -/
theorem final10 (c : Dev nD) : (dat0 (F := Ideal) V c).arrAt 10 cfg0.N = sumsqArr V c :=
  (dat0 V c).arrAt_eq_of_cover 10 (sumsqArr V c) (flushed10_eq V c) cover10

/-- REGION 0's FIRST RESULT: entry (c', j, o) of the array of sums is the total over the 32 blocks of half c' of branch
    j's linear layer at feature o — for any contents `V` the region is entered with. -/
theorem sums_eq (c : Dev nD) (c' : Fin 2) (j : Fin 3) (o : Fin 160) :
    (dat0 (F := Ideal) V c).arrAt 9 cfg0.N (ix3 c' j o) = Cert.Spec.acc (fun n => hsel V c j n o) c' 32 :=
  congrFun (final9 V c) (ix3 c' j o)

/-- REGION 0's SECOND RESULT: entry (c', j, o) of the array of sums of squares is the same total of the layer's square. -/
theorem sumsq_eq (c : Dev nD) (c' : Fin 2) (j : Fin 3) (o : Fin 160) :
    (dat0 (F := Ideal) V c).arrAt 10 cfg0.N (ix3 c' j o)
      = Cert.Spec.acc (fun n => hsel V c j n o * hsel V c j n o) c' 32 :=
  congrFun (final10 V c) (ix3 c' j o)

end Blocks

end Cert.KernelIdeal.StatsValue
end
-- ==== Proof.lean ====
/-
  The claim: the two-pass kernel and its reference compute the same array, on the extended reals, from finite inputs.

  Both programs compute, per branch, a linear layer h = x · Wᵀ + b, normalise each of its columns by the column's mean
  and variance over all N rows, take the three row-wise inner products of the normalised features, and mix the rows of
  the three inputs with the softmax of those three numbers (Proof/Spec.lean). The reference takes the variance as the
  mean of the squared deviations from the mean. The kernel makes one pass that accumulates, blockwise and in two
  halves, the column sums of h and of h², forms mean and variance = mean square − mean² on the host, and a second
  pass that does the rest block by block.

  The kernel's value is read off its run (Proof/KRun.lean) region by region: the first region's totals
  (Proof/StatsValue.lean), the host arithmetic between the regions (Proof/KHost.lean), the second region's blocks
  (Proof/CombineValue.lean), put together in Proof/KValue.lean. The reference's value is its run's term read index by
  index (Proof/RefValue.lean). The two agree because regrouping a sum changes nothing and, the inputs being finite
  (Proof/Finite.lean), every h is a real number, where E[(h − μ)²] = E[h²] − μ² (Proof/StatsLaw.lean).

  The three frames are the programs' runs with the value dropped, and the idealization rewrote nothing.
-/
import proofs.«144679_j65463891525764_2_alg».proof.Defs
import proofs.«144679_j65463891525764_2_alg».proof.Proof.Gen.Kernel
import proofs.«144679_j65463891525764_2_alg».proof.Proof.Gen.Kernel.Skeleton
import proofs.«144679_j65463891525764_2_alg».proof.Proof.Gen.Kernel.Launch
import proofs.«144679_j65463891525764_2_alg».proof.Proof.Gen.Kernel.Points
import proofs.«144679_j65463891525764_2_alg».proof.Proof.Gen.Kernel.Frame
import proofs.«144679_j65463891525764_2_alg».proof.Proof.Gen.KernelIdeal
import proofs.«144679_j65463891525764_2_alg».proof.Proof.Gen.KernelIdeal.Skeleton
import proofs.«144679_j65463891525764_2_alg».proof.Proof.Gen.KernelIdeal.Launch
import proofs.«144679_j65463891525764_2_alg».proof.Proof.Gen.KernelIdeal.Points
import proofs.«144679_j65463891525764_2_alg».proof.Proof.Gen.KernelIdeal.Frame
import proofs.«144679_j65463891525764_2_alg».proof.Proof.Gen.ReferenceIdeal
import proofs.«144679_j65463891525764_2_alg».proof.Proof.Gen.ReferenceIdeal.Run
import proofs.«144679_j65463891525764_2_alg».proof.Proof.Gen.Pre_finite_inputs
import proofs.«144679_j65463891525764_2_alg».proof.Proof.KValue
import proofs.«144679_j65463891525764_2_alg».proof.Proof.Finite
import proofs.«144679_j65463891525764_2_alg».proof.Proof.RefValue
import proofs.«144679_j65463891525764_2_alg».proof.Proof.CombineValue
import proofs.«144679_j65463891525764_2_alg».proof.Proof.StatsValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, with its result dropped, is its frame. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- The two idealized programs, run from memories that agree on the arguments, end with the same result array.
    The kernel's is the specification with the statistics taken blockwise, the reference's the specification with
    them taken the usual way; on the finite inputs the precondition grants, the two are one function. -/
theorem algebraic : Cert.algebraic_KernelIdeal_ReferenceIdeal := by
  intro m ρ m' ρ' hpre hagree
  refine ⟨fun c => Cert.Spec.full Cert.Spec.muK Cert.Spec.varK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c => ⟨(h c).1.trans (Cert.KernelIdeal.KValue.W4_value m ρ c
        (fun c' o => Cert.KernelIdeal.StatsValue.sums_eq _ c c' 0 o) (fun c' o => Cert.KernelIdeal.StatsValue.sumsq_eq _ c c' 0 o)
        (fun c' o => Cert.KernelIdeal.StatsValue.sums_eq _ c c' 1 o) (fun c' o => Cert.KernelIdeal.StatsValue.sumsq_eq _ c c' 1 o)
        (fun c' o => Cert.KernelIdeal.StatsValue.sums_eq _ c c' 2 o) (fun c' o => Cert.KernelIdeal.StatsValue.sumsq_eq _ c c' 2 o)
        (Cert.KernelIdeal.CombineValue.out_eq _ c)), (h c).2⟩) (Cert.KernelIdeal.KRun.run_value m ρ)
  · refine (θ_run Cert.ReferenceIdeal.defs _ _).mono (fun r h c => ⟨(h c).1.trans ?_, (h c).2⟩) (Cert.ReferenceIdeal.Value.run (F := Ideal) m' ρ')
    obtain ⟨f0, f1, f2, f3, f4, f7, f8, f11, f12⟩ := Cert.Finite.fn_real _ _ _ _ _ _ _ _ _ _ _ _ _ _ _ (hpre c)
    refine (Cert.ReferenceIdeal.RefValue.result_eq (StableHlo.launchContents m' c)).trans ?_
    show Cert.Spec.full Cert.Spec.muR Cert.Spec.varR
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
    exact (Cert.Spec.full_eq _ _ _ _ _ _ _ _ _ _ _ _ _ _ _ f0 f1 f2 f3 f4 f7 f8 f11 f12).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
